-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2000x128 : Shape := ⟨2, ![2000, 128]⟩

abbrev nBuf : Space → Nat
  | .hbm => 158
  | .vmem => 61
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S3x128x128, .f32⟩
  | 25 => ⟨S3x128x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S1x128x128, .f32⟩
  | 45 => ⟨S128x128, .f32⟩
  | 46 => ⟨S1x128x128, .f32⟩
  | 47 => ⟨S128x128, .f32⟩
  | 48 => ⟨S50000x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S1x128x128, .f32⟩
  | 89 => ⟨S128x128, .f32⟩
  | 90 => ⟨S1x128x128, .f32⟩
  | 91 => ⟨S128x128, .f32⟩
  | 92 => ⟨S50000x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S1x128, .f32⟩
  | 108 => ⟨S128, .f32⟩
  | 109 => ⟨S1x128, .f32⟩
  | 110 => ⟨S1x128, .f32⟩
  | 111 => ⟨S128, .f32⟩
  | 112 => ⟨S1x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S1x128x128, .f32⟩
  | 5 => ⟨S128x128, .f32⟩
  | 6 => ⟨S1x128x128, .f32⟩
  | 7 => ⟨S128x128, .f32⟩
  | 8 => ⟨S50000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S1x128, .f32⟩
  | 24 => ⟨S128, .f32⟩
  | 25 => ⟨S1x128, .f32⟩
  | 26 => ⟨S1x128, .f32⟩
  | 27 => ⟨S128, .f32⟩
  | 28 => ⟨S1x128, .f32⟩
  | 29 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S128x128, .f32⟩
  | .local _ .vmem, ⟨46, _⟩ => ⟨S1x128, .f32⟩
  | .local _ .vmem, ⟨47, _⟩ => ⟨S2000x128, .f32⟩
  | .local _ .vmem, ⟨48, _⟩ => ⟨S2000x128, .f32⟩
  | .local _ .vmem, ⟨49, _⟩ => ⟨S1x128, .f32⟩
  | .local _ .vmem, ⟨50, _⟩ => ⟨S1x128, .f32⟩
  | .local _ .vmem, ⟨51, _⟩ => ⟨S2000x128, .f32⟩
  | .local _ .vmem, ⟨52, _⟩ => ⟨S2000x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70_0 : Ref sig .tc := ⟨.hbm, 92, rfl⟩
abbrev main_v70_1 : Ref sig .tc := ⟨.hbm, 93, rfl⟩
abbrev main_v70_2 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_14 : Ref sig .tc := ⟨.hbm, 114, rfl⟩
abbrev main_v87 : Ref sig .tc := ⟨.hbm, 115, rfl⟩
abbrev main_v88 : Ref sig .tc := ⟨.hbm, 116, rfl⟩
abbrev main_c_15 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_16 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106_0 : Ref sig .tc := ⟨.hbm, 136, rfl⟩
abbrev main_v106_1 : Ref sig .tc := ⟨.hbm, 137, rfl⟩
abbrev main_v106_2 : Ref sig .tc := ⟨.hbm, 138, rfl⟩
abbrev main_cst_17 : Ref sig .tc := ⟨.hbm, 139, rfl⟩
abbrev main_v107 : Ref sig .tc := ⟨.hbm, 140, rfl⟩
abbrev main_v108 : Ref sig .tc := ⟨.hbm, 141, rfl⟩
abbrev main_cst_18 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc4_stg7_0 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc5_stg6_0 : Ref sig .tc := ⟨.vmem, 59, rfl⟩
abbrev cc5_stg6_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48
abbrev cc4_sem6_0 : DmaSem sig := 49
abbrev cc4_sem7_0 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem5_1 : DmaSem sig := 58
abbrev cc5_sem6_0 : DmaSem sig := 59
abbrev cc5_sem6_1 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S3x128x128_S3x128x128_0_2_1 : S3x128x128.Transposes [0, 2, 1] S3x128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  slices_S3x128x128_S1x128x128_0_0_0 : S3x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S2000x128 : S1x128.Broadcasts S2000x128
  reduces_S2000x128_S128 : S2000x128.Reduces [0] S128
  shapeCasts_S128_S1x128 : S128.ShapeCasts S1x128
  bcast_S_S1x128 : S_.BroadcastsInDim S1x128 (![] : Fin 0 → Fin S1x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v70_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v70_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v86) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v103) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v105) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v106_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v106_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v106_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v115) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S2000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v122) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 266
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S1x128x128, .f32⟩
  | 40 => ⟨S128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S1x128x128, .f32⟩
  | 49 => ⟨S128x128, .f32⟩
  | 50 => ⟨S128x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S50000x128, .f32⟩
  | 118 => ⟨S50000x128, .f32⟩
  | 119 => ⟨S1x128x128, .f32⟩
  | 120 => ⟨S128x128, .f32⟩
  | 121 => ⟨S128x128, .f32⟩
  | 122 => ⟨S50000x128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S128x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S128, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S128x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S1x128x128, .f32⟩
  | 82 => ⟨S128x128, .f32⟩
  | 83 => ⟨S128x128, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S50000x128, .f32⟩
  | 99 => ⟨S50000x128, .f32⟩
  | 100 => ⟨S50000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call1_cst : Ref sig .tc := ⟨.hbm, 101, rfl⟩
abbrev main_call1_v0 : Ref sig .tc := ⟨.hbm, 102, rfl⟩
abbrev main_v62 : Ref sig .tc := ⟨.hbm, 103, rfl⟩
abbrev main_c_9 : Ref sig .tc := ⟨.hbm, 104, rfl⟩
abbrev main_v63 : Ref sig .tc := ⟨.hbm, 105, rfl⟩
abbrev main_v64 : Ref sig .tc := ⟨.hbm, 106, rfl⟩
abbrev main_c_10 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_11 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_12 : Ref sig .tc := ⟨.hbm, 133, rfl⟩
abbrev main_v89 : Ref sig .tc := ⟨.hbm, 134, rfl⟩
abbrev main_cst_13 : Ref sig .tc := ⟨.hbm, 135, rfl⟩
abbrev main_v90 : Ref sig .tc := ⟨.hbm, 136, rfl⟩
abbrev main_v91 : Ref sig .tc := ⟨.hbm, 137, rfl⟩
abbrev main_c_14 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_v5 : Ref sig .tc := ⟨.hbm, 146, rfl⟩
abbrev main_call2_v6 : Ref sig .tc := ⟨.hbm, 147, rfl⟩
abbrev main_call2_v7 : Ref sig .tc := ⟨.hbm, 148, rfl⟩
abbrev main_call2_cst_1 : Ref sig .tc := ⟨.hbm, 149, rfl⟩
abbrev main_call2_v8 : Ref sig .tc := ⟨.hbm, 150, rfl⟩
abbrev main_call2_cst_2 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_call2_cst_3 : Ref sig .tc := ⟨.hbm, 155, rfl⟩
abbrev main_call2_v12 : Ref sig .tc := ⟨.hbm, 156, rfl⟩
abbrev main_call2_cst_4 : Ref sig .tc := ⟨.hbm, 157, rfl⟩
abbrev main_call2_call0_v0 : Ref sig .tc := ⟨.hbm, 158, rfl⟩
abbrev main_call2_call0_v1 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_cst_15 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_call3_cst : Ref sig .tc := ⟨.hbm, 181, rfl⟩
abbrev main_call3_v0 : Ref sig .tc := ⟨.hbm, 182, rfl⟩
abbrev main_v112 : Ref sig .tc := ⟨.hbm, 183, rfl⟩
abbrev main_v113 : Ref sig .tc := ⟨.hbm, 184, rfl⟩
abbrev main_c_16 : Ref sig .tc := ⟨.hbm, 185, rfl⟩
abbrev main_v114 : Ref sig .tc := ⟨.hbm, 186, rfl⟩
abbrev main_v115 : Ref sig .tc := ⟨.hbm, 187, rfl⟩
abbrev main_c_17 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_18 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_cst_19 : Ref sig .tc := ⟨.hbm, 214, rfl⟩
abbrev main_v140 : Ref sig .tc := ⟨.hbm, 215, rfl⟩
abbrev main_cst_20 : Ref sig .tc := ⟨.hbm, 216, rfl⟩
abbrev main_v141 : Ref sig .tc := ⟨.hbm, 217, rfl⟩
abbrev main_v142 : Ref sig .tc := ⟨.hbm, 218, rfl⟩
abbrev main_c_21 : Ref sig .tc := ⟨.hbm, 219, rfl⟩
abbrev main_call4_cst : Ref sig .tc := ⟨.hbm, 220, rfl⟩
abbrev main_call4_v0 : Ref sig .tc := ⟨.hbm, 221, rfl⟩
abbrev main_call4_v1 : Ref sig .tc := ⟨.hbm, 222, rfl⟩
abbrev main_call4_cst_0 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_call4_v5 : Ref sig .tc := ⟨.hbm, 227, rfl⟩
abbrev main_call4_v6 : Ref sig .tc := ⟨.hbm, 228, rfl⟩
abbrev main_call4_v7 : Ref sig .tc := ⟨.hbm, 229, rfl⟩
abbrev main_call4_cst_1 : Ref sig .tc := ⟨.hbm, 230, rfl⟩
abbrev main_call4_v8 : Ref sig .tc := ⟨.hbm, 231, rfl⟩
abbrev main_call4_cst_2 : Ref sig .tc := ⟨.hbm, 232, rfl⟩
abbrev main_call4_v9 : Ref sig .tc := ⟨.hbm, 233, rfl⟩
abbrev main_call4_v10 : Ref sig .tc := ⟨.hbm, 234, rfl⟩
abbrev main_call4_v11 : Ref sig .tc := ⟨.hbm, 235, rfl⟩
abbrev main_call4_cst_3 : Ref sig .tc := ⟨.hbm, 236, rfl⟩
abbrev main_call4_v12 : Ref sig .tc := ⟨.hbm, 237, rfl⟩
abbrev main_call4_cst_4 : Ref sig .tc := ⟨.hbm, 238, rfl⟩
abbrev main_call4_call0_v0 : Ref sig .tc := ⟨.hbm, 239, rfl⟩
abbrev main_call4_call0_v1 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_cst_22 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_call5_cst : Ref sig .tc := ⟨.hbm, 262, rfl⟩
abbrev main_call5_v0 : Ref sig .tc := ⟨.hbm, 263, rfl⟩
abbrev main_v163 : Ref sig .tc := ⟨.hbm, 264, rfl⟩
abbrev main_v164 : Ref sig .tc := ⟨.hbm, 265, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefRunA.lean ====
/-
The reference network's first stretch of host operations (statements 1 to 60 of its program): the edge list split into sources and
  destinations, the in-degree of every node and its reciprocal, the first layer's neighbour mean (gather the source rows, add them
  into the destination rows, scale by the reciprocal degree), the two matrix products and the bias, the column mean, the two-pass
  column variance (the operations of the variance function written out over that call's own buffers, the masked select of its
  inner function included), and the start of the normalisation. Listed in program order; the program's text is this list run in
  order, every operation touches TensorCore buffers only, and the list of buffers it writes is recorded so that any other buffer
  is known to keep its contents.
-/
import proofs.«154196_j84232898609317_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in order; a called function's operations stand at the call, each at that call's own
    buffers and with the function it applies stated at the buffers' literal types. -/
abbrev ops_part0 : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v15 (broadcastInDim S800000 ![] bcast_S_S800000 : (⟨S_, .i32⟩ : BufTy).Contents (Elt F) → (⟨S800000, .i32⟩ : BufTy).Contents (Elt F)),
    StableHlo.binary main_v1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg0 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v22 main_v23 main_v24 (mulf : (⟨S50000x128, .f32⟩ : BufTy).Contents (Elt F) → (⟨S50000x128, .f32⟩ : BufTy).Contents (Elt F) → (⟨S50000x128, .f32⟩ : BufTy).Contents (Elt F)),
    StableHlo.unary main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.unary main_v26 main_v27 ((transpose S128x128 [1, 0] · transposes_S128x128_S128x128_1_0) : (⟨S128x128, .f32⟩ : BufTy).Contents (Elt F) → (⟨S128x128, .f32⟩ : BufTy).Contents (Elt F)),
    StableHlo.binary main_v24 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v29 ((extractStridedSlice S1x128 ![0, 0] · slices_S3x128_S1x128_0_0) : (⟨S3x128, .f32⟩ : BufTy).Contents (Elt F) → (⟨S1x128, .f32⟩ : BufTy).Contents (Elt F)),
    StableHlo.reshape main_v29 main_v30 rfl shapeCasts_S1x128_S128,
    StableHlo.unary main_v30 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v32 main_v33 (addf : (⟨S50000x128, .f32⟩ : BufTy).Contents (Elt F) → (⟨S50000x128, .f32⟩ : BufTy).Contents (Elt F) → (⟨S50000x128, .f32⟩ : BufTy).Contents (Elt F)),
    StableHlo.unary main_arg4 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v34 main_v35 rfl shapeCasts_S1x128x128_S128x128,
    StableHlo.unary main_v35 main_v36 ((transpose S128x128 [1, 0] · transposes_S128x128_S128x128_1_0) : (⟨S128x128, .f32⟩ : BufTy).Contents (Elt F) → (⟨S128x128, .f32⟩ : BufTy).Contents (Elt F)),
    StableHlo.binary main_arg0 main_v36 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v33 main_v37 main_v38 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x00000000#32),
    StableHlo.binary main_v38 main_cst_5 main_v39 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v40 (broadcastInDim S128 ![] bcast_S_S128 : (⟨S_, .f32⟩ : BufTy).Contents (Elt F) → (⟨S128, .f32⟩ : BufTy).Contents (Elt F)),
    StableHlo.binary main_v39 main_v40 main_v41 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.nullary main_call0_cst (constant S_ .f32 0x00000000#32),
    StableHlo.binary main_v38 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v0 main_call0_v1 (broadcastInDim S1x128 ![1] bcast_S128_S1x128_1 : (⟨S128, .f32⟩ : BufTy).Contents (Elt F) → (⟨S1x128, .f32⟩ : BufTy).Contents (Elt F)),
    StableHlo.nullary main_call0_cst_0 (constant S_ .f32 0x47435000#32),
    StableHlo.unary main_call0_cst_0 main_call0_v2 (broadcastInDim S1x128 ![] bcast_S_S1x128 : (⟨S_, .f32⟩ : BufTy).Contents (Elt F) → (⟨S1x128, .f32⟩ : BufTy).Contents (Elt F)),
    StableHlo.binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    StableHlo.unary main_call0_v3 main_call0_v4 (broadcastInDim S50000x128 ![0, 1] bcast_S1x128_S50000x128_0_1 : (⟨S1x128, .f32⟩ : BufTy).Contents (Elt F) → (⟨S50000x128, .f32⟩ : BufTy).Contents (Elt F)),
    StableHlo.binary main_v38 main_call0_v4 main_call0_v5 (subf : (⟨S50000x128, .f32⟩ : BufTy).Contents (Elt F) → (⟨S50000x128, .f32⟩ : BufTy).Contents (Elt F) → (⟨S50000x128, .f32⟩ : BufTy).Contents (Elt F)),
    StableHlo.binary main_call0_v5 main_call0_v5 main_call0_v6 (mulf : (⟨S50000x128, .f32⟩ : BufTy).Contents (Elt F) → (⟨S50000x128, .f32⟩ : BufTy).Contents (Elt F) → (⟨S50000x128, .f32⟩ : BufTy).Contents (Elt F)),
    StableHlo.unary main_c_7 main_call0_v7 (sitofp .f32 : (⟨S_, .i32⟩ : BufTy).Contents (Elt F) → (⟨S_, .f32⟩ : BufTy).Contents (Elt F)),
    StableHlo.nullary main_call0_cst_1 (constant S_ .f32 0x47435000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v8 main_call0_v10 (broadcastInDim S128 ![] bcast_S_S128 : (⟨S_, .f32⟩ : BufTy).Contents (Elt F) → (⟨S128, .f32⟩ : BufTy).Contents (Elt F)),
    StableHlo.binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S128 ![] bcast_S_S128 : (⟨S_, .f32⟩ : BufTy).Contents (Elt F) → (⟨S128, .f32⟩ : BufTy).Contents (Elt F)),
    StableHlo.ternary main_call0_v12 main_call0_v11 main_call0_call0_v1 main_v42 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_arg5 main_v43 ((extractStridedSlice S1x128 ![0, 0] · slices_S3x128_S1x128_0_0) : (⟨S3x128, .f32⟩ : BufTy).Contents (Elt F) → (⟨S1x128, .f32⟩ : BufTy).Contents (Elt F)),
    StableHlo.reshape main_v43 main_v44 rfl shapeCasts_S1x128_S128,
    StableHlo.unary main_v41 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v46 main_v47 (subf : (⟨S50000x128, .f32⟩ : BufTy).Contents (Elt F) → (⟨S50000x128, .f32⟩ : BufTy).Contents (Elt F) → (⟨S50000x128, .f32⟩ : BufTy).Contents (Elt F)),
    StableHlo.unary main_v44 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
/-- The program's text for this stretch is the list run in order: the called functions' definitions unfolded at their calls,
    both sides are one chain of steps once sequencing is re-associated; an operation of a called function, stated there over
    typed references, is the same operation at the call's literal buffers, the transport along the buffers' types being the
    identity. -/
theorem main_part0_eq (c : Dev nD) : main_part0 (F := F) c = seq ops_part0 := by
  simp only [main_part0, fn_var.body, fn_where.body, seq, bind_assoc, pure_bind]
  rfl

/-- Every operation of the stretch touches TensorCore buffers only. -/
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub ..⟩

/-- Every operation of the stretch determines its results (none allocates a buffer with contents not chosen). -/
theorem ops_part0_fresh : ∀ op ∈ (ops_part0 : List (HloOp τ sig (Elt F))), op.fresh = ∅ :=
  List.forall_iff_forall_mem.mp (show (ops_part0 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes, one per operation. -/
abbrev ops_part0_W : List (Ref sig .tc) :=
  [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25, main_v26, main_v27, main_v28, main_v29, main_v30, main_v31, main_v32, main_v33, main_v34, main_v35, main_v36, main_v37, main_v38, main_cst_5, main_v39, main_cst_6, main_v40, main_v41, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v42, main_v43, main_v44, main_v45, main_v46, main_v47, main_v48, main_v49]

set_option maxRecDepth 8192 in
/-- Each operation writes exactly its own result buffer, which is in the list. -/
theorem ops_part0_writes : (ops_part0 : List (HloOp τ sig (Elt F))).Forall fun op =>
    op.writes ⊆ (ops_part0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the stretch does not write keeps its contents through it. -/
theorem ops_part0_keep (V : Valuation τ sig (Elt F)) (r : Ref sig .tc) (h : r ∉ ops_part0_W) :
    after ops_part0 V (Proc.devRef .tc r) = V (Proc.devRef .tc r) :=
  after_of_writes_sub ops_part0 V ops_part0_writes h

end Cert.ReferenceIdeal.HandRun

end
-- ==== Proof.RefRunB.lean ====
/-
The second stretch (statements 61 to 120): the first layer's normalisation, scale, shift and rectifier (the rectifier's three
  operations written out over its call's buffers), then the second layer's neighbour mean, matrix products, bias, column mean and
  two-pass column variance, and the start of its normalisation.
-/
import proofs.«154196_j84232898609317_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in order; a called function's operations stand at the call, each at that call's own
    buffers and with the function it applies stated at the buffers' literal types. -/
abbrev ops_part1 : List (HloOp τ sig (Elt F)) :=
  [
    StableHlo.binary main_v49 main_v47 main_v50 (mulf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v51 (broadcastInDim S128 ![] bcast_S_S128 : (⟨S_, .f32⟩ : BufTy).Contents (Elt F) → (⟨S128, .f32⟩ : BufTy).Contents (Elt F)),
    StableHlo.binary main_v42 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v55 main_v56 (mulf : (⟨S50000x128, .f32⟩ : BufTy).Contents (Elt F) → (⟨S50000x128, .f32⟩ : BufTy).Contents (Elt F) → (⟨S50000x128, .f32⟩ : BufTy).Contents (Elt F)),
    StableHlo.unary main_arg6 main_v57 ((extractStridedSlice S1x128 ![0, 0] · slices_S3x128_S1x128_0_0) : (⟨S3x128, .f32⟩ : BufTy).Contents (Elt F) → (⟨S1x128, .f32⟩ : BufTy).Contents (Elt F)),
    StableHlo.reshape main_v57 main_v58 rfl shapeCasts_S1x128_S128,
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v60 main_v61 (addf : (⟨S50000x128, .f32⟩ : BufTy).Contents (Elt F) → (⟨S50000x128, .f32⟩ : BufTy).Contents (Elt F) → (⟨S50000x128, .f32⟩ : BufTy).Contents (Elt F)),
    StableHlo.nullary main_call1_cst (constant S_ .f32 0x00000000#32),
    StableHlo.unary main_call1_cst main_call1_v0 (broadcastInDim S50000x128 ![] bcast_S_S50000x128 : (⟨S_, .f32⟩ : BufTy).Contents (Elt F) → (⟨S50000x128, .f32⟩ : BufTy).Contents (Elt F)),
    StableHlo.binary main_v61 main_call1_v0 main_v62 (maximumf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v63 (broadcastInDim S800000 ![] bcast_S_S800000 : (⟨S_, .i32⟩ : BufTy).Contents (Elt F) → (⟨S800000, .i32⟩ : BufTy).Contents (Elt F)),
    StableHlo.binary main_v1 main_v63 main_v64 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v65 (broadcastInDim S800000 ![] bcast_S_S800000 : (⟨S_, .i32⟩ : BufTy).Contents (Elt F) → (⟨S800000, .i32⟩ : BufTy).Contents (Elt F)),
    StableHlo.binary main_v1 main_v65 main_v66 (addi : (⟨S800000, .i32⟩ : BufTy).Contents (Elt F) → (⟨S800000, .i32⟩ : BufTy).Contents (Elt F) → (⟨S800000, .i32⟩ : BufTy).Contents (Elt F)),
    StableHlo.ternary main_v64 main_v66 main_v1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v67 main_v68 (broadcastInDim S800000x1 ![0] bcast_S800000_S800000x1_0 : (⟨S800000, .i32⟩ : BufTy).Contents (Elt F) → (⟨S800000x1, .i32⟩ : BufTy).Contents (Elt F)),
    StableHlo.binary main_v62 main_v68 main_v69 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v70 (broadcastInDim S50000x128 ![] bcast_S_S50000x128 : (⟨S_, .f32⟩ : BufTy).Contents (Elt F) → (⟨S50000x128, .f32⟩ : BufTy).Contents (Elt F)),
    StableHlo.unary main_v3 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v73 (broadcastInDim S50000x128 ![0, 1] bcast_S50000x1_S50000x128_0_1 : (⟨S50000x1, .f32⟩ : BufTy).Contents (Elt F) → (⟨S50000x128, .f32⟩ : BufTy).Contents (Elt F)),
    StableHlo.binary main_v72 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_arg2 main_v75 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v75 main_v76 rfl shapeCasts_S1x128x128_S128x128,
    StableHlo.unary main_v76 main_v77 ((transpose S128x128 [1, 0] · transposes_S128x128_S128x128_1_0) : (⟨S128x128, .f32⟩ : BufTy).Contents (Elt F) → (⟨S128x128, .f32⟩ : BufTy).Contents (Elt F)),
    StableHlo.binary main_v74 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v79 ((extractStridedSlice S1x128 ![1, 0] · slices_S3x128_S1x128_1_0) : (⟨S3x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (addf : (⟨S50000x128, .f32⟩ : BufTy).Contents (Elt F) → (⟨S50000x128, .f32⟩ : BufTy).Contents (Elt F) → (⟨S50000x128, .f32⟩ : BufTy).Contents (Elt F)),
    StableHlo.unary main_arg4 main_v84 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v84 main_v85 rfl shapeCasts_S1x128x128_S128x128,
    StableHlo.unary main_v85 main_v86 ((transpose S128x128 [1, 0] · transposes_S128x128_S128x128_1_0) : (⟨S128x128, .f32⟩ : BufTy).Contents (Elt F) → (⟨S128x128, .f32⟩ : BufTy).Contents (Elt F)),
    StableHlo.binary main_v62 main_v86 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v83 main_v87 main_v88 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v88 main_cst_12 main_v89 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v90 (broadcastInDim S128 ![] bcast_S_S128 : (⟨S_, .f32⟩ : BufTy).Contents (Elt F) → (⟨S128, .f32⟩ : BufTy).Contents (Elt F)),
    StableHlo.binary main_v89 main_v90 main_v91 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.nullary main_call2_cst (constant S_ .f32 0x00000000#32),
    StableHlo.binary main_v88 main_call2_cst main_call2_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v0 main_call2_v1 (broadcastInDim S1x128 ![1] bcast_S128_S1x128_1 : (⟨S128, .f32⟩ : BufTy).Contents (Elt F) → (⟨S1x128, .f32⟩ : BufTy).Contents (Elt F)),
    StableHlo.nullary main_call2_cst_0 (constant S_ .f32 0x47435000#32),
    StableHlo.unary main_call2_cst_0 main_call2_v2 (broadcastInDim S1x128 ![] bcast_S_S1x128 : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 (broadcastInDim S50000x128 ![0, 1] bcast_S1x128_S50000x128_0_1 : (⟨S1x128, .f32⟩ : BufTy).Contents (Elt F) → (⟨S50000x128, .f32⟩ : BufTy).Contents (Elt F)),
    StableHlo.binary main_v88 main_call2_v4 main_call2_v5 (subf : (⟨S50000x128, .f32⟩ : BufTy).Contents (Elt F) → (⟨S50000x128, .f32⟩ : BufTy).Contents (Elt F) → (⟨S50000x128, .f32⟩ : BufTy).Contents (Elt F)),
    StableHlo.binary main_call2_v5 main_call2_v5 main_call2_v6 (mulf : (⟨S50000x128, .f32⟩ : BufTy).Contents (Elt F) → (⟨S50000x128, .f32⟩ : BufTy).Contents (Elt F) → (⟨S50000x128, .f32⟩ : BufTy).Contents (Elt F)),
    StableHlo.unary main_c_14 main_call2_v7 (sitofp .f32 : (⟨S_, .i32⟩ : BufTy).Contents (Elt F) → (⟨S_, .f32⟩ : BufTy).Contents (Elt F)),
    StableHlo.nullary main_call2_cst_1 (constant S_ .f32 0x47435000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v8 main_call2_v10 (broadcastInDim S128 ![] bcast_S_S128 : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S128 ![] bcast_S_S128 : (⟨S_, .f32⟩ : BufTy).Contents (Elt F) → (⟨S128, .f32⟩ : BufTy).Contents (Elt F)),
    StableHlo.ternary main_call2_v12 main_call2_v11 main_call2_call0_v1 main_v92 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_arg5 main_v93 ((extractStridedSlice S1x128 ![1, 0] · slices_S3x128_S1x128_1_0) : (⟨S3x128, .f32⟩ : BufTy).Contents (Elt F) → (⟨S1x128, .f32⟩ : BufTy).Contents (Elt F)),
    StableHlo.reshape main_v93 main_v94 rfl shapeCasts_S1x128_S128,
    StableHlo.unary main_v91 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v96 main_v97 (subf : (⟨S50000x128, .f32⟩ : BufTy).Contents (Elt F) → (⟨S50000x128, .f32⟩ : BufTy).Contents (Elt F) → (⟨S50000x128, .f32⟩ : BufTy).Contents (Elt F)),
    StableHlo.unary main_v94 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v97 main_v100 (mulf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v101 (broadcastInDim S128 ![] bcast_S_S128 : (⟨S_, .f32⟩ : BufTy).Contents (Elt F) → (⟨S128, .f32⟩ : BufTy).Contents (Elt F)) ]

set_option maxRecDepth 8192 in
/-- The program's text for this stretch is the list run in order: the called functions' definitions unfolded at their calls,
    both sides are one chain of steps once sequencing is re-associated; an operation of a called function, stated there over
    typed references, is the same operation at the call's literal buffers, the transport along the buffers' types being the
    identity. -/
theorem main_part1_eq (c : Dev nD) : main_part1 (F := F) c = seq ops_part1 := by
  simp only [main_part1, fn_var.body, fn_where.body, fn_relu.body, seq, bind_assoc, pure_bind]
  rfl

/-- Every operation of the stretch touches TensorCore buffers only. -/
theorem ops_part1_sub : (ops_part1 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub ..⟩

/-- Every operation of the stretch determines its results (none allocates a buffer with contents not chosen). -/
theorem ops_part1_fresh : ∀ op ∈ (ops_part1 : List (HloOp τ sig (Elt F))), op.fresh = ∅ :=
  List.forall_iff_forall_mem.mp (show (ops_part1 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes, one per operation. -/
abbrev ops_part1_W : List (Ref sig .tc) :=
  [main_v50, main_cst_8, main_v51, main_v52, main_v53, main_v54, main_v55, main_v56, main_v57, main_v58, main_v59, main_v60, main_v61, main_call1_cst, main_call1_v0, main_v62, main_c_9, main_v63, main_v64, main_c_10, main_v65, main_v66, main_v67, main_v68, main_v69, main_cst_11, main_v70, main_v71, main_v72, main_v73, main_v74, main_v75, main_v76, main_v77, main_v78, main_v79, main_v80, main_v81, main_v82, main_v83, main_v84, main_v85, main_v86, main_v87, main_v88, main_cst_12, main_v89, main_cst_13, main_v90, main_v91, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v92, main_v93, main_v94, main_v95, main_v96, main_v97, main_v98, main_v99, main_v100, main_cst_15, main_v101]

set_option maxRecDepth 8192 in
/-- Each operation writes exactly its own result buffer, which is in the list. -/
theorem ops_part1_writes : (ops_part1 : List (HloOp τ sig (Elt F))).Forall fun op =>
    op.writes ⊆ (ops_part1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the stretch does not write keeps its contents through it. -/
theorem ops_part1_keep (V : Valuation τ sig (Elt F)) (r : Ref sig .tc) (h : r ∉ ops_part1_W) :
    after ops_part1 V (Proc.devRef .tc r) = V (Proc.devRef .tc r) :=
  after_of_writes_sub ops_part1 V ops_part1_writes h

end Cert.ReferenceIdeal.HandRun

end
-- ==== Proof.RefRunC.lean ====
/-
The third stretch (statements 121 to 180): the second layer's normalisation, rectifier and residual sum, then the third layer's
  neighbour mean, matrix products, bias, column mean, two-pass column variance and the reciprocal square root.
-/
import proofs.«154196_j84232898609317_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in order; a called function's operations stand at the call, each at that call's own
    buffers and with the function it applies stated at the buffers' literal types. -/
abbrev ops_part2 : List (HloOp τ sig (Elt F)) :=
  [
    StableHlo.binary main_v92 main_v101 main_v102 (addf : (⟨S128, .f32⟩ : BufTy).Contents (Elt F) → (⟨S128, .f32⟩ : BufTy).Contents (Elt F) → (⟨S128, .f32⟩ : BufTy).Contents (Elt F)),
    StableHlo.unary main_v102 main_v103 (Host.rsqrt : (⟨S128, .f32⟩ : BufTy).Contents (Elt F) → (⟨S128, .f32⟩ : BufTy).Contents (Elt F)),
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v105 main_v106 (mulf : (⟨S50000x128, .f32⟩ : BufTy).Contents (Elt F) → (⟨S50000x128, .f32⟩ : BufTy).Contents (Elt F) → (⟨S50000x128, .f32⟩ : BufTy).Contents (Elt F)),
    StableHlo.unary main_arg6 main_v107 ((extractStridedSlice S1x128 ![1, 0] · slices_S3x128_S1x128_1_0) : (⟨S3x128, .f32⟩ : BufTy).Contents (Elt F) → (⟨S1x128, .f32⟩ : BufTy).Contents (Elt F)),
    StableHlo.reshape main_v107 main_v108 rfl shapeCasts_S1x128_S128,
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v110 main_v111 (addf : (⟨S50000x128, .f32⟩ : BufTy).Contents (Elt F) → (⟨S50000x128, .f32⟩ : BufTy).Contents (Elt F) → (⟨S50000x128, .f32⟩ : BufTy).Contents (Elt F)),
    StableHlo.nullary main_call3_cst (constant S_ .f32 0x00000000#32),
    StableHlo.unary main_call3_cst main_call3_v0 (broadcastInDim S50000x128 ![] bcast_S_S50000x128 : (⟨S_, .f32⟩ : BufTy).Contents (Elt F) → (⟨S50000x128, .f32⟩ : BufTy).Contents (Elt F)),
    StableHlo.binary main_v111 main_call3_v0 main_v112 (maximumf : (⟨S50000x128, .f32⟩ : BufTy).Contents (Elt F) → (⟨S50000x128, .f32⟩ : BufTy).Contents (Elt F) → (⟨S50000x128, .f32⟩ : BufTy).Contents (Elt F)),
    StableHlo.binary main_v112 main_v62 main_v113 (addf : (⟨S50000x128, .f32⟩ : BufTy).Contents (Elt F) → (⟨S50000x128, .f32⟩ : BufTy).Contents (Elt F) → (⟨S50000x128, .f32⟩ : BufTy).Contents (Elt F)),
    StableHlo.nullary main_c_16 (constantI S_ 32 0#32),
    StableHlo.unary main_c_16 main_v114 (broadcastInDim S800000 ![] bcast_S_S800000 : (⟨S_, .i32⟩ : BufTy).Contents (Elt F) → (⟨S800000, .i32⟩ : BufTy).Contents (Elt F)),
    StableHlo.binary main_v1 main_v114 main_v115 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v116 (broadcastInDim S800000 ![] bcast_S_S800000 : (⟨S_, .i32⟩ : BufTy).Contents (Elt F) → (⟨S800000, .i32⟩ : BufTy).Contents (Elt F)),
    StableHlo.binary main_v1 main_v116 main_v117 (addi : (⟨S800000, .i32⟩ : BufTy).Contents (Elt F) → (⟨S800000, .i32⟩ : BufTy).Contents (Elt F) → (⟨S800000, .i32⟩ : BufTy).Contents (Elt F)),
    StableHlo.ternary main_v115 main_v117 main_v1 main_v118 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v118 main_v119 (broadcastInDim S800000x1 ![0] bcast_S800000_S800000x1_0 : (⟨S800000, .i32⟩ : BufTy).Contents (Elt F) → (⟨S800000x1, .i32⟩ : BufTy).Contents (Elt F)),
    StableHlo.binary main_v113 main_v119 main_v120 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v121 (broadcastInDim S50000x128 ![] bcast_S_S50000x128 : (⟨S_, .f32⟩ : BufTy).Contents (Elt F) → (⟨S50000x128, .f32⟩ : BufTy).Contents (Elt F)),
    StableHlo.unary main_v3 main_v122 (broadcastInDim S800000x1 ![0] bcast_S800000_S800000x1_0 : (⟨S800000, .i32⟩ : BufTy).Contents (Elt F) → (⟨S800000x1, .i32⟩ : BufTy).Contents (Elt F)),
    StableHlo.ternary main_v121 main_v122 main_v120 main_v123 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v124 (broadcastInDim S50000x128 ![0, 1] bcast_S50000x1_S50000x128_0_1 : (⟨S50000x1, .f32⟩ : BufTy).Contents (Elt F) → (⟨S50000x128, .f32⟩ : BufTy).Contents (Elt F)),
    StableHlo.binary main_v123 main_v124 main_v125 (mulf : (⟨S50000x128, .f32⟩ : BufTy).Contents (Elt F) → (⟨S50000x128, .f32⟩ : BufTy).Contents (Elt F) → (⟨S50000x128, .f32⟩ : BufTy).Contents (Elt F)),
    StableHlo.unary main_arg2 main_v126 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v126 main_v127 rfl shapeCasts_S1x128x128_S128x128,
    StableHlo.unary main_v127 main_v128 ((transpose S128x128 [1, 0] · transposes_S128x128_S128x128_1_0) : (⟨S128x128, .f32⟩ : BufTy).Contents (Elt F) → (⟨S128x128, .f32⟩ : BufTy).Contents (Elt F)),
    StableHlo.binary main_v125 main_v128 main_v129 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v130 ((extractStridedSlice S1x128 ![2, 0] · slices_S3x128_S1x128_2_0) : (⟨S3x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v133 main_v134 (addf : (⟨S50000x128, .f32⟩ : BufTy).Contents (Elt F) → (⟨S50000x128, .f32⟩ : BufTy).Contents (Elt F) → (⟨S50000x128, .f32⟩ : BufTy).Contents (Elt F)),
    StableHlo.unary main_arg4 main_v135 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v135 main_v136 rfl shapeCasts_S1x128x128_S128x128,
    StableHlo.unary main_v136 main_v137 ((transpose S128x128 [1, 0] · transposes_S128x128_S128x128_1_0) : (⟨S128x128, .f32⟩ : BufTy).Contents (Elt F) → (⟨S128x128, .f32⟩ : BufTy).Contents (Elt F)),
    StableHlo.binary main_v113 main_v137 main_v138 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v134 main_v138 main_v139 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x00000000#32),
    StableHlo.binary main_v139 main_cst_19 main_v140 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v141 (broadcastInDim S128 ![] bcast_S_S128 : (⟨S_, .f32⟩ : BufTy).Contents (Elt F) → (⟨S128, .f32⟩ : BufTy).Contents (Elt F)),
    StableHlo.binary main_v140 main_v141 main_v142 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.nullary main_call4_cst (constant S_ .f32 0x00000000#32),
    StableHlo.binary main_v139 main_call4_cst main_call4_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call4_v0 main_call4_v1 (broadcastInDim S1x128 ![1] bcast_S128_S1x128_1 : (⟨S128, .f32⟩ : BufTy).Contents (Elt F) → (⟨S1x128, .f32⟩ : BufTy).Contents (Elt F)),
    StableHlo.nullary main_call4_cst_0 (constant S_ .f32 0x47435000#32),
    StableHlo.unary main_call4_cst_0 main_call4_v2 (broadcastInDim S1x128 ![] bcast_S_S1x128 : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 (broadcastInDim S50000x128 ![0, 1] bcast_S1x128_S50000x128_0_1 : (⟨S1x128, .f32⟩ : BufTy).Contents (Elt F) → (⟨S50000x128, .f32⟩ : BufTy).Contents (Elt F)),
    StableHlo.binary main_v139 main_call4_v4 main_call4_v5 (subf : (⟨S50000x128, .f32⟩ : BufTy).Contents (Elt F) → (⟨S50000x128, .f32⟩ : BufTy).Contents (Elt F) → (⟨S50000x128, .f32⟩ : BufTy).Contents (Elt F)),
    StableHlo.binary main_call4_v5 main_call4_v5 main_call4_v6 (mulf : (⟨S50000x128, .f32⟩ : BufTy).Contents (Elt F) → (⟨S50000x128, .f32⟩ : BufTy).Contents (Elt F) → (⟨S50000x128, .f32⟩ : BufTy).Contents (Elt F)),
    StableHlo.unary main_c_21 main_call4_v7 (sitofp .f32 : (⟨S_, .i32⟩ : BufTy).Contents (Elt F) → (⟨S_, .f32⟩ : BufTy).Contents (Elt F)),
    StableHlo.nullary main_call4_cst_1 (constant S_ .f32 0x47435000#32),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32),
    StableHlo.binary main_call4_v6 main_call4_cst_2 main_call4_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call4_v8 main_call4_v10 (broadcastInDim S128 ![] bcast_S_S128 : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 (constant S_ .f32 0x00000000#32),
    StableHlo.binary main_call4_v8 main_call4_cst_3 main_call4_v12 (cmpf .ogt : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 (broadcastInDim S128 ![] bcast_S_S128 : (⟨S_, .f32⟩ : BufTy).Contents (Elt F) → (⟨S128, .f32⟩ : BufTy).Contents (Elt F)),
    StableHlo.ternary main_call4_v12 main_call4_v11 main_call4_call0_v1 main_v143 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_arg5 main_v144 ((extractStridedSlice S1x128 ![2, 0] · slices_S3x128_S1x128_2_0) : (⟨S3x128, .f32⟩ : BufTy).Contents (Elt F) → (⟨S1x128, .f32⟩ : BufTy).Contents (Elt F)),
    StableHlo.reshape main_v144 main_v145 rfl shapeCasts_S1x128_S128,
    StableHlo.unary main_v142 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v147 main_v148 (subf : (⟨S50000x128, .f32⟩ : BufTy).Contents (Elt F) → (⟨S50000x128, .f32⟩ : BufTy).Contents (Elt F) → (⟨S50000x128, .f32⟩ : BufTy).Contents (Elt F)),
    StableHlo.unary main_v145 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v148 main_v151 (mulf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v152 (broadcastInDim S128 ![] bcast_S_S128 : (⟨S_, .f32⟩ : BufTy).Contents (Elt F) → (⟨S128, .f32⟩ : BufTy).Contents (Elt F)),
    StableHlo.binary main_v143 main_v152 main_v153 (addf : (⟨S128, .f32⟩ : BufTy).Contents (Elt F) → (⟨S128, .f32⟩ : BufTy).Contents (Elt F) → (⟨S128, .f32⟩ : BufTy).Contents (Elt F)),
    StableHlo.unary main_v153 main_v154 (Host.rsqrt : (⟨S128, .f32⟩ : BufTy).Contents (Elt F) → (⟨S128, .f32⟩ : BufTy).Contents (Elt F)) ]

set_option maxRecDepth 8192 in
/-- The program's text for this stretch is the list run in order: the called functions' definitions unfolded at their calls,
    both sides are one chain of steps once sequencing is re-associated; an operation of a called function, stated there over
    typed references, is the same operation at the call's literal buffers, the transport along the buffers' types being the
    identity. -/
theorem main_part2_eq (c : Dev nD) : main_part2 (F := F) c = seq ops_part2 := by
  simp only [main_part2, fn_var.body, fn_where.body, fn_relu.body, seq, bind_assoc, pure_bind]
  rfl

/-- Every operation of the stretch touches TensorCore buffers only. -/
theorem ops_part2_sub : (ops_part2 : List (HloOp τ sig (Elt F))).Forall fun op => op.bufs ⊆ tcRefs τ sig :=
  ⟨binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub ..⟩

/-- Every operation of the stretch determines its results (none allocates a buffer with contents not chosen). -/
theorem ops_part2_fresh : ∀ op ∈ (ops_part2 : List (HloOp τ sig (Elt F))), op.fresh = ∅ :=
  List.forall_iff_forall_mem.mp (show (ops_part2 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes, one per operation. -/
abbrev ops_part2_W : List (Ref sig .tc) :=
  [main_v102, main_v103, main_v104, main_v105, main_v106, main_v107, main_v108, main_v109, main_v110, main_v111, main_call3_cst, main_call3_v0, main_v112, main_v113, main_c_16, main_v114, main_v115, main_c_17, main_v116, main_v117, main_v118, main_v119, main_v120, main_cst_18, main_v121, main_v122, main_v123, main_v124, main_v125, main_v126, main_v127, main_v128, main_v129, main_v130, main_v131, main_v132, main_v133, main_v134, main_v135, main_v136, main_v137, main_v138, main_v139, main_cst_19, main_v140, main_cst_20, main_v141, main_v142, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v143, main_v144, main_v145, main_v146, main_v147, main_v148, main_v149, main_v150, main_v151, main_cst_22, main_v152, main_v153, main_v154]

set_option maxRecDepth 8192 in
/-- Each operation writes exactly its own result buffer, which is in the list. -/
theorem ops_part2_writes : (ops_part2 : List (HloOp τ sig (Elt F))).Forall fun op =>
    op.writes ⊆ (ops_part2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the stretch does not write keeps its contents through it. -/
theorem ops_part2_keep (V : Valuation τ sig (Elt F)) (r : Ref sig .tc) (h : r ∉ ops_part2_W) :
    after ops_part2 V (Proc.devRef .tc r) = V (Proc.devRef .tc r) :=
  after_of_writes_sub ops_part2 V ops_part2_writes h

end Cert.ReferenceIdeal.HandRun

end
-- ==== Proof.RefRunD.lean ====
/-
The last stretch (statements 181 to 191): the third layer's normalisation, scale, shift, rectifier and residual sum, which is
  the network's result.
-/
import proofs.«154196_j84232898609317_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in order; a called function's operations stand at the call, each at that call's own
    buffers and with the function it applies stated at the buffers' literal types. -/
abbrev ops_part3 : List (HloOp τ sig (Elt F)) :=
  [
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S50000x128 ![0, 1] bcast_S1x128_S50000x128_0_1 : (⟨S1x128, .f32⟩ : BufTy).Contents (Elt F) → (⟨S50000x128, .f32⟩ : BufTy).Contents (Elt F)),
    StableHlo.binary main_v151 main_v156 main_v157 (mulf : (⟨S50000x128, .f32⟩ : BufTy).Contents (Elt F) → (⟨S50000x128, .f32⟩ : BufTy).Contents (Elt F) → (⟨S50000x128, .f32⟩ : BufTy).Contents (Elt F)),
    StableHlo.unary main_arg6 main_v158 ((extractStridedSlice S1x128 ![2, 0] · slices_S3x128_S1x128_2_0) : (⟨S3x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v161 main_v162 (addf : (⟨S50000x128, .f32⟩ : BufTy).Contents (Elt F) → (⟨S50000x128, .f32⟩ : BufTy).Contents (Elt F) → (⟨S50000x128, .f32⟩ : BufTy).Contents (Elt F)),
    StableHlo.nullary main_call5_cst (constant S_ .f32 0x00000000#32),
    StableHlo.unary main_call5_cst main_call5_v0 (broadcastInDim S50000x128 ![] bcast_S_S50000x128 : (⟨S_, .f32⟩ : BufTy).Contents (Elt F) → (⟨S50000x128, .f32⟩ : BufTy).Contents (Elt F)),
    StableHlo.binary main_v162 main_call5_v0 main_v163 (maximumf : (⟨S50000x128, .f32⟩ : BufTy).Contents (Elt F) → (⟨S50000x128, .f32⟩ : BufTy).Contents (Elt F) → (⟨S50000x128, .f32⟩ : BufTy).Contents (Elt F)),
    StableHlo.binary main_v163 main_v113 main_v164 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- The program's text for this stretch is the list run in order: the called functions' definitions unfolded at their calls,
    both sides are one chain of steps once sequencing is re-associated; an operation of a called function, stated there over
    typed references, is the same operation at the call's literal buffers, the transport along the buffers' types being the
    identity. -/
theorem main_part3_eq (c : Dev nD) : main_part3 (F := F) c = seq ops_part3 := by
  simp only [main_part3, fn_relu.body, seq, bind_assoc, pure_bind]
  rfl

/-- Every operation of the stretch touches TensorCore buffers only. -/
theorem ops_part3_sub : (ops_part3 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

/-- Every operation of the stretch determines its results (none allocates a buffer with contents not chosen). -/
theorem ops_part3_fresh : ∀ op ∈ (ops_part3 : List (HloOp τ sig (Elt F))), op.fresh = ∅ :=
  List.forall_iff_forall_mem.mp (show (ops_part3 : List (HloOp τ sig (Elt F))).Forall fun op => op.fresh = ∅ from
    ⟨rfl, rfl, rfl, rfl, rfl, rfl, rfl, rfl, rfl, rfl, rfl, rfl⟩)

/-- The buffers the stretch writes, one per operation. -/
abbrev ops_part3_W : List (Ref sig .tc) :=
  [main_v155, main_v156, main_v157, main_v158, main_v159, main_v160, main_v161, main_v162, main_call5_cst, main_call5_v0, main_v163, main_v164]

set_option maxRecDepth 8192 in
/-- Each operation writes exactly its own result buffer, which is in the list. -/
theorem ops_part3_writes : (ops_part3 : List (HloOp τ sig (Elt F))).Forall fun op =>
    op.writes ⊆ (ops_part3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the stretch does not write keeps its contents through it. -/
theorem ops_part3_keep (V : Valuation τ sig (Elt F)) (r : Ref sig .tc) (h : r ∉ ops_part3_W) :
    after ops_part3 V (Proc.devRef .tc r) = V (Proc.devRef .tc r) :=
  after_of_writes_sub ops_part3 V ops_part3_writes h

end Cert.ReferenceIdeal.HandRun

end
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.RefRun.lean ====
/-
  The reference network's whole program as ONE list of host operations — its four stretches one after the other — and its run:
  from any launch memory every weakly fair execution terminates, the result buffer ends at the list's fold over the launch
  contents, and the seven argument arrays end as they were (no operation writes an argument).
-/
import proofs.«154196_j84232898609317_1_alg».proof.Proof.RefRunA
import proofs.«154196_j84232898609317_1_alg».proof.Proof.RefRunB
import proofs.«154196_j84232898609317_1_alg».proof.Proof.RefRunC
import proofs.«154196_j84232898609317_1_alg».proof.Proof.RefRunD
import proofs.«154196_j84232898609317_1_alg».proof.Proof.LibFold

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the program in order, called functions' operations at their calls. -/
abbrev ops : List (HloOp τ sig (Elt F)) := ops_part0 ++ (ops_part1 ++ (ops_part2 ++ ops_part3))

/-- The program is the list run in order: stretch by stretch, and two lists run one after the other are their concatenation. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_iff_forall_mem.mpr fun op h =>
    (List.mem_append.mp h).elim (List.forall_iff_forall_mem.mp ops_part0_sub op) fun h =>
    (List.mem_append.mp h).elim (List.forall_iff_forall_mem.mp ops_part1_sub op) fun h =>
    (List.mem_append.mp h).elim (List.forall_iff_forall_mem.mp ops_part2_sub op) (List.forall_iff_forall_mem.mp ops_part3_sub op)

/-- Every operation determines its results. -/
theorem ops_fresh : ∀ op ∈ (ops : List (HloOp τ sig (Elt F))), op.fresh = ∅ := fun op h =>
    (List.mem_append.mp h).elim (ops_part0_fresh op) fun h =>
    (List.mem_append.mp h).elim (ops_part1_fresh op) fun h =>
    (List.mem_append.mp h).elim (ops_part2_fresh op) (ops_part3_fresh op)

/-- A buffer that no stretch writes keeps its contents through the whole program. -/
theorem keep (V : Valuation τ sig (Elt F)) (r : Ref sig .tc) (h0 : r ∉ ops_part0_W) (h1 : r ∉ ops_part1_W)
    (h2 : r ∉ ops_part2_W) (h3 : r ∉ ops_part3_W) :
    after ops V (Proc.devRef .tc r) = V (Proc.devRef .tc r) := by
  show after (ops_part0 ++ (ops_part1 ++ (ops_part2 ++ ops_part3))) V (Proc.devRef .tc r) = _
  rw [Fold.after_append, Fold.after_append, Fold.after_append, ops_part3_keep _ r h3, ops_part2_keep _ r h2,
    ops_part1_keep _ r h1, ops_part0_keep _ r h0]

/-- On every device, for any float values, from any memory with zero counters: every weakly fair execution of the program
    terminates with the result buffer at the operations' fold over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v164) = after ops (launchContents m c) (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c main_v164,
      (h c main_arg0).trans (keep (launchContents m c) main_arg0 (by decide) (by decide) (by decide) (by decide)),
      (h c main_arg1).trans (keep (launchContents m c) main_arg1 (by decide) (by decide) (by decide) (by decide)),
      (h c main_arg2).trans (keep (launchContents m c) main_arg2 (by decide) (by decide) (by decide) (by decide)),
      (h c main_arg3).trans (keep (launchContents m c) main_arg3 (by decide) (by decide) (by decide) (by decide)),
      (h c main_arg4).trans (keep (launchContents m c) main_arg4 (by decide) (by decide) (by decide) (by decide)),
      (h c main_arg5).trans (keep (launchContents m c) main_arg5 (by decide) (by decide) (by decide) (by decide)),
      (h c main_arg6).trans (keep (launchContents m c) main_arg6 (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.KRun.lean ====
/-
  The idealized kernel program's run with its result named: every weakly fair execution of @main terminates without a fault,
  the argument arrays end as launched, and the result array ends at the contents the last region's write-backs leave
  (the fold of the host stretches and the six regions from the launch memory, at the result buffer).
-/
import proofs.«154196_j84232898609317_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its twelve segments, the result buffer read off the last boundary's contents like the
    arguments. -/
theorem run : θ_run defs (onTc (τ := τ) (main (F := F))) ⟨m, fun _ => 0, ρ⟩ (fun r => ∀ c : Dev nD,
      r.2.mem ((c.tc : Thread nD τ).loc main_v122) = W12 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v122 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.KRun

end
-- ==== Proof.Spec.lean ====
/-
  The functions a mean-aggregation graph layer with batch normalisation computes, index by index on the extended reals.

  For node features x : [N, H] (N = 50000 rows, H = 128 columns), neighbour means agg : [N, H], weights wl, wr : [H, H]
  (already transposed: entry (k, j) multiplies input column k into output column j), a bias row b : [1, H]:

      lin (r, j)      = (Σ_k agg (r, k) · wl (k, j) + b (0, j)) + Σ_k x (r, k) · wr (k, j)
      colSum h (0, j) = Σ_r h (r, j)            colSumSq h (0, j) = Σ_r h (r, j) · h (r, j)
      bn (r, j)       = max (γ (0, j) · (h (r, j) − μ (0, j)) · σ (0, j) + β (0, j), 0)
      bnRes (r, j)    = bn (r, j) + x (r, j)

  with μ, σ, γ, β rows [1, H]. Sums are finite sums of extended reals in the order of the coordinate; no finiteness is
  assumed here.
-/
import Idealize.ShloMosaic.PureOps.Ideal
import Idealize.ShloMosaic.Lib.ValueIdx

noncomputable section

open scoped BigOperators

namespace Cert.Sage

open Idealize.ShloMosaic Idealize.ShloMosaic.ValueIdx

abbrev SNH : Shape := ⟨2, ![50000, 128]⟩
abbrev SHH : Shape := ⟨2, ![128, 128]⟩
abbrev S1H : Shape := ⟨2, ![1, 128]⟩

/-- Entry (r, j) of rows·wl + bias row + rows·wr. -/
def linAt (agg x : FVec Ideal SNH .f32) (wl wr : FVec Ideal SHH .f32) (b : FVec Ideal S1H .f32)
    (r : Fin 50000) (j : Fin 128) : EReal :=
  ((∑ k : Fin 128, agg (ix2 r k) * wl (ix2 k j)) + b (ix2 (0 : Fin 1) j)) + ∑ k : Fin 128, x (ix2 r k) * wr (ix2 k j)

/-- rows·wl + bias row + rows·wr as a whole array. -/
def lin (agg x : FVec Ideal SNH .f32) (wl wr : FVec Ideal SHH .f32) (b : FVec Ideal S1H .f32) : FVec Ideal SNH .f32 :=
  fun i => linAt agg x wl wr b ⟨(i 0).val, idx2_lt0 i⟩ ⟨(i 1).val, idx2_lt1 i⟩

theorem lin_ix2 (agg x : FVec Ideal SNH .f32) (wl wr : FVec Ideal SHH .f32) (b : FVec Ideal S1H .f32)
    (r : Fin 50000) (j : Fin 128) : lin agg x wl wr b (ix2 r j) = linAt agg x wl wr b r j := rfl

/-- The sum of each column, kept as a row [1, H]. -/
def colSum (h : FVec Ideal SNH .f32) : FVec Ideal S1H .f32 :=
  fun i => ∑ r : Fin 50000, h (ix2 r ⟨(i 1).val, idx2_lt1 i⟩)

theorem colSum_ix2 (h : FVec Ideal SNH .f32) (u : Fin 1) (j : Fin 128) :
    colSum h (ix2 u j) = ∑ r : Fin 50000, h (ix2 r j) := rfl

/-- The sum of the squares of each column, kept as a row [1, H]. -/
def colSumSq (h : FVec Ideal SNH .f32) : FVec Ideal S1H .f32 :=
  fun i => ∑ r : Fin 50000, h (ix2 r ⟨(i 1).val, idx2_lt1 i⟩) * h (ix2 r ⟨(i 1).val, idx2_lt1 i⟩)

theorem colSumSq_ix2 (h : FVec Ideal SNH .f32) (u : Fin 1) (j : Fin 128) :
    colSumSq h (ix2 u j) = ∑ r : Fin 50000, h (ix2 r j) * h (ix2 r j) := rfl

/-- Entry (r, j) of the normalised, scaled, shifted and rectified array. -/
def bnAt (h : FVec Ideal SNH .f32) (mu sigma gamma beta : FVec Ideal S1H .f32) (r : Fin 50000) (j : Fin 128) : EReal :=
  max (gamma (ix2 (0 : Fin 1) j) * (h (ix2 r j) - mu (ix2 (0 : Fin 1) j)) * sigma (ix2 (0 : Fin 1) j)
    + beta (ix2 (0 : Fin 1) j)) 0

/-- Normalise, scale, shift, rectify: a whole array. -/
def bn (h : FVec Ideal SNH .f32) (mu sigma gamma beta : FVec Ideal S1H .f32) : FVec Ideal SNH .f32 :=
  fun i => bnAt h mu sigma gamma beta ⟨(i 0).val, idx2_lt0 i⟩ ⟨(i 1).val, idx2_lt1 i⟩

theorem bn_ix2 (h : FVec Ideal SNH .f32) (mu sigma gamma beta : FVec Ideal S1H .f32) (r : Fin 50000) (j : Fin 128) :
    bn h mu sigma gamma beta (ix2 r j) = bnAt h mu sigma gamma beta r j := rfl

/-- The same with the layer's input added back (the residual connection). -/
def bnRes (h : FVec Ideal SNH .f32) (mu sigma gamma beta : FVec Ideal S1H .f32) (x : FVec Ideal SNH .f32) :
    FVec Ideal SNH .f32 :=
  fun i => bnAt h mu sigma gamma beta ⟨(i 0).val, idx2_lt0 i⟩ ⟨(i 1).val, idx2_lt1 i⟩ + x i

theorem bnRes_ix2 (h : FVec Ideal SNH .f32) (mu sigma gamma beta : FVec Ideal S1H .f32) (x : FVec Ideal SNH .f32)
    (r : Fin 50000) (j : Fin 128) : bnRes h mu sigma gamma beta x (ix2 r j) = bnAt h mu sigma gamma beta r j + x (ix2 r j) := rfl

/-! ## The statistics of a batch-normalisation layer, as rows [1, H] -/

abbrev S3HH : Shape := ⟨3, ![3, 128, 128]⟩
abbrev S3H : Shape := ⟨2, ![3, 128]⟩

/-- The number of rows, 50000, as the f32 word both programs print. -/
def cN : EReal := Ideal.ofBits .f32 0x47435000#32
/-- The variance offset both programs print (the f32 nearest 1e-5). -/
def epsW : EReal := Ideal.ofBits .f32 0x3727C5AC#32

/-- Layer K's weight matrix transposed: entry (k, j) is W (K, j, k). -/
def wT (W : FVec Ideal S3HH .f32) (K : Fin 3) : FVec Ideal SHH .f32 :=
  fun i => W (ix3 K ⟨(i 1).val, idx2_lt1 i⟩ ⟨(i 0).val, idx2_lt0 i⟩)

theorem wT_ix2 (W : FVec Ideal S3HH .f32) (K : Fin 3) (k j : Fin 128) : wT W K (ix2 k j) = W (ix3 K j k) := rfl

/-- Row K of a [3, H] parameter array, kept as a row [1, H]. -/
def row3 (v : FVec Ideal S3H .f32) (K : Fin 3) : FVec Ideal S1H .f32 :=
  fun i => v (ix2 K ⟨(i 1).val, idx2_lt1 i⟩)

theorem row3_ix2 (v : FVec Ideal S3H .f32) (K : Fin 3) (u : Fin 1) (j : Fin 128) : row3 v K (ix2 u j) = v (ix2 K j) := rfl

/-- The column means: column sums over the number of rows (the exact quotient of the extended reals). -/
def meanRow (h : FVec Ideal SNH .f32) : FVec Ideal S1H .f32 := fun i => Ideal.div (colSum h i) cN

/-- The one-pass variance: mean of squares less squared mean. -/
def var1Row (h : FVec Ideal SNH .f32) : FVec Ideal S1H .f32 :=
  fun i => Ideal.div (colSumSq h i) cN - meanRow h i * meanRow h i

/-- The two-pass variance: mean of the squared deviations from the mean. -/
def var2Row (h : FVec Ideal SNH .f32) : FVec Ideal S1H .f32 :=
  fun i => Ideal.div (∑ r : Fin 50000, (h (ix2 r ⟨(i 1).val, idx2_lt1 i⟩) - meanRow h i) * (h (ix2 r ⟨(i 1).val, idx2_lt1 i⟩) - meanRow h i)) cN

/-- The reciprocal standard deviation of a variance row: 1/sqrt(v + ε). -/
def sigmaRow (v : FVec Ideal S1H .f32) : FVec Ideal S1H .f32 := fun i => Ideal.rsqrt (v i + epsW)

/-- One layer without the residual connection, for a given variance formula `var`. -/
def layer0 (var : FVec Ideal SNH .f32 → FVec Ideal S1H .f32) (agg x : FVec Ideal SNH .f32)
    (Wl : FVec Ideal S3HH .f32) (bl : FVec Ideal S3H .f32) (Wr : FVec Ideal S3HH .f32) (g b : FVec Ideal S3H .f32) (K : Fin 3) :
    FVec Ideal SNH .f32 :=
  bn (lin agg x (wT Wl K) (wT Wr K) (row3 bl K)) (meanRow (lin agg x (wT Wl K) (wT Wr K) (row3 bl K)))
    (sigmaRow (var (lin agg x (wT Wl K) (wT Wr K) (row3 bl K)))) (row3 g K) (row3 b K)

/-- One layer with the residual connection. -/
def layerR (var : FVec Ideal SNH .f32 → FVec Ideal S1H .f32) (agg x : FVec Ideal SNH .f32)
    (Wl : FVec Ideal S3HH .f32) (bl : FVec Ideal S3H .f32) (Wr : FVec Ideal S3HH .f32) (g b : FVec Ideal S3H .f32) (K : Fin 3) :
    FVec Ideal SNH .f32 :=
  bnRes (lin agg x (wT Wl K) (wT Wr K) (row3 bl K)) (meanRow (lin agg x (wT Wl K) (wT Wr K) (row3 bl K)))
    (sigmaRow (var (lin agg x (wT Wl K) (wT Wr K) (row3 bl K)))) (row3 g K) (row3 b K) x

end Cert.Sage

end
-- ==== Proof.LibLifts.lean ====
/-
  Lifting a vector to a matrix with one unit axis, and back, read at coordinates (any extents):
  * a vector [a] lifted by broadcast_in_dim along axis 0 to the column [a, 1] reads, at (n, u), the vector at n;
  * a column [a, 1] reshaped to the vector [a] reads, at n, the column at (n, 0);
  * a vector [b] lifted by broadcast_in_dim along axis 1 to the row [1, b] reads, at (u, f), the vector at f.
-/
import Idealize.ShloMosaic.Lib.Pipeline.Value
import Idealize.ShloMosaic.Lib.ValueIdx

namespace Idealize.ShloMosaic.Lifts

open Idealize.ShloMosaic Idealize.ShloMosaic.ValueIdx

variable {α : Type}

/-- A vector lifted to a column. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (n : Fin a) (u : Fin 1) :
    broadcastInDim ⟨2, ![a, 1]⟩ ![0] h x (ix2 n u) = x (ix1 n) := by
  refine broadcastInDim_apply _ h x (ix2 n u) (ix1 n) fun ax => ?_
  match ax with
  | ⟨0, _⟩ =>
    show n.val = if a = 1 then 0 else n.val
    split
    · have := n.isLt; omega
    · rfl

/-- A column reshaped to a vector. -/
theorem shapeCast_a1_a_apply {a : ℕ} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-- A vector lifted to a row. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (f : Fin b) :
    broadcastInDim ⟨2, ![1, b]⟩ ![1] h x (ix2 u f) = x (ix1 f) := by
  refine broadcastInDim_apply _ h x (ix2 u f) (ix1 f) fun ax => ?_
  match ax with
  | ⟨0, _⟩ =>
    show f.val = if b = 1 then 0 else f.val
    split
    · have := f.isLt; omega
    · rfl

end Idealize.ShloMosaic.Lifts
-- ==== Proof.KTerm.lean ====
/-
  The host operations of the idealized kernel program between its regions, as pure functions of their operands, and
  those functions read at an index: the column means and the reciprocal standard deviations from the two accumulated
  rows, row K of a [3, H] parameter array kept as a row [1, H], and layer K's transposed weight matrix cut out of the
  transposed [3, H, H] array. The neighbour aggregation (gather the source rows, add them at the destination rows,
  scale by the reciprocal degree) is kept as one opaque function of the features and the edge list.
-/
import proofs.«154196_j84232898609317_1_alg».proof.KernelIdeal
import proofs.«154196_j84232898609317_1_alg».proof.Proof.Spec
import proofs.«154196_j84232898609317_1_alg».proof.Proof.LibLifts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KTerm

open Idealize.ShloMosaic Idealize.ShloMosaic.ValueIdx Cert.KernelIdeal Cert.KernelIdeal.Facts₀ Cert.KernelIdeal.Facts

variable [Cert.KernelIdeal.Facts]

abbrev CF (s : Shape) : Type := (⟨s, .f32⟩ : BufTy).Contents (Elt Ideal)
abbrev CI (s : Shape) : Type := (⟨s, .i32⟩ : BufTy).Contents (Elt Ideal)

/-! ## The edge list, the degrees, the aggregation -/

/-- The source node of each edge: row 0 of the edge list as a vector. -/
def src (e : CI S2x800000) : CI S800000 :=
  shapeCast S800000 (extractStridedSlice S1x800000 ![0, 0] e slices_S2x800000_S1x800000_0_0) shapeCasts_S1x800000_S800000

/-- The destination node of each edge: row 1 of the edge list as a vector. -/
def dst (e : CI S2x800000) : CI S800000 :=
  shapeCast S800000 (extractStridedSlice S1x800000 ![1, 0] e slices_S2x800000_S1x800000_1_0) shapeCasts_S1x800000_S800000

/-- 1 / max(in-degree, 1) of every node, as a column. -/
def invDeg (d : CI S800000) : CF S50000x1 :=
  broadcastInDim S50000x1 ![0] bcast_S50000_S50000x1_0
    (Host.divf (F := Ideal) (broadcastInDim S50000 ![] bcast_S_S50000 (constant (F := Ideal) S_ .f32 0x3F800000#32))
      (maximumf
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 d)
          (broadcastInDim S800000 ![] bcast_S_S800000 (constant (F := Ideal) S_ .f32 0x3F800000#32)))
        (broadcastInDim S50000 ![] bcast_S_S50000 (constant (F := Ideal) S_ .f32 0x3F800000#32))))

/-- The neighbour means of the rows of `y`: gather the source rows (a negative index first moved up by 50000), add
    them at the destination rows into zeros, scale each row by the reciprocal degree. -/
def aggOf (y : CF S50000x128) (s d : CI S800000) (iv : CF S50000x1) : CF S50000x128 :=
  mulf
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 y
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1 iv)

/-- The aggregation as a function of the features and the edge list. -/
def agg (y : CF S50000x128) (e : CI S2x800000) : CF S50000x128 := aggOf y (src e) (dst e) (invDeg (dst e))

/-! ## The statistics rows -/

/-- A row divided by the row count. -/
def divN (s : CF S1x128) : CF S1x128 :=
  Host.divf (F := Ideal) s (broadcastInDim S1x128 ![] bcast_S_S1x128 (constant (F := Ideal) S_ .f32 0x47435000#32))

/-- 1/sqrt(E[h²] − (E h)² + ε) from the two accumulated rows. -/
def sigmaOf (s ss : CF S1x128) : CF S1x128 :=
  Host.rsqrt (F := Ideal) (addf (subf (divN ss) (mulf (divN s) (divN s)))
    (broadcastInDim S1x128 ![] bcast_S_S1x128 (constant (F := Ideal) S_ .f32 0x3727C5AC#32)))

theorem divN_colSum (h : FVec Ideal Cert.Sage.SNH .f32) : divN (Cert.Sage.colSum h) = Cert.Sage.meanRow h := rfl

theorem sigmaOf_eq (h : FVec Ideal Cert.Sage.SNH .f32) :
    sigmaOf (Cert.Sage.colSum h) (Cert.Sage.colSumSq h) = Cert.Sage.sigmaRow (Cert.Sage.var1Row h) := rfl

/-! ## Parameter rows and weight matrices -/

/-- Row K of a [3, H] parameter array as the program builds it: cut the row out, drop the unit axis, lift it to a row. -/
def rowK (K : Nat) (hs : S3x128.Slices ![K, 0] S1x128) (v : CF S3x128) : CF S1x128 :=
  broadcastInDim S1x128 ![1] bcast_S128_S1x128_1
    (shapeCast S128 (extractStridedSlice S1x128 ![K, 0] v hs) shapeCasts_S1x128_S128)

theorem rowK_eq (K : Fin 3) (hs : S3x128.Slices ![K.val, 0] S1x128) (v : CF S3x128) :
    rowK K.val hs v = Cert.Sage.row3 v K := by
  funext i
  obtain ⟨u, j, rfl⟩ : ∃ (u : Fin 1) (j : Fin 128), i = ix2 u j := ⟨i 0, i 1, eq_ix2 i⟩
  unfold rowK
  rw [Idealize.ShloMosaic.Lifts.broadcastInDim_b_1b_apply, shapeCast_1a_a_apply,
    slice2_axis0_apply K.val v hs (0 : Fin 1) j K (Nat.add_zero _).symm]
  rfl

/-- The [3, H, H] weights with every matrix transposed. -/
def wTr (W : CF S3x128x128) : CF S3x128x128 :=
  transpose S3x128x128 [0, 2, 1] W transposes_S3x128x128_S3x128x128_0_2_1

/-- Matrix K cut out of a [3, H, H] array, the unit axis dropped. -/
def matK (K : Nat) (hs : S3x128x128.Slices ![K, 0, 0] S1x128x128) (T : CF S3x128x128) : CF S128x128 :=
  shapeCast S128x128 (extractStridedSlice S1x128x128 ![K, 0, 0] T hs) shapeCasts_S1x128x128_S128x128

theorem matK_wTr_eq (K : Fin 3) (hs : S3x128x128.Slices ![K.val, 0, 0] S1x128x128) (W : CF S3x128x128) :
    matK K.val hs (wTr W) = Cert.Sage.wT W K := by
  funext i
  obtain ⟨k, j, rfl⟩ : ∃ (k : Fin 128) (j : Fin 128), i = ix2 k j := ⟨i 0, i 1, eq_ix2 i⟩
  unfold matK wTr
  rw [shapeCast_1ab_ab_apply,
    extractStridedSlice_apply ![K.val, 0, 0] _ hs (ix3 (0 : Fin 1) k j) (ix3 K k j) (fun a => by
      match a with
      | ⟨0, _⟩ => exact (Nat.add_zero _).symm
      | ⟨1, _⟩ => exact (Nat.zero_add _).symm
      | ⟨2, _⟩ => exact (Nat.zero_add _).symm),
    transpose_ix3_021_apply]
  rfl

end Cert.KernelIdeal.KTerm

end
-- ==== Proof.LibVariance.lean ====
/-
  The variance of finitely many real numbers, in one pass and in two.

  For real numbers h_p over a finite index set of N ≠ 0 elements with mean μ = (Σ_p h_p)/N,
      Σ_p (h_p − μ)² = Σ_p h_p² − 2μ·Σ_p h_p + N·μ² = Σ_p h_p² − N·μ²,
  so the mean of the squared deviations is the mean of the squares less the squared mean. On the extended reals, with
  the exact quotient by a word that denotes the real N and every entry the image of a real, both spellings are the image
  of that one real number. The hypothesis is needed: at an infinite entry the one-pass form subtracts ⊤ from ⊤ while the
  two-pass form squares ⊤ − ⊤, and the two junk values differ.
-/
import Idealize.ShloMosaic.PureOps.Ideal
import Mathlib.Tactic

open scoped BigOperators

namespace Idealize.ShloMosaic.Variance

/-- On real numbers: the mean of the squared deviations from the mean is the mean of the squares less the squared
    mean, the quotients written as products with 1/N. -/
theorem var_real {ι : Type*} [Fintype ι] (h : ι → ℝ) (N : ℝ) (hcard : (Fintype.card ι : ℝ) = N) (hN : N ≠ 0) :
    (∑ p, (h p - (∑ p, h p) * (1 / N)) * (h p - (∑ p, h p) * (1 / N))) * (1 / N)
      = (∑ p, h p * h p) * (1 / N) - ((∑ p, h p) * (1 / N)) * ((∑ p, h p) * (1 / N)) := by
  set S : ℝ := ∑ p, h p with hS
  have hsq : ∀ p, (h p - S * (1 / N)) * (h p - S * (1 / N))
      = h p * h p - 2 * (S * (1 / N)) * h p + (S * (1 / N)) * (S * (1 / N)) := fun p => by ring
  simp only [hsq, Finset.sum_add_distrib, Finset.sum_sub_distrib, ← Finset.mul_sum, Finset.sum_const, Finset.card_univ,
    nsmul_eq_mul, ← hS, hcard]
  field_simp
  ring

/-- The coercion of the reals into the extended reals commutes with a sum over a finite type. -/
theorem coe_sum {ι : Type*} [Fintype ι] (f : ι → ℝ) : ((∑ p, f p : ℝ) : EReal) = ∑ p, ((f p : ℝ) : EReal) := by
  classical
  refine Finset.induction_on (Finset.univ : Finset ι) (by simp) ?_
  intro a s ha ih
  rw [Finset.sum_insert ha, Finset.sum_insert ha, EReal.coe_add, ih]

/-- On the extended reals, at the ideal instance's exact quotient by a value that is the real N = the number of entries:
    for real entries the two-pass variance is the one-pass variance. -/
theorem var_two_pass_eq_one_pass {ι : Type*} [Fintype ι] (h : ι → ℝ) (cnt : EReal) (N : ℝ) (hcnt : cnt = (N : EReal))
    (hcard : (Fintype.card ι : ℝ) = N) (hN : N ≠ 0) :
    Ideal.div (∑ p, (((h p : ℝ) : EReal) - Ideal.div (∑ p, ((h p : ℝ) : EReal)) cnt)
        * (((h p : ℝ) : EReal) - Ideal.div (∑ p, ((h p : ℝ) : EReal)) cnt)) cnt
      = Ideal.div (∑ p, ((h p : ℝ) : EReal) * ((h p : ℝ) : EReal)) cnt
        - Ideal.div (∑ p, ((h p : ℝ) : EReal)) cnt * Ideal.div (∑ p, ((h p : ℝ) : EReal)) cnt := by
  subst hcnt
  have hm : Ideal.div (∑ p, ((h p : ℝ) : EReal)) (N : EReal) = (((∑ p, h p) * (1 / N) : ℝ) : EReal) := by
    rw [← coe_sum, Ideal.div_coe hN, ← EReal.coe_mul]
  rw [hm]
  simp only [← EReal.coe_sub, ← EReal.coe_mul, ← coe_sum]
  rw [Ideal.div_coe hN, Ideal.div_coe hN, ← EReal.coe_mul, ← EReal.coe_mul, ← EReal.coe_sub, var_real h N hcard hN]

end Idealize.ShloMosaic.Variance
-- ==== Proof.Math.lean ====
/-
  The arithmetic of one batch-normalised layer on REAL entries.

  On the extended reals the one-pass variance  E[h²] − (E h)²  and the two-pass variance  E[(h − E h)²]  of a column agree
  when every entry of the column is a real number (at an infinite entry the two junk values differ), and every operation
  of the layer — finite sums of products, the quotient by the row count 50000, 1/sqrt(v + ε) of a nonnegative v, the
  rectifier, the residual sum — takes real entries to real entries. So a layer computed with either variance formula is
  the same array, and its entries are again real: the induction that carries three layers.
-/
import Idealize.ShloMosaic.PureOps.Ideal
import Idealize.ShloMosaic.PureOps.Ideal.Laws
import Idealize.ShloMosaic.Lib.ValueIdx
import Mathlib.Tactic
import proofs.«154196_j84232898609317_1_alg».proof.Proof.Spec
import proofs.«154196_j84232898609317_1_alg».proof.Proof.LibVariance

noncomputable section

open scoped BigOperators

namespace Cert.Sage

open Idealize.ShloMosaic Idealize.ShloMosaic.ValueIdx

/-- Every entry of the array is the image of a real number. -/
def IsReal {S : Shape} (v : S.Idx → EReal) : Prop := ∀ i, ∃ a : ℝ, v i = (a : EReal)

theorem real_add {x y : EReal} : (∃ a : ℝ, x = (a : EReal)) → (∃ b : ℝ, y = (b : EReal)) → ∃ c : ℝ, x + y = (c : EReal) := by
  rintro ⟨a, rfl⟩ ⟨b, rfl⟩; exact ⟨a + b, (EReal.coe_add a b).symm⟩

theorem real_sub {x y : EReal} : (∃ a : ℝ, x = (a : EReal)) → (∃ b : ℝ, y = (b : EReal)) → ∃ c : ℝ, x - y = (c : EReal) := by
  rintro ⟨a, rfl⟩ ⟨b, rfl⟩; exact ⟨a - b, (EReal.coe_sub a b).symm⟩

theorem real_mul {x y : EReal} : (∃ a : ℝ, x = (a : EReal)) → (∃ b : ℝ, y = (b : EReal)) → ∃ c : ℝ, x * y = (c : EReal) := by
  rintro ⟨a, rfl⟩ ⟨b, rfl⟩; exact ⟨a * b, (EReal.coe_mul a b).symm⟩

theorem real_sum {ι : Type*} [Fintype ι] (f : ι → EReal) (h : ∀ p, ∃ a : ℝ, f p = (a : EReal)) :
    ∃ a : ℝ, ∑ p, f p = (a : EReal) := by
  choose g hg using h
  exact ⟨∑ p, g p, by rw [Idealize.ShloMosaic.Variance.coe_sum]; exact Finset.sum_congr rfl fun p _ => hg p⟩

theorem real_max0 {x : EReal} : (∃ a : ℝ, x = (a : EReal)) → ∃ c : ℝ, max x 0 = (c : EReal) := by
  rintro ⟨a, rfl⟩
  rcases le_total ((a : ℝ) : EReal) 0 with h | h
  · exact ⟨0, by rw [max_eq_right h]; rfl⟩
  · exact ⟨a, max_eq_left h⟩

/-- The printed row count is the real 50000. -/
theorem cN_eq : cN = ((50000 : ℝ) : EReal) := by
  unfold cN; simp [Ideal.ofBits, Ideal.ieee, -EReal.coe_mul]; norm_num

/-- The printed variance offset is a positive real. -/
theorem epsW_pos : ∃ e : ℝ, 0 < e ∧ epsW = (e : EReal) := by
  unfold epsW
  refine ⟨(10995116 : ℝ) / 8388608 * (2 : ℝ) ^ (-17 : ℤ), by positivity, ?_⟩
  simp [Ideal.ofBits, Ideal.ieee, -EReal.coe_mul]; norm_num

theorem real_divN {x : EReal} : (∃ a : ℝ, x = (a : EReal)) → ∃ c : ℝ, Ideal.div x cN = (c : EReal) := by
  rintro ⟨a, rfl⟩
  exact ⟨a * (1 / 50000), by rw [cN_eq, Ideal.div_coe (by norm_num), ← EReal.coe_mul]⟩

variable {agg x : FVec Ideal SNH .f32} {wl wr : FVec Ideal SHH .f32} {b : FVec Ideal S1H .f32}

theorem linAt_real (hagg : IsReal agg) (hx : IsReal x) (hwl : IsReal wl) (hwr : IsReal wr) (hb : IsReal b)
    (r : Fin 50000) (j : Fin 128) : ∃ a : ℝ, linAt agg x wl wr b r j = (a : EReal) := by
  unfold linAt
  exact real_add (real_add (real_sum _ fun k => real_mul (hagg _) (hwl _)) (hb _)) (real_sum _ fun k => real_mul (hx _) (hwr _))

theorem lin_real (hagg : IsReal agg) (hx : IsReal x) (hwl : IsReal wl) (hwr : IsReal wr) (hb : IsReal b) :
    IsReal (lin agg x wl wr b) := fun i => linAt_real hagg hx hwl hwr hb _ _

theorem wT_real {W : FVec Ideal S3HH .f32} (hW : IsReal W) (K : Fin 3) : IsReal (wT W K) := fun _ => hW _
theorem row3_real {v : FVec Ideal S3H .f32} (hv : IsReal v) (K : Fin 3) : IsReal (row3 v K) := fun _ => hv _

section Stats
variable {h : FVec Ideal SNH .f32}

theorem meanRow_real (hh : IsReal h) : IsReal (meanRow h) := fun i => by
  unfold meanRow colSum
  exact real_divN (real_sum _ fun r => hh _)

/-- On a column of real entries the one-pass variance is the two-pass variance. -/
theorem var1Row_eq_var2Row (hh : IsReal h) : var1Row h = var2Row h := by
  choose g hg using hh
  funext i
  unfold var1Row var2Row meanRow colSum colSumSq
  simp only [hg]
  exact (Idealize.ShloMosaic.Variance.var_two_pass_eq_one_pass
    (fun r : Fin 50000 => g (ix2 r ⟨(i 1).val, idx2_lt1 i⟩)) cN 50000 cN_eq (by simp) (by norm_num)).symm

/-- The two-pass variance of a column of real entries is a nonnegative real. -/
theorem var2Row_nonneg (hh : IsReal h) (i : S1H.Idx) : ∃ v : ℝ, 0 ≤ v ∧ var2Row h i = (v : EReal) := by
  obtain ⟨mu, hmu⟩ := meanRow_real hh i
  choose g hg using hh
  unfold var2Row
  simp only [hmu, hg, ← EReal.coe_sub, ← EReal.coe_mul, ← Idealize.ShloMosaic.Variance.coe_sum]
  rw [cN_eq, Ideal.div_coe (by norm_num), ← EReal.coe_mul]
  exact ⟨_, mul_nonneg (Finset.sum_nonneg fun p _ => mul_self_nonneg _) (by norm_num), rfl⟩

theorem sigmaRow_real {v : FVec Ideal S1H .f32} (hv : ∀ i, ∃ a : ℝ, 0 ≤ a ∧ v i = (a : EReal)) : IsReal (sigmaRow v) := fun i => by
  obtain ⟨a, ha, hva⟩ := hv i
  obtain ⟨e, he, hee⟩ := epsW_pos
  unfold sigmaRow
  rw [hva, hee, ← EReal.coe_add, Ideal.rsqrt_coe, if_neg (by linarith), if_neg (by linarith)]
  exact ⟨_, rfl⟩

end Stats

variable {h : FVec Ideal SNH .f32} {mu sigma gamma beta : FVec Ideal S1H .f32}

theorem bnAt_real (hh : IsReal h) (hmu : IsReal mu) (hs : IsReal sigma) (hg : IsReal gamma) (hb : IsReal beta)
    (r : Fin 50000) (j : Fin 128) : ∃ a : ℝ, bnAt h mu sigma gamma beta r j = (a : EReal) := by
  unfold bnAt
  exact real_max0 (real_add (real_mul (real_mul (hg _) (real_sub (hh _) (hmu _))) (hs _)) (hb _))

theorem bn_real (hh : IsReal h) (hmu : IsReal mu) (hs : IsReal sigma) (hg : IsReal gamma) (hb : IsReal beta) :
    IsReal (bn h mu sigma gamma beta) := fun _ => bnAt_real hh hmu hs hg hb _ _

theorem bnRes_real (hh : IsReal h) (hmu : IsReal mu) (hs : IsReal sigma) (hg : IsReal gamma) (hb : IsReal beta)
    {x : FVec Ideal SNH .f32} (hx : IsReal x) : IsReal (bnRes h mu sigma gamma beta x) :=
  fun i => real_add (bnAt_real hh hmu hs hg hb _ _) (hx i)

/-! ## The layers -/

variable {Wl Wr : FVec Ideal S3HH .f32} {bl g bb : FVec Ideal S3H .f32}

/-- With real inputs the one-pass layer is the two-pass layer (no residual). -/
theorem layer0_var (hagg : IsReal agg) (hx : IsReal x) (hWl : IsReal Wl) (hbl : IsReal bl) (hWr : IsReal Wr) (K : Fin 3) :
    layer0 var1Row agg x Wl bl Wr g bb K = layer0 var2Row agg x Wl bl Wr g bb K := by
  unfold layer0
  rw [var1Row_eq_var2Row (lin_real hagg hx (wT_real hWl K) (wT_real hWr K) (row3_real hbl K))]

/-- With real inputs the one-pass layer is the two-pass layer (with the residual). -/
theorem layerR_var (hagg : IsReal agg) (hx : IsReal x) (hWl : IsReal Wl) (hbl : IsReal bl) (hWr : IsReal Wr) (K : Fin 3) :
    layerR var1Row agg x Wl bl Wr g bb K = layerR var2Row agg x Wl bl Wr g bb K := by
  unfold layerR
  rw [var1Row_eq_var2Row (lin_real hagg hx (wT_real hWl K) (wT_real hWr K) (row3_real hbl K))]

/-- A layer of real inputs has real entries (no residual). -/
theorem layer0_real (hagg : IsReal agg) (hx : IsReal x) (hWl : IsReal Wl) (hbl : IsReal bl) (hWr : IsReal Wr)
    (hg : IsReal g) (hbb : IsReal bb) (K : Fin 3) : IsReal (layer0 var2Row agg x Wl bl Wr g bb K) := by
  have hl := lin_real hagg hx (wT_real hWl K) (wT_real hWr K) (row3_real hbl K)
  unfold layer0
  exact bn_real hl (meanRow_real hl) (sigmaRow_real (var2Row_nonneg hl)) (row3_real hg K) (row3_real hbb K)

/-- A layer of real inputs has real entries (with the residual). -/
theorem layerR_real (hagg : IsReal agg) (hx : IsReal x) (hWl : IsReal Wl) (hbl : IsReal bl) (hWr : IsReal Wr)
    (hg : IsReal g) (hbb : IsReal bb) (K : Fin 3) : IsReal (layerR var2Row agg x Wl bl Wr g bb K) := by
  have hl := lin_real hagg hx (wT_real hWl K) (wT_real hWr K) (row3_real hbl K)
  unfold layerR
  exact bnRes_real hl (meanRow_real hl) (sigmaRow_real (var2Row_nonneg hl)) (row3_real hg K) (row3_real hbb K) hx

/-! ## Three layers -/

/-- The three-layer network for a given variance formula and a given aggregation. -/
def net (var : FVec Ideal SNH .f32 → FVec Ideal S1H .f32) (ag : FVec Ideal SNH .f32 → FVec Ideal SNH .f32)
    (x : FVec Ideal SNH .f32) (Wl : FVec Ideal S3HH .f32) (bl : FVec Ideal S3H .f32) (Wr : FVec Ideal S3HH .f32)
    (g bb : FVec Ideal S3H .f32) : FVec Ideal SNH .f32 :=
  layerR var (ag (layerR var (ag (layer0 var (ag x) x Wl bl Wr g bb 0)) (layer0 var (ag x) x Wl bl Wr g bb 0) Wl bl Wr g bb 1))
    (layerR var (ag (layer0 var (ag x) x Wl bl Wr g bb 0)) (layer0 var (ag x) x Wl bl Wr g bb 0) Wl bl Wr g bb 1) Wl bl Wr g bb 2

/-- With real inputs and an aggregation that keeps entries real, the network computed with the one-pass variance is the
    network computed with the two-pass variance: layer by layer the two agree and the output is real again. -/
theorem net_var {ag : FVec Ideal SNH .f32 → FVec Ideal SNH .f32} (hag : ∀ y, IsReal y → IsReal (ag y))
    {x : FVec Ideal SNH .f32} (hx : IsReal x) (hWl : IsReal Wl) (hbl : IsReal bl) (hWr : IsReal Wr)
    (hg : IsReal g) (hbb : IsReal bb) :
    net var1Row ag x Wl bl Wr g bb = net var2Row ag x Wl bl Wr g bb := by
  have e0 := layer0_var (g := g) (bb := bb) (hag x hx) hx hWl hbl hWr 0
  have r0 := layer0_real (hag x hx) hx hWl hbl hWr hg hbb 0
  have e1 := layerR_var (g := g) (bb := bb) (hag _ r0) r0 hWl hbl hWr 1
  have r1 := layerR_real (hag _ r0) r0 hWl hbl hWr hg hbb 1
  have e2 := layerR_var (g := g) (bb := bb) (hag _ r1) r1 hWl hbl hWr 2
  unfold net
  rw [e0, e1, e2]

end Cert.Sage

end
-- ==== Proof.KChain.lean ====
/-
  The idealized kernel program's result buffer, followed back from the last boundary through the six regions and the
  host stretches between them to the launch memory: the result is the three-layer network of the specification,
  computed with the one-pass variance, of the argument arrays. Each region contributes its closed form (the linear part
  with its two accumulated rows; the normalisation), each host stretch its operations read as pure functions, and a
  buffer nobody writes in between is carried unchanged from where it was produced to where it is read.
-/
import proofs.«154196_j84232898609317_1_alg».proof.Proof.Gen.KernelIdeal.Frame
import proofs.«154196_j84232898609317_1_alg».proof.Proof.KTerm
import proofs.«154196_j84232898609317_1_alg».proof.Proof.Math
import Idealize.ShloMosaic.Lib.StableHlo.Run

set_option maxRecDepth 16384

noncomputable section

namespace Cert.KernelIdeal.KChain

open Idealize.ShloMosaic Idealize.ShloMosaic.TcCoe Idealize.SL.Sem Idealize.ShloMosaic.ValueIdx
open Idealize.ShloMosaic.Pipeline (Dat)
open Cert.KernelIdeal Cert.KernelIdeal.Gen Cert.Sage

/-- The closed form of one region's output array (linear region 0, output window 5), at an arbitrary entry contents. -/
def P_g0_5 : Prop :=
  ∀ (V : (c : Dev nD) → (b : Ref sig .tc) → Buf (Elt Ideal) ((c : Thread nD τ).loc b)) (c : Dev nD),
    (dat0 (F := Ideal) V c).arrAt 5 cfg0.N = lin (V c (Pipeline.arrRef spec0 0)) (V c (Pipeline.arrRef spec0 1)) (V c (Pipeline.arrRef spec0 2)) (V c (Pipeline.arrRef spec0 3)) (V c (Pipeline.arrRef spec0 4))

/-- The closed form of one region's output array (linear region 0, output window 6), at an arbitrary entry contents. -/
def P_g0_6 : Prop :=
  ∀ (V : (c : Dev nD) → (b : Ref sig .tc) → Buf (Elt Ideal) ((c : Thread nD τ).loc b)) (c : Dev nD),
    (dat0 (F := Ideal) V c).arrAt 6 cfg0.N = colSum (lin (V c (Pipeline.arrRef spec0 0)) (V c (Pipeline.arrRef spec0 1)) (V c (Pipeline.arrRef spec0 2)) (V c (Pipeline.arrRef spec0 3)) (V c (Pipeline.arrRef spec0 4)))

/-- The closed form of one region's output array (linear region 0, output window 7), at an arbitrary entry contents. -/
def P_g0_7 : Prop :=
  ∀ (V : (c : Dev nD) → (b : Ref sig .tc) → Buf (Elt Ideal) ((c : Thread nD τ).loc b)) (c : Dev nD),
    (dat0 (F := Ideal) V c).arrAt 7 cfg0.N = colSumSq (lin (V c (Pipeline.arrRef spec0 0)) (V c (Pipeline.arrRef spec0 1)) (V c (Pipeline.arrRef spec0 2)) (V c (Pipeline.arrRef spec0 3)) (V c (Pipeline.arrRef spec0 4)))

/-- The closed form of one region's output array (normalising region 1), at an arbitrary entry contents. -/
def P_b1 : Prop :=
  ∀ (V : (c : Dev nD) → (b : Ref sig .tc) → Buf (Elt Ideal) ((c : Thread nD τ).loc b)) (c : Dev nD),
    (dat1 (F := Ideal) V c).arrAt 5 cfg1.N = bn (V c (Pipeline.arrRef spec1 0)) (V c (Pipeline.arrRef spec1 1)) (V c (Pipeline.arrRef spec1 2)) (V c (Pipeline.arrRef spec1 3)) (V c (Pipeline.arrRef spec1 4))

/-- The closed form of one region's output array (linear region 2, output window 5), at an arbitrary entry contents. -/
def P_g2_5 : Prop :=
  ∀ (V : (c : Dev nD) → (b : Ref sig .tc) → Buf (Elt Ideal) ((c : Thread nD τ).loc b)) (c : Dev nD),
    (dat2 (F := Ideal) V c).arrAt 5 cfg2.N = lin (V c (Pipeline.arrRef spec2 0)) (V c (Pipeline.arrRef spec2 1)) (V c (Pipeline.arrRef spec2 2)) (V c (Pipeline.arrRef spec2 3)) (V c (Pipeline.arrRef spec2 4))

/-- The closed form of one region's output array (linear region 2, output window 6), at an arbitrary entry contents. -/
def P_g2_6 : Prop :=
  ∀ (V : (c : Dev nD) → (b : Ref sig .tc) → Buf (Elt Ideal) ((c : Thread nD τ).loc b)) (c : Dev nD),
    (dat2 (F := Ideal) V c).arrAt 6 cfg2.N = colSum (lin (V c (Pipeline.arrRef spec2 0)) (V c (Pipeline.arrRef spec2 1)) (V c (Pipeline.arrRef spec2 2)) (V c (Pipeline.arrRef spec2 3)) (V c (Pipeline.arrRef spec2 4)))

/-- The closed form of one region's output array (linear region 2, output window 7), at an arbitrary entry contents. -/
def P_g2_7 : Prop :=
  ∀ (V : (c : Dev nD) → (b : Ref sig .tc) → Buf (Elt Ideal) ((c : Thread nD τ).loc b)) (c : Dev nD),
    (dat2 (F := Ideal) V c).arrAt 7 cfg2.N = colSumSq (lin (V c (Pipeline.arrRef spec2 0)) (V c (Pipeline.arrRef spec2 1)) (V c (Pipeline.arrRef spec2 2)) (V c (Pipeline.arrRef spec2 3)) (V c (Pipeline.arrRef spec2 4)))

/-- The closed form of one region's output array (normalising region 3), at an arbitrary entry contents. -/
def P_b3 : Prop :=
  ∀ (V : (c : Dev nD) → (b : Ref sig .tc) → Buf (Elt Ideal) ((c : Thread nD τ).loc b)) (c : Dev nD),
    (dat3 (F := Ideal) V c).arrAt 6 cfg3.N = bnRes (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))

/-- The closed form of one region's output array (linear region 4, output window 5), at an arbitrary entry contents. -/
def P_g4_5 : Prop :=
  ∀ (V : (c : Dev nD) → (b : Ref sig .tc) → Buf (Elt Ideal) ((c : Thread nD τ).loc b)) (c : Dev nD),
    (dat4 (F := Ideal) V c).arrAt 5 cfg4.N = lin (V c (Pipeline.arrRef spec4 0)) (V c (Pipeline.arrRef spec4 1)) (V c (Pipeline.arrRef spec4 2)) (V c (Pipeline.arrRef spec4 3)) (V c (Pipeline.arrRef spec4 4))

/-- The closed form of one region's output array (linear region 4, output window 6), at an arbitrary entry contents. -/
def P_g4_6 : Prop :=
  ∀ (V : (c : Dev nD) → (b : Ref sig .tc) → Buf (Elt Ideal) ((c : Thread nD τ).loc b)) (c : Dev nD),
    (dat4 (F := Ideal) V c).arrAt 6 cfg4.N = colSum (lin (V c (Pipeline.arrRef spec4 0)) (V c (Pipeline.arrRef spec4 1)) (V c (Pipeline.arrRef spec4 2)) (V c (Pipeline.arrRef spec4 3)) (V c (Pipeline.arrRef spec4 4)))

/-- The closed form of one region's output array (linear region 4, output window 7), at an arbitrary entry contents. -/
def P_g4_7 : Prop :=
  ∀ (V : (c : Dev nD) → (b : Ref sig .tc) → Buf (Elt Ideal) ((c : Thread nD τ).loc b)) (c : Dev nD),
    (dat4 (F := Ideal) V c).arrAt 7 cfg4.N = colSumSq (lin (V c (Pipeline.arrRef spec4 0)) (V c (Pipeline.arrRef spec4 1)) (V c (Pipeline.arrRef spec4 2)) (V c (Pipeline.arrRef spec4 3)) (V c (Pipeline.arrRef spec4 4)))

/-- The closed form of one region's output array (normalising region 5), at an arbitrary entry contents. -/
def P_b5 : Prop :=
  ∀ (V : (c : Dev nD) → (b : Ref sig .tc) → Buf (Elt Ideal) ((c : Thread nD τ).loc b)) (c : Dev nD),
    (dat5 (F := Ideal) V c).arrAt 6 cfg5.N = bnRes (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))

/-- The closed forms of the six regions, each at an arbitrary entry contents `V`: what the three linear regions leave in
    their three output arrays and what the three normalising regions leave in theirs. -/
structure RegionValues : Prop where
  g0_5 : P_g0_5
  g0_6 : P_g0_6
  g0_7 : P_g0_7
  b1 : P_b1
  g2_5 : P_g2_5
  g2_6 : P_g2_6
  g2_7 : P_g2_7
  b3 : P_b3
  g4_5 : P_g4_5
  g4_6 : P_g4_6
  g4_7 : P_g4_7
  b5 : P_b5

variable (m : (ℓ : Loc nD τ sig) → Buf (Elt Ideal) ℓ) (ρ : Dev nD → PrngReg) (c : Dev nD)

/-- No operation of the stretch writes the buffer: the goal `∀ op ∈ ops, b ∉ op.writes` for a literal stretch. -/
macro "not_written" : tactic =>
  `(tactic| (refine List.forall_iff_forall_mem.mp ?_
             simp only [hostOps0, hostOps1, hostOps2, hostOps3, hostOps4, hostOps5, List.flatten_cons, List.flatten_nil,
               List.append_nil, List.cons_append, List.nil_append, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- The argument arrays as launched. -/
abbrev aX : Buf (Elt Ideal) ((c : Thread nD τ).loc main_arg0) := m ((c : Thread nD τ).loc main_arg0)
abbrev aE : Buf (Elt Ideal) ((c : Thread nD τ).loc main_arg1) := m ((c : Thread nD τ).loc main_arg1)
abbrev aWl : Buf (Elt Ideal) ((c : Thread nD τ).loc main_arg2) := m ((c : Thread nD τ).loc main_arg2)
abbrev aBl : Buf (Elt Ideal) ((c : Thread nD τ).loc main_arg3) := m ((c : Thread nD τ).loc main_arg3)
abbrev aWr : Buf (Elt Ideal) ((c : Thread nD τ).loc main_arg4) := m ((c : Thread nD τ).loc main_arg4)
abbrev aG : Buf (Elt Ideal) ((c : Thread nD τ).loc main_arg5) := m ((c : Thread nD τ).loc main_arg5)
abbrev aB : Buf (Elt Ideal) ((c : Thread nD τ).loc main_arg6) := m ((c : Thread nD τ).loc main_arg6)

/-! ## Carrying a buffer across a host stretch -/

theorem keep0 (b : Ref sig .tc) (h : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ h
theorem keep1 (b : Ref sig .tc) (h : ∀ op ∈ (hostOps1 : List (HloOp τ sig (Elt Ideal))), Proc.devRef .tc b ∉ op.writes) :
    W3 m ρ c (Proc.devRef .tc b) = W2 m ρ c (Proc.devRef .tc b) := StableHlo.after_of_forall_not_mem _ _ h
theorem keep2 (b : Ref sig .tc) (h : ∀ op ∈ (hostOps2 : List (HloOp τ sig (Elt Ideal))), Proc.devRef .tc b ∉ op.writes) :
    W5 m ρ c (Proc.devRef .tc b) = W4 m ρ c (Proc.devRef .tc b) := StableHlo.after_of_forall_not_mem _ _ h
theorem keep3 (b : Ref sig .tc) (h : ∀ op ∈ (hostOps3 : List (HloOp τ sig (Elt Ideal))), Proc.devRef .tc b ∉ op.writes) :
    W7 m ρ c (Proc.devRef .tc b) = W6 m ρ c (Proc.devRef .tc b) := StableHlo.after_of_forall_not_mem _ _ h
theorem keep4 (b : Ref sig .tc) (h : ∀ op ∈ (hostOps4 : List (HloOp τ sig (Elt Ideal))), Proc.devRef .tc b ∉ op.writes) :
    W9 m ρ c (Proc.devRef .tc b) = W8 m ρ c (Proc.devRef .tc b) := StableHlo.after_of_forall_not_mem _ _ h
theorem keep5 (b : Ref sig .tc) (h : ∀ op ∈ (hostOps5 : List (HloOp τ sig (Elt Ideal))), Proc.devRef .tc b ∉ op.writes) :
    W11 m ρ c (Proc.devRef .tc b) = W10 m ρ c (Proc.devRef .tc b) := StableHlo.after_of_forall_not_mem _ _ h

/-- A buffer that is an argument of @main and no window's array: nothing writes it before the first normalising region. -/
theorem W2_of_arg (b : Ref sig .tc) (hr : ∀ w, Pipeline.arrRef spec0 w ≠ b)
    (h0 : ∀ op ∈ (hostOps0 : List (HloOp τ sig (Elt Ideal))), Proc.devRef .tc b ∉ op.writes) :
    W2 m ρ c (Proc.devRef .tc b) = W0 m ρ c (Proc.devRef .tc b) :=
  (W2_of_ne m ρ c b hr).trans (keep0 m ρ c b h0)

/-- From the first normalising region's entry (after stretch 1) back to the first stretch's end, for a buffer neither
    region 0 nor stretch 1 writes. -/
theorem W3_to_W1 (b : Ref sig .tc) (hr : ∀ w, Pipeline.arrRef spec0 w ≠ b)
    (h1 : ∀ op ∈ (hostOps1 : List (HloOp τ sig (Elt Ideal))), Proc.devRef .tc b ∉ op.writes) :
    W3 m ρ c (Proc.devRef .tc b) = W1 m ρ c (Proc.devRef .tc b) :=
  (keep1 m ρ c b h1).trans (W2_of_ne m ρ c b hr)

/-- Across one whole layer (a linear region, a stretch, a normalising region), for a buffer none of them writes:
    layer 0. -/
theorem W4_to_W1 (b : Ref sig .tc) (hr0 : ∀ w, Pipeline.arrRef spec0 w ≠ b) (hr1 : ∀ w, Pipeline.arrRef spec1 w ≠ b)
    (h1 : ∀ op ∈ (hostOps1 : List (HloOp τ sig (Elt Ideal))), Proc.devRef .tc b ∉ op.writes) :
    W4 m ρ c (Proc.devRef .tc b) = W1 m ρ c (Proc.devRef .tc b) :=
  (W4_of_ne m ρ c b hr1).trans (W3_to_W1 m ρ c b hr0 h1)

/-- Layer 1: from the second normalising region's exit back to the second stretch's entry. -/
theorem W8_to_W4 (b : Ref sig .tc) (hr2 : ∀ w, Pipeline.arrRef spec2 w ≠ b) (hr3 : ∀ w, Pipeline.arrRef spec3 w ≠ b)
    (h2 : ∀ op ∈ (hostOps2 : List (HloOp τ sig (Elt Ideal))), Proc.devRef .tc b ∉ op.writes)
    (h3 : ∀ op ∈ (hostOps3 : List (HloOp τ sig (Elt Ideal))), Proc.devRef .tc b ∉ op.writes) :
    W8 m ρ c (Proc.devRef .tc b) = W4 m ρ c (Proc.devRef .tc b) :=
  (W8_of_ne m ρ c b hr3).trans ((keep3 m ρ c b h3).trans ((W6_of_ne m ρ c b hr2).trans (keep2 m ρ c b h2)))

/-- Layer 2, up to the last stretch's entry: from the third linear region's exit back to the third stretch's entry. -/
theorem W10_to_W8 (b : Ref sig .tc) (hr4 : ∀ w, Pipeline.arrRef spec4 w ≠ b)
    (h4 : ∀ op ∈ (hostOps4 : List (HloOp τ sig (Elt Ideal))), Proc.devRef .tc b ∉ op.writes) :
    W10 m ρ c (Proc.devRef .tc b) = W8 m ρ c (Proc.devRef .tc b) :=
  (W10_of_ne m ρ c b hr4).trans (keep4 m ρ c b h4)

/-- Layer 1, up to the second statistics stretch's entry. -/
theorem W6_to_W4 (b : Ref sig .tc) (hr2 : ∀ w, Pipeline.arrRef spec2 w ≠ b)
    (h2 : ∀ op ∈ (hostOps2 : List (HloOp τ sig (Elt Ideal))), Proc.devRef .tc b ∉ op.writes) :
    W6 m ρ c (Proc.devRef .tc b) = W4 m ρ c (Proc.devRef .tc b) :=
  (W6_of_ne m ρ c b hr2).trans (keep2 m ρ c b h2)

/-! ## The first stretch: the edge list, the degrees, the transposed weights, layer 0's operands -/

theorem W1_arg0 : W1 m ρ c (Proc.devRef .tc main_arg0) = (aX m c) := (keep0 m ρ c main_arg0 (by not_written)).trans rfl

theorem W1_v26 : W1 m ρ c (Proc.devRef .tc main_v26) = KTerm.agg (aX m c) (aE m c) := by
  show StableHlo.after hostOps0 (W0 m ρ c) (Proc.devRef .tc main_v26) = _
  after_results_simp
  rfl

theorem W1_v1 : W1 m ρ c (Proc.devRef .tc main_v1) = KTerm.src (aE m c) := by
  show StableHlo.after hostOps0 (W0 m ρ c) (Proc.devRef .tc main_v1) = _
  after_results_simp
  rfl

theorem W1_v3 : W1 m ρ c (Proc.devRef .tc main_v3) = KTerm.dst (aE m c) := by
  show StableHlo.after hostOps0 (W0 m ρ c) (Proc.devRef .tc main_v3) = _
  after_results_simp
  rfl

theorem W1_v12 : W1 m ρ c (Proc.devRef .tc main_v12) = KTerm.invDeg (KTerm.dst (aE m c)) := by
  show StableHlo.after hostOps0 (W0 m ρ c) (Proc.devRef .tc main_v12) = _
  after_results_simp
  rfl

theorem W1_v13 : W1 m ρ c (Proc.devRef .tc main_v13) = KTerm.wTr (aWl m c) := by
  show StableHlo.after hostOps0 (W0 m ρ c) (Proc.devRef .tc main_v13) = _
  after_results_simp
  rfl

theorem W1_v14 : W1 m ρ c (Proc.devRef .tc main_v14) = KTerm.wTr (aWr m c) := by
  show StableHlo.after hostOps0 (W0 m ρ c) (Proc.devRef .tc main_v14) = _
  after_results_simp
  rfl

theorem W1_v29 : W1 m ρ c (Proc.devRef .tc main_v29) = row3 (aBl m c) 0 := by
  refine Eq.trans ?_ (KTerm.rowK_eq 0 slices_S3x128_S1x128_0_0 (aBl m c))
  show StableHlo.after hostOps0 (W0 m ρ c) (Proc.devRef .tc main_v29) = _
  after_results_simp
  rfl

theorem W1_v31 : W1 m ρ c (Proc.devRef .tc main_v31) = wT (aWl m c) 0 := by
  refine Eq.trans ?_ (KTerm.matK_wTr_eq 0 slices_S3x128x128_S1x128x128_0_0_0 (aWl m c))
  show StableHlo.after hostOps0 (W0 m ρ c) (Proc.devRef .tc main_v31) = _
  after_results_simp
  rfl

theorem W1_v33 : W1 m ρ c (Proc.devRef .tc main_v33) = wT (aWr m c) 0 := by
  refine Eq.trans ?_ (KTerm.matK_wTr_eq 0 slices_S3x128x128_S1x128x128_0_0_0 (aWr m c))
  show StableHlo.after hostOps0 (W0 m ρ c) (Proc.devRef .tc main_v33) = _
  after_results_simp
  rfl

/-! ## Layer 0 -/

section Layer0

/-- Layer 0's linear part. -/
abbrev H0 : FVec Ideal SNH .f32 := lin (KTerm.agg (aX m c) (aE m c)) (aX m c) (wT (aWl m c) 0) (wT (aWr m c) 0) (row3 (aBl m c) 0)

theorem W2_v34_0 (RV : RegionValues) : W2 m ρ c (Proc.devRef .tc main_v34_0) = H0 m c := by
  refine ((W2_arr m ρ c 5).trans (RV.g0_5 (V1 m ρ) c)).trans ?_
  show lin (W1 m ρ c (Proc.devRef .tc main_v26)) (W1 m ρ c (Proc.devRef .tc main_arg0)) (W1 m ρ c (Proc.devRef .tc main_v31))
    (W1 m ρ c (Proc.devRef .tc main_v33)) (W1 m ρ c (Proc.devRef .tc main_v29)) = _
  rw [W1_v26, W1_arg0, W1_v31, W1_v33, W1_v29]

theorem W2_v34_1 (RV : RegionValues) : W2 m ρ c (Proc.devRef .tc main_v34_1) = colSum (H0 m c) := by
  refine ((W2_arr m ρ c 6).trans (RV.g0_6 (V1 m ρ) c)).trans ?_
  show colSum (lin (W1 m ρ c (Proc.devRef .tc main_v26)) (W1 m ρ c (Proc.devRef .tc main_arg0)) (W1 m ρ c (Proc.devRef .tc main_v31))
    (W1 m ρ c (Proc.devRef .tc main_v33)) (W1 m ρ c (Proc.devRef .tc main_v29))) = _
  rw [W1_v26, W1_arg0, W1_v31, W1_v33, W1_v29]

theorem W2_v34_2 (RV : RegionValues) : W2 m ρ c (Proc.devRef .tc main_v34_2) = colSumSq (H0 m c) := by
  refine ((W2_arr m ρ c 7).trans (RV.g0_7 (V1 m ρ) c)).trans ?_
  show colSumSq (lin (W1 m ρ c (Proc.devRef .tc main_v26)) (W1 m ρ c (Proc.devRef .tc main_arg0)) (W1 m ρ c (Proc.devRef .tc main_v31))
    (W1 m ρ c (Proc.devRef .tc main_v33)) (W1 m ρ c (Proc.devRef .tc main_v29))) = _
  rw [W1_v26, W1_arg0, W1_v31, W1_v33, W1_v29]

theorem W2_arg5 : W2 m ρ c (Proc.devRef .tc main_arg5) = (aG m c) :=
  (W2_of_arg m ρ c main_arg5 (by decide) (by not_written)).trans rfl
theorem W2_arg6 : W2 m ρ c (Proc.devRef .tc main_arg6) = (aB m c) :=
  (W2_of_arg m ρ c main_arg6 (by decide) (by not_written)).trans rfl

theorem W3_v34_0 (RV : RegionValues) : W3 m ρ c (Proc.devRef .tc main_v34_0) = H0 m c :=
  (keep1 m ρ c main_v34_0 (by not_written)).trans (W2_v34_0 m ρ c RV)

theorem W3_v36 (RV : RegionValues) : W3 m ρ c (Proc.devRef .tc main_v36) = meanRow (H0 m c) := by
  refine Eq.trans ?_ (KTerm.divN_colSum (H0 m c))
  rw [← W2_v34_1 m ρ c RV]
  show StableHlo.after hostOps1 (W2 m ρ c) (Proc.devRef .tc main_v36) = _
  after_results
  rfl

theorem W3_v43 (RV : RegionValues) : W3 m ρ c (Proc.devRef .tc main_v43) = sigmaRow (var1Row (H0 m c)) := by
  refine Eq.trans ?_ (KTerm.sigmaOf_eq (H0 m c))
  rw [← W2_v34_1 m ρ c RV, ← W2_v34_2 m ρ c RV]
  show StableHlo.after hostOps1 (W2 m ρ c) (Proc.devRef .tc main_v43) = _
  after_results
  rfl

theorem W3_v46 : W3 m ρ c (Proc.devRef .tc main_v46) = row3 (aG m c) 0 := by
  refine Eq.trans ?_ (KTerm.rowK_eq 0 slices_S3x128_S1x128_0_0 (aG m c))
  rw [← W2_arg5 m ρ c]
  show StableHlo.after hostOps1 (W2 m ρ c) (Proc.devRef .tc main_v46) = _
  after_results
  rfl

theorem W3_v49 : W3 m ρ c (Proc.devRef .tc main_v49) = row3 (aB m c) 0 := by
  refine Eq.trans ?_ (KTerm.rowK_eq 0 slices_S3x128_S1x128_0_0 (aB m c))
  rw [← W2_arg6 m ρ c]
  show StableHlo.after hostOps1 (W2 m ρ c) (Proc.devRef .tc main_v49) = _
  after_results
  rfl

/-- Layer 0's output. -/
abbrev Y1 : FVec Ideal SNH .f32 := layer0 var1Row (KTerm.agg (aX m c) (aE m c)) (aX m c) (aWl m c) (aBl m c) (aWr m c) (aG m c) (aB m c) 0

theorem W4_v50 (RV : RegionValues) : W4 m ρ c (Proc.devRef .tc main_v50) = Y1 m c := by
  refine ((W4_arr m ρ c 5).trans (RV.b1 (V3 m ρ) c)).trans ?_
  show bn (W3 m ρ c (Proc.devRef .tc main_v34_0)) (W3 m ρ c (Proc.devRef .tc main_v36)) (W3 m ρ c (Proc.devRef .tc main_v43))
    (W3 m ρ c (Proc.devRef .tc main_v46)) (W3 m ρ c (Proc.devRef .tc main_v49)) = _
  rw [W3_v34_0 m ρ c RV, W3_v36 m ρ c RV, W3_v43 m ρ c RV, W3_v46, W3_v49]
  rfl

end Layer0

/-! ## Layer 1 -/

theorem W1_arg3 : W1 m ρ c (Proc.devRef .tc main_arg3) = (aBl m c) := (keep0 m ρ c main_arg3 (by not_written)).trans rfl
theorem W1_arg5 : W1 m ρ c (Proc.devRef .tc main_arg5) = (aG m c) := (keep0 m ρ c main_arg5 (by not_written)).trans rfl
theorem W1_arg6 : W1 m ρ c (Proc.devRef .tc main_arg6) = (aB m c) := (keep0 m ρ c main_arg6 (by not_written)).trans rfl

theorem W4_v1 : W4 m ρ c (Proc.devRef .tc main_v1) = KTerm.src (aE m c) :=
  (W4_to_W1 m ρ c main_v1 (by decide) (by decide) (by not_written)).trans (W1_v1 m ρ c)
theorem W4_v3 : W4 m ρ c (Proc.devRef .tc main_v3) = KTerm.dst (aE m c) :=
  (W4_to_W1 m ρ c main_v3 (by decide) (by decide) (by not_written)).trans (W1_v3 m ρ c)
theorem W4_v12 : W4 m ρ c (Proc.devRef .tc main_v12) = KTerm.invDeg (KTerm.dst (aE m c)) :=
  (W4_to_W1 m ρ c main_v12 (by decide) (by decide) (by not_written)).trans (W1_v12 m ρ c)
theorem W4_v13 : W4 m ρ c (Proc.devRef .tc main_v13) = KTerm.wTr (aWl m c) :=
  (W4_to_W1 m ρ c main_v13 (by decide) (by decide) (by not_written)).trans (W1_v13 m ρ c)
theorem W4_v14 : W4 m ρ c (Proc.devRef .tc main_v14) = KTerm.wTr (aWr m c) :=
  (W4_to_W1 m ρ c main_v14 (by decide) (by decide) (by not_written)).trans (W1_v14 m ρ c)
theorem W4_arg3 : W4 m ρ c (Proc.devRef .tc main_arg3) = (aBl m c) :=
  (W4_to_W1 m ρ c main_arg3 (by decide) (by decide) (by not_written)).trans (W1_arg3 m ρ c)
theorem W4_arg5 : W4 m ρ c (Proc.devRef .tc main_arg5) = (aG m c) :=
  (W4_to_W1 m ρ c main_arg5 (by decide) (by decide) (by not_written)).trans (W1_arg5 m ρ c)
theorem W4_arg6 : W4 m ρ c (Proc.devRef .tc main_arg6) = (aB m c) :=
  (W4_to_W1 m ρ c main_arg6 (by decide) (by decide) (by not_written)).trans (W1_arg6 m ρ c)

section Layer1

theorem W5_v62 (RV : RegionValues) : W5 m ρ c (Proc.devRef .tc main_v62) = KTerm.agg (Y1 m c) (aE m c) := by
  have e : KTerm.agg (Y1 m c) (aE m c) = KTerm.aggOf (W4 m ρ c (Proc.devRef .tc main_v50)) (W4 m ρ c (Proc.devRef .tc main_v1))
      (W4 m ρ c (Proc.devRef .tc main_v3)) (W4 m ρ c (Proc.devRef .tc main_v12)) := by
    rw [W4_v50 m ρ c RV, W4_v1, W4_v3, W4_v12]; rfl
  rw [e]
  show StableHlo.after hostOps2 (W4 m ρ c) (Proc.devRef .tc main_v62) = _
  after_results_simp
  rfl

theorem W5_v65 : W5 m ρ c (Proc.devRef .tc main_v65) = row3 (aBl m c) 1 := by
  refine Eq.trans ?_ (KTerm.rowK_eq 1 slices_S3x128_S1x128_1_0 (aBl m c))
  rw [← W4_arg3 m ρ c]
  show StableHlo.after hostOps2 (W4 m ρ c) (Proc.devRef .tc main_v65) = _
  after_results_simp
  rfl

theorem W5_v67 : W5 m ρ c (Proc.devRef .tc main_v67) = wT (aWl m c) 1 := by
  refine Eq.trans ?_ (KTerm.matK_wTr_eq 1 slices_S3x128x128_S1x128x128_1_0_0 (aWl m c))
  rw [← W4_v13 m ρ c]
  show StableHlo.after hostOps2 (W4 m ρ c) (Proc.devRef .tc main_v67) = _
  after_results_simp
  rfl

theorem W5_v69 : W5 m ρ c (Proc.devRef .tc main_v69) = wT (aWr m c) 1 := by
  refine Eq.trans ?_ (KTerm.matK_wTr_eq 1 slices_S3x128x128_S1x128x128_1_0_0 (aWr m c))
  rw [← W4_v14 m ρ c]
  show StableHlo.after hostOps2 (W4 m ρ c) (Proc.devRef .tc main_v69) = _
  after_results_simp
  rfl

theorem W5_v50 (RV : RegionValues) : W5 m ρ c (Proc.devRef .tc main_v50) = Y1 m c :=
  (keep2 m ρ c main_v50 (by not_written)).trans (W4_v50 m ρ c RV)

/-- Layer 1's linear part. -/
abbrev H1 : FVec Ideal SNH .f32 := lin (KTerm.agg (Y1 m c) (aE m c)) (Y1 m c) (wT (aWl m c) 1) (wT (aWr m c) 1) (row3 (aBl m c) 1)

theorem W6_v70_0 (RV : RegionValues) : W6 m ρ c (Proc.devRef .tc main_v70_0) = H1 m c := by
  refine ((W6_arr m ρ c 5).trans (RV.g2_5 (V5 m ρ) c)).trans ?_
  show lin (W5 m ρ c (Proc.devRef .tc main_v62)) (W5 m ρ c (Proc.devRef .tc main_v50)) (W5 m ρ c (Proc.devRef .tc main_v67))
    (W5 m ρ c (Proc.devRef .tc main_v69)) (W5 m ρ c (Proc.devRef .tc main_v65)) = _
  rw [W5_v62 m ρ c RV, W5_v50 m ρ c RV, W5_v67, W5_v69, W5_v65]

theorem W6_v70_1 (RV : RegionValues) : W6 m ρ c (Proc.devRef .tc main_v70_1) = colSum (H1 m c) := by
  refine ((W6_arr m ρ c 6).trans (RV.g2_6 (V5 m ρ) c)).trans ?_
  show colSum (lin (W5 m ρ c (Proc.devRef .tc main_v62)) (W5 m ρ c (Proc.devRef .tc main_v50)) (W5 m ρ c (Proc.devRef .tc main_v67))
    (W5 m ρ c (Proc.devRef .tc main_v69)) (W5 m ρ c (Proc.devRef .tc main_v65))) = _
  rw [W5_v62 m ρ c RV, W5_v50 m ρ c RV, W5_v67, W5_v69, W5_v65]

theorem W6_v70_2 (RV : RegionValues) : W6 m ρ c (Proc.devRef .tc main_v70_2) = colSumSq (H1 m c) := by
  refine ((W6_arr m ρ c 7).trans (RV.g2_7 (V5 m ρ) c)).trans ?_
  show colSumSq (lin (W5 m ρ c (Proc.devRef .tc main_v62)) (W5 m ρ c (Proc.devRef .tc main_v50)) (W5 m ρ c (Proc.devRef .tc main_v67))
    (W5 m ρ c (Proc.devRef .tc main_v69)) (W5 m ρ c (Proc.devRef .tc main_v65))) = _
  rw [W5_v62 m ρ c RV, W5_v50 m ρ c RV, W5_v67, W5_v69, W5_v65]

/-- Region 2 reads layer 0's output through an input window: it leaves the array as it found it. -/
theorem W6_v50 (RV : RegionValues) : W6 m ρ c (Proc.devRef .tc main_v50) = Y1 m c :=
  ((W6_arr m ρ c 1).trans (((dat2 (V5 m ρ) c).arrAt_in 1 rfl _).trans (A_eq2 (V5 m ρ) c 1))).trans (W5_v50 m ρ c RV)

theorem W6_arg5 : W6 m ρ c (Proc.devRef .tc main_arg5) = (aG m c) :=
  (W6_to_W4 m ρ c main_arg5 (by decide) (by not_written)).trans (W4_arg5 m ρ c)
theorem W6_arg6 : W6 m ρ c (Proc.devRef .tc main_arg6) = (aB m c) :=
  (W6_to_W4 m ρ c main_arg6 (by decide) (by not_written)).trans (W4_arg6 m ρ c)

theorem W7_v70_0 (RV : RegionValues) : W7 m ρ c (Proc.devRef .tc main_v70_0) = H1 m c :=
  (keep3 m ρ c main_v70_0 (by not_written)).trans (W6_v70_0 m ρ c RV)
theorem W7_v50 (RV : RegionValues) : W7 m ρ c (Proc.devRef .tc main_v50) = Y1 m c :=
  (keep3 m ρ c main_v50 (by not_written)).trans (W6_v50 m ρ c RV)

theorem W7_v72 (RV : RegionValues) : W7 m ρ c (Proc.devRef .tc main_v72) = meanRow (H1 m c) := by
  refine Eq.trans ?_ (KTerm.divN_colSum (H1 m c))
  rw [← W6_v70_1 m ρ c RV]
  show StableHlo.after hostOps3 (W6 m ρ c) (Proc.devRef .tc main_v72) = _
  after_results
  rfl

theorem W7_v79 (RV : RegionValues) : W7 m ρ c (Proc.devRef .tc main_v79) = sigmaRow (var1Row (H1 m c)) := by
  refine Eq.trans ?_ (KTerm.sigmaOf_eq (H1 m c))
  rw [← W6_v70_1 m ρ c RV, ← W6_v70_2 m ρ c RV]
  show StableHlo.after hostOps3 (W6 m ρ c) (Proc.devRef .tc main_v79) = _
  after_results
  rfl

theorem W7_v82 : W7 m ρ c (Proc.devRef .tc main_v82) = row3 (aG m c) 1 := by
  refine Eq.trans ?_ (KTerm.rowK_eq 1 slices_S3x128_S1x128_1_0 (aG m c))
  rw [← W6_arg5 m ρ c]
  show StableHlo.after hostOps3 (W6 m ρ c) (Proc.devRef .tc main_v82) = _
  after_results
  rfl

theorem W7_v85 : W7 m ρ c (Proc.devRef .tc main_v85) = row3 (aB m c) 1 := by
  refine Eq.trans ?_ (KTerm.rowK_eq 1 slices_S3x128_S1x128_1_0 (aB m c))
  rw [← W6_arg6 m ρ c]
  show StableHlo.after hostOps3 (W6 m ρ c) (Proc.devRef .tc main_v85) = _
  after_results
  rfl

/-- Layer 1's output. -/
abbrev Y2 : FVec Ideal SNH .f32 := layerR var1Row (KTerm.agg (Y1 m c) (aE m c)) (Y1 m c) (aWl m c) (aBl m c) (aWr m c) (aG m c) (aB m c) 1

theorem W8_v86 (RV : RegionValues) : W8 m ρ c (Proc.devRef .tc main_v86) = Y2 m c := by
  refine ((W8_arr m ρ c 6).trans (RV.b3 (V7 m ρ) c)).trans ?_
  show bnRes (W7 m ρ c (Proc.devRef .tc main_v70_0)) (W7 m ρ c (Proc.devRef .tc main_v72)) (W7 m ρ c (Proc.devRef .tc main_v79))
    (W7 m ρ c (Proc.devRef .tc main_v82)) (W7 m ρ c (Proc.devRef .tc main_v85)) (W7 m ρ c (Proc.devRef .tc main_v50)) = _
  rw [W7_v70_0 m ρ c RV, W7_v72 m ρ c RV, W7_v79 m ρ c RV, W7_v82, W7_v85, W7_v50 m ρ c RV]
  rfl

end Layer1

/-! ## Layer 2 -/

theorem W8_v1 : W8 m ρ c (Proc.devRef .tc main_v1) = KTerm.src (aE m c) :=
  (W8_to_W4 m ρ c main_v1 (by decide) (by decide) (by not_written) (by not_written)).trans (W4_v1 m ρ c)
theorem W8_v3 : W8 m ρ c (Proc.devRef .tc main_v3) = KTerm.dst (aE m c) :=
  (W8_to_W4 m ρ c main_v3 (by decide) (by decide) (by not_written) (by not_written)).trans (W4_v3 m ρ c)
theorem W8_v12 : W8 m ρ c (Proc.devRef .tc main_v12) = KTerm.invDeg (KTerm.dst (aE m c)) :=
  (W8_to_W4 m ρ c main_v12 (by decide) (by decide) (by not_written) (by not_written)).trans (W4_v12 m ρ c)
theorem W8_v13 : W8 m ρ c (Proc.devRef .tc main_v13) = KTerm.wTr (aWl m c) :=
  (W8_to_W4 m ρ c main_v13 (by decide) (by decide) (by not_written) (by not_written)).trans (W4_v13 m ρ c)
theorem W8_v14 : W8 m ρ c (Proc.devRef .tc main_v14) = KTerm.wTr (aWr m c) :=
  (W8_to_W4 m ρ c main_v14 (by decide) (by decide) (by not_written) (by not_written)).trans (W4_v14 m ρ c)
theorem W8_arg3 : W8 m ρ c (Proc.devRef .tc main_arg3) = (aBl m c) :=
  (W8_to_W4 m ρ c main_arg3 (by decide) (by decide) (by not_written) (by not_written)).trans (W4_arg3 m ρ c)
theorem W8_arg5 : W8 m ρ c (Proc.devRef .tc main_arg5) = (aG m c) :=
  (W8_to_W4 m ρ c main_arg5 (by decide) (by decide) (by not_written) (by not_written)).trans (W4_arg5 m ρ c)
theorem W8_arg6 : W8 m ρ c (Proc.devRef .tc main_arg6) = (aB m c) :=
  (W8_to_W4 m ρ c main_arg6 (by decide) (by decide) (by not_written) (by not_written)).trans (W4_arg6 m ρ c)

section Layer2

theorem W9_v98 (RV : RegionValues) : W9 m ρ c (Proc.devRef .tc main_v98) = KTerm.agg (Y2 m c) (aE m c) := by
  have e : KTerm.agg (Y2 m c) (aE m c) = KTerm.aggOf (W8 m ρ c (Proc.devRef .tc main_v86)) (W8 m ρ c (Proc.devRef .tc main_v1))
      (W8 m ρ c (Proc.devRef .tc main_v3)) (W8 m ρ c (Proc.devRef .tc main_v12)) := by
    rw [W8_v86 m ρ c RV, W8_v1, W8_v3, W8_v12]; rfl
  rw [e]
  show StableHlo.after hostOps4 (W8 m ρ c) (Proc.devRef .tc main_v98) = _
  after_results_simp
  rfl

theorem W9_v101 : W9 m ρ c (Proc.devRef .tc main_v101) = row3 (aBl m c) 2 := by
  refine Eq.trans ?_ (KTerm.rowK_eq 2 slices_S3x128_S1x128_2_0 (aBl m c))
  rw [← W8_arg3 m ρ c]
  show StableHlo.after hostOps4 (W8 m ρ c) (Proc.devRef .tc main_v101) = _
  after_results_simp
  rfl

theorem W9_v103 : W9 m ρ c (Proc.devRef .tc main_v103) = wT (aWl m c) 2 := by
  refine Eq.trans ?_ (KTerm.matK_wTr_eq 2 slices_S3x128x128_S1x128x128_2_0_0 (aWl m c))
  rw [← W8_v13 m ρ c]
  show StableHlo.after hostOps4 (W8 m ρ c) (Proc.devRef .tc main_v103) = _
  after_results_simp
  rfl

theorem W9_v105 : W9 m ρ c (Proc.devRef .tc main_v105) = wT (aWr m c) 2 := by
  refine Eq.trans ?_ (KTerm.matK_wTr_eq 2 slices_S3x128x128_S1x128x128_2_0_0 (aWr m c))
  rw [← W8_v14 m ρ c]
  show StableHlo.after hostOps4 (W8 m ρ c) (Proc.devRef .tc main_v105) = _
  after_results_simp
  rfl

theorem W9_v86 (RV : RegionValues) : W9 m ρ c (Proc.devRef .tc main_v86) = Y2 m c :=
  (keep4 m ρ c main_v86 (by not_written)).trans (W8_v86 m ρ c RV)

/-- Layer 2's linear part. -/
abbrev H2 : FVec Ideal SNH .f32 := lin (KTerm.agg (Y2 m c) (aE m c)) (Y2 m c) (wT (aWl m c) 2) (wT (aWr m c) 2) (row3 (aBl m c) 2)

theorem W10_v106_0 (RV : RegionValues) : W10 m ρ c (Proc.devRef .tc main_v106_0) = H2 m c := by
  refine ((W10_arr m ρ c 5).trans (RV.g4_5 (V9 m ρ) c)).trans ?_
  show lin (W9 m ρ c (Proc.devRef .tc main_v98)) (W9 m ρ c (Proc.devRef .tc main_v86)) (W9 m ρ c (Proc.devRef .tc main_v103))
    (W9 m ρ c (Proc.devRef .tc main_v105)) (W9 m ρ c (Proc.devRef .tc main_v101)) = _
  rw [W9_v98 m ρ c RV, W9_v86 m ρ c RV, W9_v103, W9_v105, W9_v101]

theorem W10_v106_1 (RV : RegionValues) : W10 m ρ c (Proc.devRef .tc main_v106_1) = colSum (H2 m c) := by
  refine ((W10_arr m ρ c 6).trans (RV.g4_6 (V9 m ρ) c)).trans ?_
  show colSum (lin (W9 m ρ c (Proc.devRef .tc main_v98)) (W9 m ρ c (Proc.devRef .tc main_v86)) (W9 m ρ c (Proc.devRef .tc main_v103))
    (W9 m ρ c (Proc.devRef .tc main_v105)) (W9 m ρ c (Proc.devRef .tc main_v101))) = _
  rw [W9_v98 m ρ c RV, W9_v86 m ρ c RV, W9_v103, W9_v105, W9_v101]

theorem W10_v106_2 (RV : RegionValues) : W10 m ρ c (Proc.devRef .tc main_v106_2) = colSumSq (H2 m c) := by
  refine ((W10_arr m ρ c 7).trans (RV.g4_7 (V9 m ρ) c)).trans ?_
  show colSumSq (lin (W9 m ρ c (Proc.devRef .tc main_v98)) (W9 m ρ c (Proc.devRef .tc main_v86)) (W9 m ρ c (Proc.devRef .tc main_v103))
    (W9 m ρ c (Proc.devRef .tc main_v105)) (W9 m ρ c (Proc.devRef .tc main_v101))) = _
  rw [W9_v98 m ρ c RV, W9_v86 m ρ c RV, W9_v103, W9_v105, W9_v101]

/-- Region 4 reads layer 1's output through an input window: it leaves the array as it found it. -/
theorem W10_v86 (RV : RegionValues) : W10 m ρ c (Proc.devRef .tc main_v86) = Y2 m c :=
  ((W10_arr m ρ c 1).trans (((dat4 (V9 m ρ) c).arrAt_in 1 rfl _).trans (A_eq4 (V9 m ρ) c 1))).trans (W9_v86 m ρ c RV)

theorem W10_arg5 : W10 m ρ c (Proc.devRef .tc main_arg5) = (aG m c) :=
  (W10_to_W8 m ρ c main_arg5 (by decide) (by not_written)).trans (W8_arg5 m ρ c)
theorem W10_arg6 : W10 m ρ c (Proc.devRef .tc main_arg6) = (aB m c) :=
  (W10_to_W8 m ρ c main_arg6 (by decide) (by not_written)).trans (W8_arg6 m ρ c)

theorem W11_v106_0 (RV : RegionValues) : W11 m ρ c (Proc.devRef .tc main_v106_0) = H2 m c :=
  (keep5 m ρ c main_v106_0 (by not_written)).trans (W10_v106_0 m ρ c RV)
theorem W11_v86 (RV : RegionValues) : W11 m ρ c (Proc.devRef .tc main_v86) = Y2 m c :=
  (keep5 m ρ c main_v86 (by not_written)).trans (W10_v86 m ρ c RV)

theorem W11_v108 (RV : RegionValues) : W11 m ρ c (Proc.devRef .tc main_v108) = meanRow (H2 m c) := by
  refine Eq.trans ?_ (KTerm.divN_colSum (H2 m c))
  rw [← W10_v106_1 m ρ c RV]
  show StableHlo.after hostOps5 (W10 m ρ c) (Proc.devRef .tc main_v108) = _
  after_results
  rfl

theorem W11_v115 (RV : RegionValues) : W11 m ρ c (Proc.devRef .tc main_v115) = sigmaRow (var1Row (H2 m c)) := by
  refine Eq.trans ?_ (KTerm.sigmaOf_eq (H2 m c))
  rw [← W10_v106_1 m ρ c RV, ← W10_v106_2 m ρ c RV]
  show StableHlo.after hostOps5 (W10 m ρ c) (Proc.devRef .tc main_v115) = _
  after_results
  rfl

theorem W11_v118 : W11 m ρ c (Proc.devRef .tc main_v118) = row3 (aG m c) 2 := by
  refine Eq.trans ?_ (KTerm.rowK_eq 2 slices_S3x128_S1x128_2_0 (aG m c))
  rw [← W10_arg5 m ρ c]
  show StableHlo.after hostOps5 (W10 m ρ c) (Proc.devRef .tc main_v118) = _
  after_results
  rfl

theorem W11_v121 : W11 m ρ c (Proc.devRef .tc main_v121) = row3 (aB m c) 2 := by
  refine Eq.trans ?_ (KTerm.rowK_eq 2 slices_S3x128_S1x128_2_0 (aB m c))
  rw [← W10_arg6 m ρ c]
  show StableHlo.after hostOps5 (W10 m ρ c) (Proc.devRef .tc main_v121) = _
  after_results
  rfl

/-- Layer 2's output: the program's result. -/
abbrev Y3 : FVec Ideal SNH .f32 := layerR var1Row (KTerm.agg (Y2 m c) (aE m c)) (Y2 m c) (aWl m c) (aBl m c) (aWr m c) (aG m c) (aB m c) 2

theorem W12_v122 (RV : RegionValues) : W12 m ρ c (Proc.devRef .tc main_v122) = Y3 m c := by
  refine ((W12_arr m ρ c 6).trans (RV.b5 (V11 m ρ) c)).trans ?_
  show bnRes (W11 m ρ c (Proc.devRef .tc main_v106_0)) (W11 m ρ c (Proc.devRef .tc main_v108)) (W11 m ρ c (Proc.devRef .tc main_v115))
    (W11 m ρ c (Proc.devRef .tc main_v118)) (W11 m ρ c (Proc.devRef .tc main_v121)) (W11 m ρ c (Proc.devRef .tc main_v86)) = _
  rw [W11_v106_0 m ρ c RV, W11_v108 m ρ c RV, W11_v115 m ρ c RV, W11_v118, W11_v121, W11_v86 m ρ c RV]
  rfl

end Layer2

/-! ## The result -/

/-- The result buffer at the last boundary is the three-layer network with the one-pass variance. -/
theorem result_eq (RV : RegionValues) :
    W12 m ρ c (Proc.devRef .tc main_v122) = net var1Row (fun y => KTerm.agg y (aE m c)) (aX m c) (aWl m c) (aBl m c) (aWr m c) (aG m c) (aB m c) :=
  (W12_v122 m ρ c RV).trans rfl

end Cert.KernelIdeal.KChain

end
-- ==== Proof.Gemm0a.lean ====
import proofs.«154196_j84232898609317_1_alg».proof.Proof.Gen.KernelIdeal.Frame
import Idealize.ShloMosaic.Lib.Pipeline.Value
import Idealize.ShloMosaic.Lib.Tactic

/-!
  What one grid point of the matrix-product-with-statistics body leaves in its three output buffers, as the body's
  arithmetic applied to the blocks it loaded: the block of products, and the two running rows — at the first point
  started from the zero row the body has just stored, at every later point from what the buffer held.
-/

noncomputable section

open Idealize.ShloMosaic Idealize.ShloMosaic.TcCoe Idealize.SL.Sem

namespace Cert.KernelIdeal.Gemm0

open Cert.KernelIdeal Cert.KernelIdeal.Gen

variable {F : FTy → Type} [FloatOps F]

theorem hz : (![0, 0] : Fin 2 → Nat) = fun _ => 0 := funext fun a => by fin_cases a <;> rfl

/-- First point: the product block is the body's product term of the five loaded blocks. -/
theorem outA5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 : Vec F S2000x128 .f32) (x1 : Vec F S2000x128 .f32) (x2 : Vec F S128x128 .f32) (x3 : Vec F S128x128 .f32) (x4 : Vec F S1x128 .f32) :
    out0_A_5 c i arg1 harg1 arg2 harg2 arg3 harg3 arg4 harg4 arg5 harg5 arg6 harg6 arg7 harg7 arg8 harg8 hc0 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point: the row of column sums is the block's column sums added to the zero row just stored. -/
theorem outA6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 : Vec F S2000x128 .f32) (x1 : Vec F S2000x128 .f32) (x2 : Vec F S128x128 .f32) (x3 : Vec F S128x128 .f32) (x4 : Vec F S1x128 .f32) :
    out0_A_6 c i arg1 harg1 arg2 harg2 arg3 harg3 arg4 harg4 arg5 harg5 arg6 harg6 arg7 harg7 arg8 harg8 hc0 x0 x1 x2 x3 x4 = k0_pay5 x0 x1 x2 x3 x4 (k0_pay2 (F := F)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point: the row of column sums of squares, likewise from the zero row. -/
theorem outA7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 : Vec F S2000x128 .f32) (x1 : Vec F S2000x128 .f32) (x2 : Vec F S128x128 .f32) (x3 : Vec F S128x128 .f32) (x4 : Vec F S1x128 .f32) :
    out0_A_7 c i arg1 harg1 arg2 harg2 arg3 harg3 arg4 harg4 arg5 harg5 arg6 harg6 arg7 harg7 arg8 harg8 hc0 x0 x1 x2 x3 x4 = k0_pay1 (k0_pay6 (k0_pay3 (F := F))) (k0_pay7 x0 x1 x2 x3 x4) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the product block, the same term. -/
theorem outB5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out0_B_5 c i arg1 harg1 arg2 harg2 arg3 harg3 arg4 harg4 arg5 harg5 arg6 harg6 arg7 harg7 arg8 harg8 hc0 x0 x1 x2 x3 x4 xo6 xo7 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the block's column sums added to the row the buffer held. -/
theorem outB6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out0_B_6 c i arg1 harg1 arg2 harg2 arg3 harg3 arg4 harg4 arg5 harg5 arg6 harg6 arg7 harg7 arg8 harg8 hc0 x0 x1 x2 x3 x4 xo6 xo7 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the block's column sums of squares added to the row the buffer held. -/
theorem outB7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out0_B_7 c i arg1 harg1 arg2 harg2 arg3 harg3 arg4 harg4 arg5 harg5 arg6 harg6 arg7 harg7 arg8 harg8 hc0 x0 x1 x2 x3 x4 xo6 xo7 = k0_pay1 (k0_pay6 xo7) (k0_pay7 x0 x1 x2 x3 x4) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

end Cert.KernelIdeal.Gemm0

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.Gemm0b.lean ====
import proofs.«154196_j84232898609317_1_alg».proof.Proof.Gen.KernelIdeal.Skeleton
import proofs.«154196_j84232898609317_1_alg».proof.Proof.LibPlainDot
import proofs.«154196_j84232898609317_1_alg».proof.Proof.LibRowColumn
import Idealize.ShloMosaic.Lib.ValueLayout
import Idealize.ShloMosaic.Lib.Pipeline.Value

/-!
  The body's arithmetic read entry by entry on the extended reals, for a block of 2000 rows:
  the product block's entry (p, j) is (Σ_k a(p,k)·wl(k,j) + b(0,j)) + Σ_k x(p,k)·wr(k,j); the new row of column sums is the
  old row plus the sum over p of the block's column j; the new row of sums of squares is the old row plus the sum over p
  of the squared entries. A format change is the identity on extended reals and a matrix product into a zero accumulator
  is the plain finite sum.
-/

noncomputable section

open scoped BigOperators
open Idealize.ShloMosaic Idealize.ShloMosaic.ValueIdx

namespace Cert.KernelIdeal.Gemm0

open Cert.KernelIdeal Cert.KernelIdeal.Gen

/-- The sum down column `c` of an `[a, b]` matrix, as the body's reduction over the rows from the zero word computes it. -/
theorem colReduce_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (c : Fin b) :
    multiReduction .add [0] ⟨1, ![b]⟩ src 0x00000000#32 h hφ hacc (ix1 c) = ∑ k : Fin a, src (ix2 k c) :=
  (Ideal.multiReduction_add_single src 0x00000000#32 h hφ hacc (ix1 c)).trans
    (Finset.sum_congr rfl fun k _ => congrArg src (RowColumn.lift_rows h c k))

/-- Entry (p, j) of the product block. -/
theorem pay4_apply (v3 v6 : Vec Ideal S2000x128 .f32) (v8 v11 : Vec Ideal S128x128 .f32) (v15 : Vec Ideal S1x128 .f32)
    (p : Fin 2000) (j : Fin 128) :
    k0_pay4 (F := Ideal) v3 v6 v8 v11 v15 (ix2 p j)
      = ((∑ k : Fin 128, v3 (ix2 p k) * v8 (ix2 k j)) + v15 (ix2 (0 : Fin 1) j)) + ∑ k : Fin 128, v6 (ix2 p k) * v11 (ix2 k j) := by
  unfold k0_pay4
  simp only [shapeCast_self]
  refine congrArg₂ (· + ·) (congrArg₂ (· + ·) ?_ ?_) ?_
  · exact PlainDot.matmul_apply_ix2 (M := 2000) (K := 128) (N := 128) none _ _ p j
  · exact broadcastTo_1b_ab_apply v15 broadcasts_S1x128_S2000x128 p j
  · exact PlainDot.matmul_apply_ix2 (M := 2000) (K := 128) (N := 128) none _ _ p j

/-- Entry (u, j) of the new row of column sums: the old row's entry plus the block's column j summed. -/
theorem pay5_apply (v3 v6 : Vec Ideal S2000x128 .f32) (v8 v11 : Vec Ideal S128x128 .f32) (v15 v22 : Vec Ideal S1x128 .f32)
    (u : Fin 1) (j : Fin 128) :
    k0_pay5 (F := Ideal) v3 v6 v8 v11 v15 v22 (ix2 u j)
      = v22 (ix2 u j) + ∑ p : Fin 2000, k0_pay4 (F := Ideal) v3 v6 v8 v11 v15 (ix2 p j) := by
  unfold k0_pay5
  simp only [shapeCast_self]
  refine congrArg₂ (· + ·) rfl ?_
  refine (shapeCast_a_1a_apply _ shapeCasts_S128_S1x128 u j).trans ?_
  exact colReduce_apply (a := 2000) (b := 128) _ reduces_S2000x128_S128 (.inl rfl) rfl j

/-- Entry (u, j) of the new row of column sums of squares. -/
theorem pay17_apply (v3 v6 : Vec Ideal S2000x128 .f32) (v8 v11 : Vec Ideal S128x128 .f32) (v15 v28 : Vec Ideal S1x128 .f32)
    (u : Fin 1) (j : Fin 128) :
    k0_pay1 (F := Ideal) (k0_pay6 v28) (k0_pay7 v3 v6 v8 v11 v15) (ix2 u j)
      = v28 (ix2 u j) + ∑ p : Fin 2000, k0_pay4 (F := Ideal) v3 v6 v8 v11 v15 (ix2 p j) * k0_pay4 (F := Ideal) v3 v6 v8 v11 v15 (ix2 p j) := by
  unfold k0_pay1 k0_pay6 k0_pay7
  simp only [shapeCast_self]
  refine congrArg₂ (· + ·) rfl ?_
  refine (shapeCast_a_1a_apply _ shapeCasts_S128_S1x128 u j).trans ?_
  exact colReduce_apply (a := 2000) (b := 128) _ reduces_S2000x128_S128 (.inl rfl) rfl j

/-- The zero rows the first point stores are zero. -/
theorem pay2_apply (i : S1x128.Idx) : k0_pay2 (F := Ideal) i = 0 := Ideal.ofBits_zero_f32
theorem pay3_apply (i : S1x128.Idx) : k0_pay3 (F := Ideal) i = 0 := Ideal.ofBits_zero_f32

end Cert.KernelIdeal.Gemm0

end
-- ==== Proof.Gemm0c.lean ====
import proofs.«154196_j84232898609317_1_alg».proof.Proof.Gen.KernelIdeal.Frame
import proofs.«154196_j84232898609317_1_alg».proof.Proof.Spec
import proofs.«154196_j84232898609317_1_alg».proof.Proof.Gemm0b
import Idealize.ShloMosaic.Lib.Pipeline.Value
import Idealize.ShloMosaic.Lib.ValueIdx

/-!
  The blocks one grid point reads, as entries of the arrays the region finds: the two row-blocked operands' block t holds
  rows 2000·t … 2000·t + 1999 (a block coordinate is block index × block size + the coordinate inside), the two weight
  matrices and the bias row are read whole. Hence the product block at point t is rows 2000·t … of the whole product
  array `lin` of the five arrays.
-/

noncomputable section

open scoped BigOperators
open Idealize.ShloMosaic Idealize.ShloMosaic.TcCoe Idealize.SL.Sem Idealize.ShloMosaic.ValueIdx

namespace Cert.KernelIdeal.Gemm0

open Cert.KernelIdeal Cert.KernelIdeal.Gen

variable (V : (c : Dev nD) → (b : Ref sig .tc) → Buf (Elt Ideal) ((c : Thread nD τ).loc b)) (c : Dev nD)

/-- The row-blocked windows (the two operands and the product) sit at block row t, block column 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0 :=
  (by decide +kernel : ∀ t : Fin grid0.N, _)

/-- The whole-array windows never move. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem iblk_0_apply (t : Fin cfg0.N) (p : Fin 2000) (k : Fin 128) (r : Fin 50000) (hr : r.val = 2000 * t.val + p.val) :
    (iblk0 V c 0 t : Vec Ideal S2000x128 .f32) (ix2 p k) = (V c (Pipeline.arrRef spec0 0) : FVec Ideal Cert.Sage.SNH .f32) (ix2 r k) := by
  obtain ⟨e0, e1, -⟩ := idx_rows t
  unfold iblk0
  rw [View.read_apply]
  refine congrArg (V c (Pipeline.arrRef spec0 0)) (funext fun a => Fin.ext ?_)
  match a with
  | ⟨0, _⟩ => show win0_0.index t 0 * 2000 + 1 * p.val = r.val; rw [e0, hr]; omega
  | ⟨1, _⟩ => show win0_0.index t 1 * 128 + 1 * k.val = k.val; rw [e1]; omega

theorem iblk_1_apply (t : Fin cfg0.N) (p : Fin 2000) (k : Fin 128) (r : Fin 50000) (hr : r.val = 2000 * t.val + p.val) :
    (iblk0 V c 1 t : Vec Ideal S2000x128 .f32) (ix2 p k) = (V c (Pipeline.arrRef spec0 1) : FVec Ideal Cert.Sage.SNH .f32) (ix2 r k) := by
  obtain ⟨-, -, e0, e1, -⟩ := idx_rows t
  unfold iblk0
  rw [View.read_apply]
  refine congrArg (V c (Pipeline.arrRef spec0 1)) (funext fun a => Fin.ext ?_)
  match a with
  | ⟨0, _⟩ => show win0_1.index t 0 * 2000 + 1 * p.val = r.val; rw [e0, hr]; omega
  | ⟨1, _⟩ => show win0_1.index t 1 * 128 + 1 * k.val = k.val; rw [e1]; omega

theorem iblk_2_apply (t : Fin cfg0.N) (k j : Fin 128) :
    (iblk0 V c 2 t : Vec Ideal S128x128 .f32) (ix2 k j) = (V c (Pipeline.arrRef spec0 2) : FVec Ideal Cert.Sage.SHH .f32) (ix2 k j) := by
  obtain ⟨e0, e1, -⟩ := idx_whole t
  unfold iblk0
  rw [View.read_apply]
  refine congrArg (V c (Pipeline.arrRef spec0 2)) (funext fun a => Fin.ext ?_)
  match a with
  | ⟨0, _⟩ => show win0_2.index t 0 * 128 + 1 * k.val = k.val; rw [e0]; omega
  | ⟨1, _⟩ => show win0_2.index t 1 * 128 + 1 * j.val = j.val; rw [e1]; omega

theorem iblk_3_apply (t : Fin cfg0.N) (k j : Fin 128) :
    (iblk0 V c 3 t : Vec Ideal S128x128 .f32) (ix2 k j) = (V c (Pipeline.arrRef spec0 3) : FVec Ideal Cert.Sage.SHH .f32) (ix2 k j) := by
  obtain ⟨-, -, e0, e1, -⟩ := idx_whole t
  unfold iblk0
  rw [View.read_apply]
  refine congrArg (V c (Pipeline.arrRef spec0 3)) (funext fun a => Fin.ext ?_)
  match a with
  | ⟨0, _⟩ => show win0_3.index t 0 * 128 + 1 * k.val = k.val; rw [e0]; omega
  | ⟨1, _⟩ => show win0_3.index t 1 * 128 + 1 * j.val = j.val; rw [e1]; omega

theorem iblk_4_apply (t : Fin cfg0.N) (u : Fin 1) (j : Fin 128) :
    (iblk0 V c 4 t : Vec Ideal S1x128 .f32) (ix2 u j) = (V c (Pipeline.arrRef spec0 4) : FVec Ideal Cert.Sage.S1H .f32) (ix2 u j) := by
  obtain ⟨-, -, -, -, e0, e1, -⟩ := idx_whole t
  unfold iblk0
  rw [View.read_apply]
  refine congrArg (V c (Pipeline.arrRef spec0 4)) (funext fun a => Fin.ext ?_)
  match a with
  | ⟨0, _⟩ => show win0_4.index t 0 * 1 + 1 * u.val = u.val; rw [e0]; omega
  | ⟨1, _⟩ => show win0_4.index t 1 * 128 + 1 * j.val = j.val; rw [e1]; omega

/-- The whole product array of the five arrays the region finds. -/
def hlin : FVec Ideal Cert.Sage.SNH .f32 :=
  Cert.Sage.lin (V c (Pipeline.arrRef spec0 0)) (V c (Pipeline.arrRef spec0 1)) (V c (Pipeline.arrRef spec0 2))
    (V c (Pipeline.arrRef spec0 3)) (V c (Pipeline.arrRef spec0 4))

/-- The product block the body computes at point t. -/
abbrev blkP (t : Fin cfg0.N) : FVec Ideal S2000x128 .f32 :=
  k0_pay4 (F := Ideal) (iblk0 V c 0 t) (iblk0 V c 1 t) (iblk0 V c 2 t) (iblk0 V c 3 t) (iblk0 V c 4 t)

/-- Its entry (p, j) is entry (2000·t + p, j) of the whole product array. -/
theorem blkP_apply (t : Fin cfg0.N) (p : Fin 2000) (j : Fin 128) (r : Fin 50000) (hr : r.val = 2000 * t.val + p.val) :
    blkP V c t (ix2 p j) = hlin V c (ix2 r j) := by
  refine (pay4_apply (iblk0 V c 0 t) (iblk0 V c 1 t) (iblk0 V c 2 t) (iblk0 V c 3 t) (iblk0 V c 4 t) p j).trans ?_
  unfold hlin
  rw [Cert.Sage.lin_ix2]
  unfold Cert.Sage.linAt
  exact congrArg₂ (· + ·)
    (congrArg₂ (· + ·)
      (Finset.sum_congr rfl fun k _ => congrArg₂ (· * ·) (iblk_0_apply V c t p k r hr) (iblk_2_apply V c t k j))
      (iblk_4_apply V c t 0 j))
    (Finset.sum_congr rfl fun k _ => congrArg₂ (· * ·) (iblk_1_apply V c t p k r hr) (iblk_3_apply V c t k j))

/-- The same at any index of the block. -/
theorem blkP_idx (t : Fin cfg0.N) (y : S2000x128.Idx) (r : Fin 50000) (j : Fin 128)
    (hr : r.val = 2000 * t.val + (y 0).val) (hj : j.val = (y 1).val) : blkP V c t y = hlin V c (ix2 r j) := by
  have hy : y = ix2 (⟨(y 0).val, idx2_lt0 y⟩ : Fin 2000) (⟨(y 1).val, idx2_lt1 y⟩ : Fin 128) :=
    funext fun a => by match a with | ⟨0, _⟩ => rfl | ⟨1, _⟩ => rfl
  obtain rfl : j = ⟨(y 1).val, idx2_lt1 y⟩ := Fin.ext hj
  exact (congrArg (blkP V c t) hy).trans (blkP_apply V c t _ _ r hr)

/-- The whole product array with its row a plain natural number (zero beyond the last row): the form sums over
    runs of rows are written in. -/
def hN (r : ℕ) (j : Fin 128) : EReal := if hr : r < 50000 then hlin V c (ix2 ⟨r, hr⟩ j) else 0

theorem blkP_hN (t : Fin cfg0.N) (p : Fin 2000) (j : Fin 128) : blkP V c t (ix2 p j) = hN V c (2000 * t.val + p.val) j := by
  have hN25 : cfg0.N = 25 := N_0
  have hlt : 2000 * t.val + p.val < 50000 := by have := t.isLt; have := p.isLt; omega
  unfold hN
  rw [dif_pos hlt]
  exact blkP_apply V c t p j ⟨_, hlt⟩ rfl

end Cert.KernelIdeal.Gemm0

end
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.Gemm0d.lean ====
import proofs.«154196_j84232898609317_1_alg».proof.Proof.Gemm0a
import proofs.«154196_j84232898609317_1_alg».proof.Proof.Gemm0c
import proofs.«154196_j84232898609317_1_alg».proof.Proof.LibBlockedSum

/-!
  The three arrays the matrix-product-with-statistics region leaves, for any contents the region finds.

  After grid point n the product buffer holds rows 2000·n … 2000·n + 1999 of the whole product array h = lin(…), and the
  two one-row buffers hold Σ_{s ≤ n} Σ_{p < 2000} h(2000·s + p, j) and the same sum of h·h: the first point starts them
  from the zero row it stores, every later point adds its block's column sums to what the buffer held (induction on the
  point). The product buffer is written back at every point, block n to rows 2000·n …, and the 25 blocks tile the 50000
  rows; the one-row buffers are written back once, after the last point, and 25 runs of 2000 rows are all the rows.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Gemm0

open Cert.KernelIdeal Cert.KernelIdeal.Gen

variable (V : (c : Dev nD) → (b : Ref sig .tc) → Buf (Elt Ideal) ((c : Thread nD τ).loc b)) (c : Dev nD)

/-- The first point leaves the product block and the two rows started from the zero rows. -/
theorem outs_A (t : Fin cfg0.N) (h0 : t.val % 25 = 0) :
    outsAt0 V c t.val t.isLt
      = (k0_pay4 (F := Ideal) (iblk0 V c 0 t) (iblk0 V c 1 t) (iblk0 V c 2 t) (iblk0 V c 3 t) (iblk0 V c 4 t),
         k0_pay5 (F := Ideal) (iblk0 V c 0 t) (iblk0 V c 1 t) (iblk0 V c 2 t) (iblk0 V c 3 t) (iblk0 V c 4 t) (k0_pay2 (F := Ideal)),
         k0_pay1 (F := Ideal) (k0_pay6 (k0_pay3 (F := Ideal))) (k0_pay7 (iblk0 V c 0 t) (iblk0 V c 1 t) (iblk0 V c 2 t) (iblk0 V c 3 t) (iblk0 V c 4 t))) :=
  (outsAt0_A V c t h0).trans
    (congrArg₂ Prod.mk (outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
      (congrArg₂ Prod.mk (outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
        (outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))))

/-- A later point leaves the product block and the two rows continued from what the point before left. -/
theorem outs_B (t : Fin cfg0.N) (h0 : ¬t.val % 25 = 0) :
    outsAt0 V c t.val t.isLt
      = (k0_pay4 (F := Ideal) (iblk0 V c 0 t) (iblk0 V c 1 t) (iblk0 V c 2 t) (iblk0 V c 3 t) (iblk0 V c 4 t),
         k0_pay5 (F := Ideal) (iblk0 V c 0 t) (iblk0 V c 1 t) (iblk0 V c 2 t) (iblk0 V c 3 t) (iblk0 V c 4 t) (outsAt0 V c (t.val - 1) (Nat.lt_of_le_of_lt (Nat.sub_le _ _) t.isLt)).2.1,
         k0_pay1 (F := Ideal) (k0_pay6 (outsAt0 V c (t.val - 1) (Nat.lt_of_le_of_lt (Nat.sub_le _ _) t.isLt)).2.2) (k0_pay7 (iblk0 V c 0 t) (iblk0 V c 1 t) (iblk0 V c 2 t) (iblk0 V c 3 t) (iblk0 V c 4 t))) :=
  (outsAt0_B V c t h0).trans
    (congrArg₂ Prod.mk (outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
      (congrArg₂ Prod.mk (outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
        (outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)))

/-- Column j summed over one run of 2000 rows. -/
abbrev run1 (s : ℕ) (j : Fin 128) : EReal := ∑ p : Fin 2000, hN V c (2000 * s + p.val) j
/-- Column j's squares summed over one run of 2000 rows. -/
abbrev run2 (s : ℕ) (j : Fin 128) : EReal := ∑ p : Fin 2000, hN V c (2000 * s + p.val) j * hN V c (2000 * s + p.val) j

/-- After every point the product buffer holds that point's product block. -/
theorem block_eq (t : Fin cfg0.N) : (outsAt0 V c t.val t.isLt).1 = blkP V c t := by
  by_cases h0 : t.val % 25 = 0
  · rw [outs_A V c t h0]
  · rw [outs_B V c t h0]

/-- After point n the two one-row buffers hold the column sums, resp. the column sums of squares, of the first n + 1
    runs of 2000 rows. -/
theorem rows_eq : ∀ (n : ℕ) (t : Fin cfg0.N), t.val = n →
    (∀ (u : Fin 1) (j : Fin 128), (outsAt0 V c t.val t.isLt).2.1 (ix2 u j) = ∑ s ∈ Finset.range (t.val + 1), run1 V c s j)
    ∧ (∀ (u : Fin 1) (j : Fin 128), (outsAt0 V c t.val t.isLt).2.2 (ix2 u j) = ∑ s ∈ Finset.range (t.val + 1), run2 V c s j)
  | 0, t, ht => by
    have h0 : t.val % 25 = 0 := by omega
    rw [outs_A V c t h0]
    refine ⟨fun u j => ?_, fun u j => ?_⟩
    · refine (pay5_apply (iblk0 V c 0 t) (iblk0 V c 1 t) (iblk0 V c 2 t) (iblk0 V c 3 t) (iblk0 V c 4 t) (k0_pay2 (F := Ideal)) u j).trans ?_
      rw [pay2_apply, zero_add, ht, Finset.sum_range_one]
      exact Finset.sum_congr rfl fun p _ => (blkP_hN V c t p j).trans (by rw [ht])
    · refine (pay17_apply (iblk0 V c 0 t) (iblk0 V c 1 t) (iblk0 V c 2 t) (iblk0 V c 3 t) (iblk0 V c 4 t) (k0_pay3 (F := Ideal)) u j).trans ?_
      rw [pay3_apply, zero_add, ht, Finset.sum_range_one]
      exact Finset.sum_congr rfl fun p _ => (congrArg₂ (· * ·) (blkP_hN V c t p j) (blkP_hN V c t p j)).trans (by rw [ht])
  | n + 1, t, ht => by
    have hN25 : cfg0.N = 25 := N_0
    have hB : ¬t.val % 25 = 0 := by have := t.isLt; omega
    have hlt : t.val - 1 < cfg0.N := Nat.lt_of_le_of_lt (Nat.sub_le _ _) t.isLt
    obtain ⟨ih1, ih2⟩ := rows_eq n ⟨t.val - 1, hlt⟩ (by show t.val - 1 = n; omega)
    have hs : t.val - 1 + 1 = t.val := by omega
    rw [outs_B V c t hB]
    refine ⟨fun u j => ?_, fun u j => ?_⟩
    · refine (pay5_apply (iblk0 V c 0 t) (iblk0 V c 1 t) (iblk0 V c 2 t) (iblk0 V c 3 t) (iblk0 V c 4 t) (outsAt0 V c (t.val - 1) (Nat.lt_of_le_of_lt (Nat.sub_le _ _) t.isLt)).2.1 u j).trans ?_
      refine (congrArg₂ (· + ·) (ih1 u j) (Finset.sum_congr rfl fun p _ => blkP_hN V c t p j)).trans ?_
      show (∑ s ∈ Finset.range (t.val - 1 + 1), run1 V c s j) + run1 V c t.val j = _
      rw [hs]
      exact (Finset.sum_range_succ (fun s => run1 V c s j) t.val).symm
    · refine (pay17_apply (iblk0 V c 0 t) (iblk0 V c 1 t) (iblk0 V c 2 t) (iblk0 V c 3 t) (iblk0 V c 4 t) (outsAt0 V c (t.val - 1) (Nat.lt_of_le_of_lt (Nat.sub_le _ _) t.isLt)).2.2 u j).trans ?_
      refine (congrArg₂ (· + ·) (ih2 u j) (Finset.sum_congr rfl fun p _ =>
        congrArg₂ (· * ·) (blkP_hN V c t p j) (blkP_hN V c t p j))).trans ?_
      show (∑ s ∈ Finset.range (t.val - 1 + 1), run2 V c s j) + run2 V c t.val j = _
      rw [hs]
      exact (Finset.sum_range_succ (fun s => run2 V c s j) t.val).symm

end Cert.KernelIdeal.Gemm0

end
-- ==== Proof.Gemm0.lean ====
import proofs.«154196_j84232898609317_1_alg».proof.Proof.Gemm0d

/-!
  From the buffers to the arrays: the product buffer is written back at every point, block t to rows 2000·t … 2000·t + 1999,
  and the 25 blocks tile the 50000 rows (the point covering row r is r / 2000); each one-row buffer is written back once,
  after the last point, when it holds the sums over all 25 runs of 2000 rows — which are the sums over all 50000 rows.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Gemm0

open Cert.KernelIdeal Cert.KernelIdeal.Gen

variable (V : (c : Dev nD) → (b : Ref sig .tc) → Buf (Elt Ideal) ((c : Thread nD τ).loc b)) (c : Dev nD)

/-- A one-row array agrees with another at an index once it does at every pair of coordinates. -/
theorem row_at (X : Vec Ideal S1x128 .f32) (G : FVec Ideal Cert.Sage.S1H .f32)
    (h : ∀ (u : Fin 1) (j : Fin 128), X (ix2 u j) = G (ix2 u j)) (y : S1x128.Idx) (i : Cert.Sage.S1H.Idx)
    (h0 : (i 0).val = (y 0).val) (h1 : (i 1).val = (y 1).val) : X y = G i := by
  have hy : y = ix2 (⟨(y 0).val, idx2_lt0 y⟩ : Fin 1) (⟨(y 1).val, idx2_lt1 y⟩ : Fin 128) :=
    funext fun a => by match a with | ⟨0, _⟩ => rfl | ⟨1, _⟩ => rfl
  have hi : i = ix2 (⟨(y 0).val, idx2_lt0 y⟩ : Fin 1) (⟨(y 1).val, idx2_lt1 y⟩ : Fin 128) :=
    funext fun a => Fin.ext (by match a with | ⟨0, _⟩ => exact h0 | ⟨1, _⟩ => exact h1)
  exact (congrArg X hy).trans ((h _ _).trans (congrArg G hi).symm)

/-- Twenty-five runs of 2000 rows are all 50000 rows. -/
theorem sum_runs (g : ℕ → EReal) :
    ∑ s ∈ Finset.range 25, ∑ p : Fin 2000, g (2000 * s + p.val) = ∑ r : Fin 50000, g r.val :=
  (BlockedSum.sum_fin_blocks 25 2000 g).symm

theorem run1_all (j : Fin 128) : ∑ s ∈ Finset.range (24 + 1), run1 V c s j = ∑ r : Fin 50000, hlin V c (ix2 r j) :=
  (sum_runs (fun r => hN V c r j)).trans (Finset.sum_congr rfl fun r _ => by unfold hN; rw [dif_pos r.isLt])

theorem run2_all (j : Fin 128) :
    ∑ s ∈ Finset.range (24 + 1), run2 V c s j = ∑ r : Fin 50000, hlin V c (ix2 r j) * hlin V c (ix2 r j) :=
  (sum_runs (fun r => hN V c r j * hN V c r j)).trans (Finset.sum_congr rfl fun r _ => by unfold hN; rw [dif_pos r.isLt])

/-! ## The product array -/

/-- Point t writes back rows 2000·t … of the whole product array. -/
theorem flushed5_eq (t : Fin cfg0.N) :
    (dat0 V c).flushed 5 t = ((cfg0.win 5).blk t).view.read (Elt Ideal) (hlin V c) := by
  have hN25 : cfg0.N = 25 := N_0
  obtain ⟨-, -, -, -, e0, e1⟩ := idx_rows t
  show (cfg0.win 5).cut (grid0.coords t) ((dat0 V c).after 5 t) = _
  rw [after0_5, block_eq V c t]
  funext y
  rw [View.read_apply]
  have hy0 : (y 0).val < 2000 := (y 0).isLt
  have hy1 : (y 1).val < 128 := (y 1).isLt
  have hlt : 2000 * t.val + (y 0).val < 50000 := by have := t.isLt; omega
  refine (blkP_idx V c t y ⟨2000 * t.val + (y 0).val, hlt⟩ ⟨(y 1).val, hy1⟩ rfl rfl).trans
    (congrArg (hlin V c) (funext fun a => Fin.ext ?_))
  match a with
  | ⟨0, _⟩ =>
    show 2000 * t.val + (y 0).val = win0_5.index t 0 * 2000 + 1 * (y 0).val
    rw [e0]; omega
  | ⟨1, _⟩ =>
    show (y 1).val = win0_5.index t 1 * 128 + 1 * (y 1).val
    rw [e1]; omega

/-- An index of the array is in point t's block iff each coordinate is in the block's range on its axis. -/
theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v34_0).slice (win0_5.rect t)).set ↔ _
  rw [View.set_slice_whole, Rect.mem_set_unit]
  exact Iff.rfl

/-- The array ends holding the whole product array: row r is covered by point r / 2000. -/
theorem final5h : (dat0 V c).arrAt 5 cfg0.N = hlin V c :=
  (dat0 V c).arrAt_eq_of_cover 5 (hlin V c) (fun t _ => flushed5_eq V c t) fun i => by
    have hN25 : cfg0.N = 25 := N_0
    have hi0 : (i 0).val < 50000 := (i 0).isLt
    have hi1 : (i 1).val < 128 := (i 1).isLt
    obtain ⟨-, -, -, -, e0, e1⟩ := idx_rows (⟨(i 0).val / 2000, by omega⟩ : Fin cfg0.N)
    refine ⟨⟨(i 0).val / 2000, by omega⟩, flush0_5 _, ?_⟩
    rw [mem_blk5]
    intro a
    match a with
    | ⟨0, _⟩ =>
      show win0_5.index _ 0 * 2000 ≤ (i 0).val ∧ (i 0).val < win0_5.index _ 0 * 2000 + 2000
      rw [e0]
      show (i 0).val / 2000 * 2000 ≤ (i 0).val ∧ (i 0).val < (i 0).val / 2000 * 2000 + 2000
      omega
    | ⟨1, _⟩ =>
      show win0_5.index _ 1 * 128 ≤ (i 1).val ∧ (i 1).val < win0_5.index _ 1 * 128 + 128
      rw [e1]; omega

/-! ## The row of column sums -/

/-- An index of the one-row array is in the one block's rectangle iff each coordinate is in range. -/
theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v34_1).slice (win0_6.rect t)).set ↔ _
  rw [View.set_slice_whole, Rect.mem_set_unit]
  exact Iff.rfl

/-- A write-back of this row writes any row the buffer agrees with entry by entry: the one block is the whole row. -/
theorem flushed6_of (G : FVec Ideal Cert.Sage.S1H .f32) (t : Fin cfg0.N)
    (hG : ∀ (u : Fin 1) (j : Fin 128), (outsAt0 V c t.val t.isLt).2.1 (ix2 u j) = G (ix2 u j)) :
    (dat0 V c).flushed 6 t = ((cfg0.win 6).blk t).view.read (Elt Ideal) G := by
  obtain ⟨-, -, -, -, -, -, e0, e1, -⟩ := idx_whole t
  show (cfg0.win 6).cut (grid0.coords t) ((dat0 V c).after 6 t) = _
  rw [after0_6]
  funext y
  rw [View.read_apply]
  refine row_at (outsAt0 V c t.val t.isLt).2.1 G hG y (((cfg0.win 6).blk t).view.emb y) ?_ ?_
  · show win0_6.index t 0 * 1 + 1 * (y 0).val = (y 0).val
    rw [e0]; omega
  · show win0_6.index t 1 * 128 + 1 * (y 1).val = (y 1).val
    rw [e1]; omega

/-- The one write-back of this row, after the last point, writes the whole-array sums. -/
theorem flushed6_eq (t : Fin cfg0.N) (hf : (cfg0.win 6).flush t = true) :
    (dat0 V c).flushed 6 t = ((cfg0.win 6).blk t).view.read (Elt Ideal) (Cert.Sage.colSum (hlin V c)) := by
  have hN25 : cfg0.N = 25 := N_0
  have h24 : t.val = 24 := by have := (flush0_6 t).mp hf; have := t.isLt; omega
  refine flushed6_of V c (Cert.Sage.colSum (hlin V c)) t fun u j => ?_
  refine ((rows_eq V c 24 t h24).1 u j).trans ?_
  rw [h24, Cert.Sage.colSum_ix2]
  exact run1_all V c j

/-- So the row ends holding them: the last point's one block is the whole row. -/
theorem final6h : (dat0 V c).arrAt 6 cfg0.N = Cert.Sage.colSum (hlin V c) :=
  (dat0 V c).arrAt_eq_of_cover 6 (Cert.Sage.colSum (hlin V c)) (flushed6_eq V c) fun i => by
    have hN25 : cfg0.N = 25 := N_0
    have hi0 : (i 0).val < 1 := (i 0).isLt
    have hi1 : (i 1).val < 128 := (i 1).isLt
    obtain ⟨-, -, -, -, -, -, e0, e1, -⟩ := idx_whole (⟨24, by omega⟩ : Fin cfg0.N)
    refine ⟨⟨24, by omega⟩, (flush0_6 _).mpr rfl, ?_⟩
    rw [mem_blk6]
    intro a
    match a with
    | ⟨0, _⟩ =>
      show win0_6.index _ 0 * 1 ≤ (i 0).val ∧ (i 0).val < win0_6.index _ 0 * 1 + 1
      rw [e0]; omega
    | ⟨1, _⟩ =>
      show win0_6.index _ 1 * 128 ≤ (i 1).val ∧ (i 1).val < win0_6.index _ 1 * 128 + 128
      rw [e1]; omega

/-! ## The row of column sums of squares -/

/-- An index of the one-row array is in the one block's rectangle iff each coordinate is in range. -/
theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v34_2).slice (win0_7.rect t)).set ↔ _
  rw [View.set_slice_whole, Rect.mem_set_unit]
  exact Iff.rfl

/-- A write-back of this row writes any row the buffer agrees with entry by entry: the one block is the whole row. -/
theorem flushed7_of (G : FVec Ideal Cert.Sage.S1H .f32) (t : Fin cfg0.N)
    (hG : ∀ (u : Fin 1) (j : Fin 128), (outsAt0 V c t.val t.isLt).2.2 (ix2 u j) = G (ix2 u j)) :
    (dat0 V c).flushed 7 t = ((cfg0.win 7).blk t).view.read (Elt Ideal) G := by
  obtain ⟨-, -, -, -, -, -, -, -, e0, e1⟩ := idx_whole t
  show (cfg0.win 7).cut (grid0.coords t) ((dat0 V c).after 7 t) = _
  rw [after0_7]
  funext y
  rw [View.read_apply]
  refine row_at (outsAt0 V c t.val t.isLt).2.2 G hG y (((cfg0.win 7).blk t).view.emb y) ?_ ?_
  · show win0_7.index t 0 * 1 + 1 * (y 0).val = (y 0).val
    rw [e0]; omega
  · show win0_7.index t 1 * 128 + 1 * (y 1).val = (y 1).val
    rw [e1]; omega

/-- The one write-back of this row, after the last point, writes the whole-array sums. -/
theorem flushed7_eq (t : Fin cfg0.N) (hf : (cfg0.win 7).flush t = true) :
    (dat0 V c).flushed 7 t = ((cfg0.win 7).blk t).view.read (Elt Ideal) (Cert.Sage.colSumSq (hlin V c)) := by
  have hN25 : cfg0.N = 25 := N_0
  have h24 : t.val = 24 := by have := (flush0_7 t).mp hf; have := t.isLt; omega
  refine flushed7_of V c (Cert.Sage.colSumSq (hlin V c)) t fun u j => ?_
  refine ((rows_eq V c 24 t h24).2 u j).trans ?_
  rw [h24, Cert.Sage.colSumSq_ix2]
  exact run2_all V c j

/-- So the row ends holding them: the last point's one block is the whole row. -/
theorem final7h : (dat0 V c).arrAt 7 cfg0.N = Cert.Sage.colSumSq (hlin V c) :=
  (dat0 V c).arrAt_eq_of_cover 7 (Cert.Sage.colSumSq (hlin V c)) (flushed7_eq V c) fun i => by
    have hN25 : cfg0.N = 25 := N_0
    have hi0 : (i 0).val < 1 := (i 0).isLt
    have hi1 : (i 1).val < 128 := (i 1).isLt
    obtain ⟨-, -, -, -, -, -, -, -, e0, e1⟩ := idx_whole (⟨24, by omega⟩ : Fin cfg0.N)
    refine ⟨⟨24, by omega⟩, (flush0_7 _).mpr rfl, ?_⟩
    rw [mem_blk7]
    intro a
    match a with
    | ⟨0, _⟩ =>
      show win0_7.index _ 0 * 1 ≤ (i 0).val ∧ (i 0).val < win0_7.index _ 0 * 1 + 1
      rw [e0]; omega
    | ⟨1, _⟩ =>
      show win0_7.index _ 1 * 128 ≤ (i 1).val ∧ (i 1).val < win0_7.index _ 1 * 128 + 128
      rw [e1]; omega

/-! ## The three arrays after the region -/

theorem final5 : (Gen.dat0 (F := Ideal) V c).arrAt 5 cfg0.N
    = Cert.Sage.lin (V c (Pipeline.arrRef spec0 0)) (V c (Pipeline.arrRef spec0 1)) (V c (Pipeline.arrRef spec0 2))
        (V c (Pipeline.arrRef spec0 3)) (V c (Pipeline.arrRef spec0 4)) :=
  final5h V c

theorem final6 : (Gen.dat0 (F := Ideal) V c).arrAt 6 cfg0.N
    = Cert.Sage.colSum (Cert.Sage.lin (V c (Pipeline.arrRef spec0 0)) (V c (Pipeline.arrRef spec0 1))
        (V c (Pipeline.arrRef spec0 2)) (V c (Pipeline.arrRef spec0 3)) (V c (Pipeline.arrRef spec0 4))) :=
  final6h V c

theorem final7 : (Gen.dat0 (F := Ideal) V c).arrAt 7 cfg0.N
    = Cert.Sage.colSumSq (Cert.Sage.lin (V c (Pipeline.arrRef spec0 0)) (V c (Pipeline.arrRef spec0 1))
        (V c (Pipeline.arrRef spec0 2)) (V c (Pipeline.arrRef spec0 3)) (V c (Pipeline.arrRef spec0 4))) :=
  final7h V c

end Cert.KernelIdeal.Gemm0

end
-- ==== Proof.Gemm2a.lean ====
import proofs.«154196_j84232898609317_1_alg».proof.Proof.Gen.KernelIdeal.Frame
import Idealize.ShloMosaic.Lib.Pipeline.Value
import Idealize.ShloMosaic.Lib.Tactic

/-!
  What one grid point of the matrix-product-with-statistics body leaves in its three output buffers, as the body's
  arithmetic applied to the blocks it loaded: the block of products, and the two running rows — at the first point
  started from the zero row the body has just stored, at every later point from what the buffer held.
-/

noncomputable section

open Idealize.ShloMosaic Idealize.ShloMosaic.TcCoe Idealize.SL.Sem

namespace Cert.KernelIdeal.Gemm2

open Cert.KernelIdeal Cert.KernelIdeal.Gen

variable {F : FTy → Type} [FloatOps F]

theorem hz : (![0, 0] : Fin 2 → Nat) = fun _ => 0 := funext fun a => by fin_cases a <;> rfl

/-- First point: the product block is the body's product term of the five loaded blocks. -/
theorem outA5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S2000x128 .f32) (x1 : Vec F S2000x128 .f32) (x2 : Vec F S128x128 .f32) (x3 : Vec F S128x128 .f32) (x4 : Vec F S1x128 .f32) :
    out2_A_5 c i arg1 harg1 arg2 harg2 arg3 harg3 arg4 harg4 arg5 harg5 arg6 harg6 arg7 harg7 arg8 harg8 hc0 x0 x1 x2 x3 x4 = k2_pay4 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point: the row of column sums is the block's column sums added to the zero row just stored. -/
theorem outA6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S2000x128 .f32) (x1 : Vec F S2000x128 .f32) (x2 : Vec F S128x128 .f32) (x3 : Vec F S128x128 .f32) (x4 : Vec F S1x128 .f32) :
    out2_A_6 c i arg1 harg1 arg2 harg2 arg3 harg3 arg4 harg4 arg5 harg5 arg6 harg6 arg7 harg7 arg8 harg8 hc0 x0 x1 x2 x3 x4 = k2_pay5 x0 x1 x2 x3 x4 (k2_pay2 (F := F)) := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point: the row of column sums of squares, likewise from the zero row. -/
theorem outA7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S2000x128 .f32) (x1 : Vec F S2000x128 .f32) (x2 : Vec F S128x128 .f32) (x3 : Vec F S128x128 .f32) (x4 : Vec F S1x128 .f32) :
    out2_A_7 c i arg1 harg1 arg2 harg2 arg3 harg3 arg4 harg4 arg5 harg5 arg6 harg6 arg7 harg7 arg8 harg8 hc0 x0 x1 x2 x3 x4 = k2_pay1 (k2_pay6 (k2_pay3 (F := F))) (k2_pay7 x0 x1 x2 x3 x4) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the product block, the same term. -/
theorem outB5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out2_B_5 c i arg1 harg1 arg2 harg2 arg3 harg3 arg4 harg4 arg5 harg5 arg6 harg6 arg7 harg7 arg8 harg8 hc0 x0 x1 x2 x3 x4 xo6 xo7 = k2_pay4 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the block's column sums added to the row the buffer held. -/
theorem outB6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out2_B_6 c i arg1 harg1 arg2 harg2 arg3 harg3 arg4 harg4 arg5 harg5 arg6 harg6 arg7 harg7 arg8 harg8 hc0 x0 x1 x2 x3 x4 xo6 xo7 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the block's column sums of squares added to the row the buffer held. -/
theorem outB7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out2_B_7 c i arg1 harg1 arg2 harg2 arg3 harg3 arg4 harg4 arg5 harg5 arg6 harg6 arg7 harg7 arg8 harg8 hc0 x0 x1 x2 x3 x4 xo6 xo7 = k2_pay1 (k2_pay6 xo7) (k2_pay7 x0 x1 x2 x3 x4) := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

end Cert.KernelIdeal.Gemm2

end
-- ==== Proof.Gemm2b.lean ====
import proofs.«154196_j84232898609317_1_alg».proof.Proof.Gen.KernelIdeal.Skeleton
import proofs.«154196_j84232898609317_1_alg».proof.Proof.LibPlainDot
import proofs.«154196_j84232898609317_1_alg».proof.Proof.LibRowColumn
import Idealize.ShloMosaic.Lib.ValueLayout
import Idealize.ShloMosaic.Lib.Pipeline.Value

/-!
  The body's arithmetic read entry by entry on the extended reals, for a block of 2000 rows:
  the product block's entry (p, j) is (Σ_k a(p,k)·wl(k,j) + b(0,j)) + Σ_k x(p,k)·wr(k,j); the new row of column sums is the
  old row plus the sum over p of the block's column j; the new row of sums of squares is the old row plus the sum over p
  of the squared entries. A format change is the identity on extended reals and a matrix product into a zero accumulator
  is the plain finite sum.
-/

noncomputable section

open scoped BigOperators
open Idealize.ShloMosaic Idealize.ShloMosaic.ValueIdx

namespace Cert.KernelIdeal.Gemm2

open Cert.KernelIdeal Cert.KernelIdeal.Gen

/-- The sum down column `c` of an `[a, b]` matrix, as the body's reduction over the rows from the zero word computes it. -/
theorem colReduce_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (c : Fin b) :
    multiReduction .add [0] ⟨1, ![b]⟩ src 0x00000000#32 h hφ hacc (ix1 c) = ∑ k : Fin a, src (ix2 k c) :=
  (Ideal.multiReduction_add_single src 0x00000000#32 h hφ hacc (ix1 c)).trans
    (Finset.sum_congr rfl fun k _ => congrArg src (RowColumn.lift_rows h c k))

/-- Entry (p, j) of the product block. -/
theorem pay4_apply (v3 v6 : Vec Ideal S2000x128 .f32) (v8 v11 : Vec Ideal S128x128 .f32) (v15 : Vec Ideal S1x128 .f32)
    (p : Fin 2000) (j : Fin 128) :
    k2_pay4 (F := Ideal) v3 v6 v8 v11 v15 (ix2 p j)
      = ((∑ k : Fin 128, v3 (ix2 p k) * v8 (ix2 k j)) + v15 (ix2 (0 : Fin 1) j)) + ∑ k : Fin 128, v6 (ix2 p k) * v11 (ix2 k j) := by
  unfold k2_pay4
  simp only [shapeCast_self]
  refine congrArg₂ (· + ·) (congrArg₂ (· + ·) ?_ ?_) ?_
  · exact PlainDot.matmul_apply_ix2 (M := 2000) (K := 128) (N := 128) none _ _ p j
  · exact broadcastTo_1b_ab_apply v15 broadcasts_S1x128_S2000x128 p j
  · exact PlainDot.matmul_apply_ix2 (M := 2000) (K := 128) (N := 128) none _ _ p j

/-- Entry (u, j) of the new row of column sums: the old row's entry plus the block's column j summed. -/
theorem pay5_apply (v3 v6 : Vec Ideal S2000x128 .f32) (v8 v11 : Vec Ideal S128x128 .f32) (v15 v22 : Vec Ideal S1x128 .f32)
    (u : Fin 1) (j : Fin 128) :
    k2_pay5 (F := Ideal) v3 v6 v8 v11 v15 v22 (ix2 u j)
      = v22 (ix2 u j) + ∑ p : Fin 2000, k2_pay4 (F := Ideal) v3 v6 v8 v11 v15 (ix2 p j) := by
  unfold k2_pay5
  simp only [shapeCast_self]
  refine congrArg₂ (· + ·) rfl ?_
  refine (shapeCast_a_1a_apply _ shapeCasts_S128_S1x128 u j).trans ?_
  exact colReduce_apply (a := 2000) (b := 128) _ reduces_S2000x128_S128 (.inl rfl) rfl j

/-- Entry (u, j) of the new row of column sums of squares. -/
theorem pay17_apply (v3 v6 : Vec Ideal S2000x128 .f32) (v8 v11 : Vec Ideal S128x128 .f32) (v15 v28 : Vec Ideal S1x128 .f32)
    (u : Fin 1) (j : Fin 128) :
    k2_pay1 (F := Ideal) (k2_pay6 v28) (k2_pay7 v3 v6 v8 v11 v15) (ix2 u j)
      = v28 (ix2 u j) + ∑ p : Fin 2000, k2_pay4 (F := Ideal) v3 v6 v8 v11 v15 (ix2 p j) * k2_pay4 (F := Ideal) v3 v6 v8 v11 v15 (ix2 p j) := by
  unfold k2_pay1 k2_pay6 k2_pay7
  simp only [shapeCast_self]
  refine congrArg₂ (· + ·) rfl ?_
  refine (shapeCast_a_1a_apply _ shapeCasts_S128_S1x128 u j).trans ?_
  exact colReduce_apply (a := 2000) (b := 128) _ reduces_S2000x128_S128 (.inl rfl) rfl j

/-- The zero rows the first point stores are zero. -/
theorem pay2_apply (i : S1x128.Idx) : k2_pay2 (F := Ideal) i = 0 := Ideal.ofBits_zero_f32
theorem pay3_apply (i : S1x128.Idx) : k2_pay3 (F := Ideal) i = 0 := Ideal.ofBits_zero_f32

end Cert.KernelIdeal.Gemm2

end
-- ==== Proof.Gemm2c.lean ====
import proofs.«154196_j84232898609317_1_alg».proof.Proof.Gen.KernelIdeal.Frame
import proofs.«154196_j84232898609317_1_alg».proof.Proof.Spec
import proofs.«154196_j84232898609317_1_alg».proof.Proof.Gemm2b
import Idealize.ShloMosaic.Lib.Pipeline.Value
import Idealize.ShloMosaic.Lib.ValueIdx

/-!
  The blocks one grid point reads, as entries of the arrays the region finds: the two row-blocked operands' block t holds
  rows 2000·t … 2000·t + 1999 (a block coordinate is block index × block size + the coordinate inside), the two weight
  matrices and the bias row are read whole. Hence the product block at point t is rows 2000·t … of the whole product
  array `lin` of the five arrays.
-/

noncomputable section

open scoped BigOperators
open Idealize.ShloMosaic Idealize.ShloMosaic.TcCoe Idealize.SL.Sem Idealize.ShloMosaic.ValueIdx

namespace Cert.KernelIdeal.Gemm2

open Cert.KernelIdeal Cert.KernelIdeal.Gen

variable (V : (c : Dev nD) → (b : Ref sig .tc) → Buf (Elt Ideal) ((c : Thread nD τ).loc b)) (c : Dev nD)

/-- The row-blocked windows (the two operands and the product) sit at block row t, block column 0. -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0 :=
  (by decide +kernel : ∀ t : Fin grid2.N, _)

/-- The whole-array windows never move. -/
theorem idx_whole : ∀ t : Fin cfg2.N, win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem iblk_0_apply (t : Fin cfg2.N) (p : Fin 2000) (k : Fin 128) (r : Fin 50000) (hr : r.val = 2000 * t.val + p.val) :
    (iblk2 V c 0 t : Vec Ideal S2000x128 .f32) (ix2 p k) = (V c (Pipeline.arrRef spec2 0) : FVec Ideal Cert.Sage.SNH .f32) (ix2 r k) := by
  obtain ⟨e0, e1, -⟩ := idx_rows t
  unfold iblk2
  rw [View.read_apply]
  refine congrArg (V c (Pipeline.arrRef spec2 0)) (funext fun a => Fin.ext ?_)
  match a with
  | ⟨0, _⟩ => show win2_0.index t 0 * 2000 + 1 * p.val = r.val; rw [e0, hr]; omega
  | ⟨1, _⟩ => show win2_0.index t 1 * 128 + 1 * k.val = k.val; rw [e1]; omega

theorem iblk_1_apply (t : Fin cfg2.N) (p : Fin 2000) (k : Fin 128) (r : Fin 50000) (hr : r.val = 2000 * t.val + p.val) :
    (iblk2 V c 1 t : Vec Ideal S2000x128 .f32) (ix2 p k) = (V c (Pipeline.arrRef spec2 1) : FVec Ideal Cert.Sage.SNH .f32) (ix2 r k) := by
  obtain ⟨-, -, e0, e1, -⟩ := idx_rows t
  unfold iblk2
  rw [View.read_apply]
  refine congrArg (V c (Pipeline.arrRef spec2 1)) (funext fun a => Fin.ext ?_)
  match a with
  | ⟨0, _⟩ => show win2_1.index t 0 * 2000 + 1 * p.val = r.val; rw [e0, hr]; omega
  | ⟨1, _⟩ => show win2_1.index t 1 * 128 + 1 * k.val = k.val; rw [e1]; omega

theorem iblk_2_apply (t : Fin cfg2.N) (k j : Fin 128) :
    (iblk2 V c 2 t : Vec Ideal S128x128 .f32) (ix2 k j) = (V c (Pipeline.arrRef spec2 2) : FVec Ideal Cert.Sage.SHH .f32) (ix2 k j) := by
  obtain ⟨e0, e1, -⟩ := idx_whole t
  unfold iblk2
  rw [View.read_apply]
  refine congrArg (V c (Pipeline.arrRef spec2 2)) (funext fun a => Fin.ext ?_)
  match a with
  | ⟨0, _⟩ => show win2_2.index t 0 * 128 + 1 * k.val = k.val; rw [e0]; omega
  | ⟨1, _⟩ => show win2_2.index t 1 * 128 + 1 * j.val = j.val; rw [e1]; omega

theorem iblk_3_apply (t : Fin cfg2.N) (k j : Fin 128) :
    (iblk2 V c 3 t : Vec Ideal S128x128 .f32) (ix2 k j) = (V c (Pipeline.arrRef spec2 3) : FVec Ideal Cert.Sage.SHH .f32) (ix2 k j) := by
  obtain ⟨-, -, e0, e1, -⟩ := idx_whole t
  unfold iblk2
  rw [View.read_apply]
  refine congrArg (V c (Pipeline.arrRef spec2 3)) (funext fun a => Fin.ext ?_)
  match a with
  | ⟨0, _⟩ => show win2_3.index t 0 * 128 + 1 * k.val = k.val; rw [e0]; omega
  | ⟨1, _⟩ => show win2_3.index t 1 * 128 + 1 * j.val = j.val; rw [e1]; omega

theorem iblk_4_apply (t : Fin cfg2.N) (u : Fin 1) (j : Fin 128) :
    (iblk2 V c 4 t : Vec Ideal S1x128 .f32) (ix2 u j) = (V c (Pipeline.arrRef spec2 4) : FVec Ideal Cert.Sage.S1H .f32) (ix2 u j) := by
  obtain ⟨-, -, -, -, e0, e1, -⟩ := idx_whole t
  unfold iblk2
  rw [View.read_apply]
  refine congrArg (V c (Pipeline.arrRef spec2 4)) (funext fun a => Fin.ext ?_)
  match a with
  | ⟨0, _⟩ => show win2_4.index t 0 * 1 + 1 * u.val = u.val; rw [e0]; omega
  | ⟨1, _⟩ => show win2_4.index t 1 * 128 + 1 * j.val = j.val; rw [e1]; omega

/-- The whole product array of the five arrays the region finds. -/
def hlin : FVec Ideal Cert.Sage.SNH .f32 :=
  Cert.Sage.lin (V c (Pipeline.arrRef spec2 0)) (V c (Pipeline.arrRef spec2 1)) (V c (Pipeline.arrRef spec2 2))
    (V c (Pipeline.arrRef spec2 3)) (V c (Pipeline.arrRef spec2 4))

/-- The product block the body computes at point t. -/
abbrev blkP (t : Fin cfg2.N) : FVec Ideal S2000x128 .f32 :=
  k2_pay4 (F := Ideal) (iblk2 V c 0 t) (iblk2 V c 1 t) (iblk2 V c 2 t) (iblk2 V c 3 t) (iblk2 V c 4 t)

/-- Its entry (p, j) is entry (2000·t + p, j) of the whole product array. -/
theorem blkP_apply (t : Fin cfg2.N) (p : Fin 2000) (j : Fin 128) (r : Fin 50000) (hr : r.val = 2000 * t.val + p.val) :
    blkP V c t (ix2 p j) = hlin V c (ix2 r j) := by
  refine (pay4_apply (iblk2 V c 0 t) (iblk2 V c 1 t) (iblk2 V c 2 t) (iblk2 V c 3 t) (iblk2 V c 4 t) p j).trans ?_
  unfold hlin
  rw [Cert.Sage.lin_ix2]
  unfold Cert.Sage.linAt
  exact congrArg₂ (· + ·)
    (congrArg₂ (· + ·)
      (Finset.sum_congr rfl fun k _ => congrArg₂ (· * ·) (iblk_0_apply V c t p k r hr) (iblk_2_apply V c t k j))
      (iblk_4_apply V c t 0 j))
    (Finset.sum_congr rfl fun k _ => congrArg₂ (· * ·) (iblk_1_apply V c t p k r hr) (iblk_3_apply V c t k j))

/-- The same at any index of the block. -/
theorem blkP_idx (t : Fin cfg2.N) (y : S2000x128.Idx) (r : Fin 50000) (j : Fin 128)
    (hr : r.val = 2000 * t.val + (y 0).val) (hj : j.val = (y 1).val) : blkP V c t y = hlin V c (ix2 r j) := by
  have hy : y = ix2 (⟨(y 0).val, idx2_lt0 y⟩ : Fin 2000) (⟨(y 1).val, idx2_lt1 y⟩ : Fin 128) :=
    funext fun a => by match a with | ⟨0, _⟩ => rfl | ⟨1, _⟩ => rfl
  obtain rfl : j = ⟨(y 1).val, idx2_lt1 y⟩ := Fin.ext hj
  exact (congrArg (blkP V c t) hy).trans (blkP_apply V c t _ _ r hr)

/-- The whole product array with its row a plain natural number (zero beyond the last row): the form sums over
    runs of rows are written in. -/
def hN (r : ℕ) (j : Fin 128) : EReal := if hr : r < 50000 then hlin V c (ix2 ⟨r, hr⟩ j) else 0

theorem blkP_hN (t : Fin cfg2.N) (p : Fin 2000) (j : Fin 128) : blkP V c t (ix2 p j) = hN V c (2000 * t.val + p.val) j := by
  have hN25 : cfg2.N = 25 := N_2
  have hlt : 2000 * t.val + p.val < 50000 := by have := t.isLt; have := p.isLt; omega
  unfold hN
  rw [dif_pos hlt]
  exact blkP_apply V c t p j ⟨_, hlt⟩ rfl

end Cert.KernelIdeal.Gemm2

end
-- ==== Proof.Gemm2d.lean ====
import proofs.«154196_j84232898609317_1_alg».proof.Proof.Gemm2a
import proofs.«154196_j84232898609317_1_alg».proof.Proof.Gemm2c
import proofs.«154196_j84232898609317_1_alg».proof.Proof.LibBlockedSum

/-!
  The three arrays the matrix-product-with-statistics region leaves, for any contents the region finds.

  After grid point n the product buffer holds rows 2000·n … 2000·n + 1999 of the whole product array h = lin(…), and the
  two one-row buffers hold Σ_{s ≤ n} Σ_{p < 2000} h(2000·s + p, j) and the same sum of h·h: the first point starts them
  from the zero row it stores, every later point adds its block's column sums to what the buffer held (induction on the
  point). The product buffer is written back at every point, block n to rows 2000·n …, and the 25 blocks tile the 50000
  rows; the one-row buffers are written back once, after the last point, and 25 runs of 2000 rows are all the rows.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Gemm2

open Cert.KernelIdeal Cert.KernelIdeal.Gen

variable (V : (c : Dev nD) → (b : Ref sig .tc) → Buf (Elt Ideal) ((c : Thread nD τ).loc b)) (c : Dev nD)

/-- The first point leaves the product block and the two rows started from the zero rows. -/
theorem outs_A (t : Fin cfg2.N) (h0 : t.val % 25 = 0) :
    outsAt2 V c t.val t.isLt
      = (k2_pay4 (F := Ideal) (iblk2 V c 0 t) (iblk2 V c 1 t) (iblk2 V c 2 t) (iblk2 V c 3 t) (iblk2 V c 4 t),
         k2_pay5 (F := Ideal) (iblk2 V c 0 t) (iblk2 V c 1 t) (iblk2 V c 2 t) (iblk2 V c 3 t) (iblk2 V c 4 t) (k2_pay2 (F := Ideal)),
         k2_pay1 (F := Ideal) (k2_pay6 (k2_pay3 (F := Ideal))) (k2_pay7 (iblk2 V c 0 t) (iblk2 V c 1 t) (iblk2 V c 2 t) (iblk2 V c 3 t) (iblk2 V c 4 t))) :=
  (outsAt2_A V c t h0).trans
    (congrArg₂ Prod.mk (outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
      (congrArg₂ Prod.mk (outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
        (outA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))))

/-- A later point leaves the product block and the two rows continued from what the point before left. -/
theorem outs_B (t : Fin cfg2.N) (h0 : ¬t.val % 25 = 0) :
    outsAt2 V c t.val t.isLt
      = (k2_pay4 (F := Ideal) (iblk2 V c 0 t) (iblk2 V c 1 t) (iblk2 V c 2 t) (iblk2 V c 3 t) (iblk2 V c 4 t),
         k2_pay5 (F := Ideal) (iblk2 V c 0 t) (iblk2 V c 1 t) (iblk2 V c 2 t) (iblk2 V c 3 t) (iblk2 V c 4 t) (outsAt2 V c (t.val - 1) (Nat.lt_of_le_of_lt (Nat.sub_le _ _) t.isLt)).2.1,
         k2_pay1 (F := Ideal) (k2_pay6 (outsAt2 V c (t.val - 1) (Nat.lt_of_le_of_lt (Nat.sub_le _ _) t.isLt)).2.2) (k2_pay7 (iblk2 V c 0 t) (iblk2 V c 1 t) (iblk2 V c 2 t) (iblk2 V c 3 t) (iblk2 V c 4 t))) :=
  (outsAt2_B V c t h0).trans
    (congrArg₂ Prod.mk (outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
      (congrArg₂ Prod.mk (outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
        (outB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)))

/-- Column j summed over one run of 2000 rows. -/
abbrev run1 (s : ℕ) (j : Fin 128) : EReal := ∑ p : Fin 2000, hN V c (2000 * s + p.val) j
/-- Column j's squares summed over one run of 2000 rows. -/
abbrev run2 (s : ℕ) (j : Fin 128) : EReal := ∑ p : Fin 2000, hN V c (2000 * s + p.val) j * hN V c (2000 * s + p.val) j

/-- After every point the product buffer holds that point's product block. -/
theorem block_eq (t : Fin cfg2.N) : (outsAt2 V c t.val t.isLt).1 = blkP V c t := by
  by_cases h0 : t.val % 25 = 0
  · rw [outs_A V c t h0]
  · rw [outs_B V c t h0]

/-- After point n the two one-row buffers hold the column sums, resp. the column sums of squares, of the first n + 1
    runs of 2000 rows. -/
theorem rows_eq : ∀ (n : ℕ) (t : Fin cfg2.N), t.val = n →
    (∀ (u : Fin 1) (j : Fin 128), (outsAt2 V c t.val t.isLt).2.1 (ix2 u j) = ∑ s ∈ Finset.range (t.val + 1), run1 V c s j)
    ∧ (∀ (u : Fin 1) (j : Fin 128), (outsAt2 V c t.val t.isLt).2.2 (ix2 u j) = ∑ s ∈ Finset.range (t.val + 1), run2 V c s j)
  | 0, t, ht => by
    have h0 : t.val % 25 = 0 := by omega
    rw [outs_A V c t h0]
    refine ⟨fun u j => ?_, fun u j => ?_⟩
    · refine (pay5_apply (iblk2 V c 0 t) (iblk2 V c 1 t) (iblk2 V c 2 t) (iblk2 V c 3 t) (iblk2 V c 4 t) (k2_pay2 (F := Ideal)) u j).trans ?_
      rw [pay2_apply, zero_add, ht, Finset.sum_range_one]
      exact Finset.sum_congr rfl fun p _ => (blkP_hN V c t p j).trans (by rw [ht])
    · refine (pay17_apply (iblk2 V c 0 t) (iblk2 V c 1 t) (iblk2 V c 2 t) (iblk2 V c 3 t) (iblk2 V c 4 t) (k2_pay3 (F := Ideal)) u j).trans ?_
      rw [pay3_apply, zero_add, ht, Finset.sum_range_one]
      exact Finset.sum_congr rfl fun p _ => (congrArg₂ (· * ·) (blkP_hN V c t p j) (blkP_hN V c t p j)).trans (by rw [ht])
  | n + 1, t, ht => by
    have hN25 : cfg2.N = 25 := N_2
    have hB : ¬t.val % 25 = 0 := by have := t.isLt; omega
    have hlt : t.val - 1 < cfg2.N := Nat.lt_of_le_of_lt (Nat.sub_le _ _) t.isLt
    obtain ⟨ih1, ih2⟩ := rows_eq n ⟨t.val - 1, hlt⟩ (by show t.val - 1 = n; omega)
    have hs : t.val - 1 + 1 = t.val := by omega
    rw [outs_B V c t hB]
    refine ⟨fun u j => ?_, fun u j => ?_⟩
    · refine (pay5_apply (iblk2 V c 0 t) (iblk2 V c 1 t) (iblk2 V c 2 t) (iblk2 V c 3 t) (iblk2 V c 4 t) (outsAt2 V c (t.val - 1) (Nat.lt_of_le_of_lt (Nat.sub_le _ _) t.isLt)).2.1 u j).trans ?_
      refine (congrArg₂ (· + ·) (ih1 u j) (Finset.sum_congr rfl fun p _ => blkP_hN V c t p j)).trans ?_
      show (∑ s ∈ Finset.range (t.val - 1 + 1), run1 V c s j) + run1 V c t.val j = _
      rw [hs]
      exact (Finset.sum_range_succ (fun s => run1 V c s j) t.val).symm
    · refine (pay17_apply (iblk2 V c 0 t) (iblk2 V c 1 t) (iblk2 V c 2 t) (iblk2 V c 3 t) (iblk2 V c 4 t) (outsAt2 V c (t.val - 1) (Nat.lt_of_le_of_lt (Nat.sub_le _ _) t.isLt)).2.2 u j).trans ?_
      refine (congrArg₂ (· + ·) (ih2 u j) (Finset.sum_congr rfl fun p _ =>
        congrArg₂ (· * ·) (blkP_hN V c t p j) (blkP_hN V c t p j))).trans ?_
      show (∑ s ∈ Finset.range (t.val - 1 + 1), run2 V c s j) + run2 V c t.val j = _
      rw [hs]
      exact (Finset.sum_range_succ (fun s => run2 V c s j) t.val).symm

end Cert.KernelIdeal.Gemm2

end
-- ==== Proof.Gemm2.lean ====
import proofs.«154196_j84232898609317_1_alg».proof.Proof.Gemm2d

/-!
  From the buffers to the arrays: the product buffer is written back at every point, block t to rows 2000·t … 2000·t + 1999,
  and the 25 blocks tile the 50000 rows (the point covering row r is r / 2000); each one-row buffer is written back once,
  after the last point, when it holds the sums over all 25 runs of 2000 rows — which are the sums over all 50000 rows.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Gemm2

open Cert.KernelIdeal Cert.KernelIdeal.Gen

variable (V : (c : Dev nD) → (b : Ref sig .tc) → Buf (Elt Ideal) ((c : Thread nD τ).loc b)) (c : Dev nD)

/-- A one-row array agrees with another at an index once it does at every pair of coordinates. -/
theorem row_at (X : Vec Ideal S1x128 .f32) (G : FVec Ideal Cert.Sage.S1H .f32)
    (h : ∀ (u : Fin 1) (j : Fin 128), X (ix2 u j) = G (ix2 u j)) (y : S1x128.Idx) (i : Cert.Sage.S1H.Idx)
    (h0 : (i 0).val = (y 0).val) (h1 : (i 1).val = (y 1).val) : X y = G i := by
  have hy : y = ix2 (⟨(y 0).val, idx2_lt0 y⟩ : Fin 1) (⟨(y 1).val, idx2_lt1 y⟩ : Fin 128) :=
    funext fun a => by match a with | ⟨0, _⟩ => rfl | ⟨1, _⟩ => rfl
  have hi : i = ix2 (⟨(y 0).val, idx2_lt0 y⟩ : Fin 1) (⟨(y 1).val, idx2_lt1 y⟩ : Fin 128) :=
    funext fun a => Fin.ext (by match a with | ⟨0, _⟩ => exact h0 | ⟨1, _⟩ => exact h1)
  exact (congrArg X hy).trans ((h _ _).trans (congrArg G hi).symm)

/-- Twenty-five runs of 2000 rows are all 50000 rows. -/
theorem sum_runs (g : ℕ → EReal) :
    ∑ s ∈ Finset.range 25, ∑ p : Fin 2000, g (2000 * s + p.val) = ∑ r : Fin 50000, g r.val :=
  (BlockedSum.sum_fin_blocks 25 2000 g).symm

theorem run1_all (j : Fin 128) : ∑ s ∈ Finset.range (24 + 1), run1 V c s j = ∑ r : Fin 50000, hlin V c (ix2 r j) :=
  (sum_runs (fun r => hN V c r j)).trans (Finset.sum_congr rfl fun r _ => by unfold hN; rw [dif_pos r.isLt])

theorem run2_all (j : Fin 128) :
    ∑ s ∈ Finset.range (24 + 1), run2 V c s j = ∑ r : Fin 50000, hlin V c (ix2 r j) * hlin V c (ix2 r j) :=
  (sum_runs (fun r => hN V c r j * hN V c r j)).trans (Finset.sum_congr rfl fun r _ => by unfold hN; rw [dif_pos r.isLt])

/-! ## The product array -/

/-- Point t writes back rows 2000·t … of the whole product array. -/
theorem flushed5_eq (t : Fin cfg2.N) :
    (dat2 V c).flushed 5 t = ((cfg2.win 5).blk t).view.read (Elt Ideal) (hlin V c) := by
  have hN25 : cfg2.N = 25 := N_2
  obtain ⟨-, -, -, -, e0, e1⟩ := idx_rows t
  show (cfg2.win 5).cut (grid2.coords t) ((dat2 V c).after 5 t) = _
  rw [after2_5, block_eq V c t]
  funext y
  rw [View.read_apply]
  have hy0 : (y 0).val < 2000 := (y 0).isLt
  have hy1 : (y 1).val < 128 := (y 1).isLt
  have hlt : 2000 * t.val + (y 0).val < 50000 := by have := t.isLt; omega
  refine (blkP_idx V c t y ⟨2000 * t.val + (y 0).val, hlt⟩ ⟨(y 1).val, hy1⟩ rfl rfl).trans
    (congrArg (hlin V c) (funext fun a => Fin.ext ?_))
  match a with
  | ⟨0, _⟩ =>
    show 2000 * t.val + (y 0).val = win2_5.index t 0 * 2000 + 1 * (y 0).val
    rw [e0]; omega
  | ⟨1, _⟩ =>
    show (y 1).val = win2_5.index t 1 * 128 + 1 * (y 1).val
    rw [e1]; omega

/-- An index of the array is in point t's block iff each coordinate is in the block's range on its axis. -/
theorem mem_blk5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v70_0).slice (win2_5.rect t)).set ↔ _
  rw [View.set_slice_whole, Rect.mem_set_unit]
  exact Iff.rfl

/-- The array ends holding the whole product array: row r is covered by point r / 2000. -/
theorem final5h : (dat2 V c).arrAt 5 cfg2.N = hlin V c :=
  (dat2 V c).arrAt_eq_of_cover 5 (hlin V c) (fun t _ => flushed5_eq V c t) fun i => by
    have hN25 : cfg2.N = 25 := N_2
    have hi0 : (i 0).val < 50000 := (i 0).isLt
    have hi1 : (i 1).val < 128 := (i 1).isLt
    obtain ⟨-, -, -, -, e0, e1⟩ := idx_rows (⟨(i 0).val / 2000, by omega⟩ : Fin cfg2.N)
    refine ⟨⟨(i 0).val / 2000, by omega⟩, flush2_5 _, ?_⟩
    rw [mem_blk5]
    intro a
    match a with
    | ⟨0, _⟩ =>
      show win2_5.index _ 0 * 2000 ≤ (i 0).val ∧ (i 0).val < win2_5.index _ 0 * 2000 + 2000
      rw [e0]
      show (i 0).val / 2000 * 2000 ≤ (i 0).val ∧ (i 0).val < (i 0).val / 2000 * 2000 + 2000
      omega
    | ⟨1, _⟩ =>
      show win2_5.index _ 1 * 128 ≤ (i 1).val ∧ (i 1).val < win2_5.index _ 1 * 128 + 128
      rw [e1]; omega

/-! ## The row of column sums -/

/-- An index of the one-row array is in the one block's rectangle iff each coordinate is in range. -/
theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v70_1).slice (win2_6.rect t)).set ↔ _
  rw [View.set_slice_whole, Rect.mem_set_unit]
  exact Iff.rfl

/-- A write-back of this row writes any row the buffer agrees with entry by entry: the one block is the whole row. -/
theorem flushed6_of (G : FVec Ideal Cert.Sage.S1H .f32) (t : Fin cfg2.N)
    (hG : ∀ (u : Fin 1) (j : Fin 128), (outsAt2 V c t.val t.isLt).2.1 (ix2 u j) = G (ix2 u j)) :
    (dat2 V c).flushed 6 t = ((cfg2.win 6).blk t).view.read (Elt Ideal) G := by
  obtain ⟨-, -, -, -, -, -, e0, e1, -⟩ := idx_whole t
  show (cfg2.win 6).cut (grid2.coords t) ((dat2 V c).after 6 t) = _
  rw [after2_6]
  funext y
  rw [View.read_apply]
  refine row_at (outsAt2 V c t.val t.isLt).2.1 G hG y (((cfg2.win 6).blk t).view.emb y) ?_ ?_
  · show win2_6.index t 0 * 1 + 1 * (y 0).val = (y 0).val
    rw [e0]; omega
  · show win2_6.index t 1 * 128 + 1 * (y 1).val = (y 1).val
    rw [e1]; omega

/-- The one write-back of this row, after the last point, writes the whole-array sums. -/
theorem flushed6_eq (t : Fin cfg2.N) (hf : (cfg2.win 6).flush t = true) :
    (dat2 V c).flushed 6 t = ((cfg2.win 6).blk t).view.read (Elt Ideal) (Cert.Sage.colSum (hlin V c)) := by
  have hN25 : cfg2.N = 25 := N_2
  have h24 : t.val = 24 := by have := (flush2_6 t).mp hf; have := t.isLt; omega
  refine flushed6_of V c (Cert.Sage.colSum (hlin V c)) t fun u j => ?_
  refine ((rows_eq V c 24 t h24).1 u j).trans ?_
  rw [h24, Cert.Sage.colSum_ix2]
  exact run1_all V c j

/-- So the row ends holding them: the last point's one block is the whole row. -/
theorem final6h : (dat2 V c).arrAt 6 cfg2.N = Cert.Sage.colSum (hlin V c) :=
  (dat2 V c).arrAt_eq_of_cover 6 (Cert.Sage.colSum (hlin V c)) (flushed6_eq V c) fun i => by
    have hN25 : cfg2.N = 25 := N_2
    have hi0 : (i 0).val < 1 := (i 0).isLt
    have hi1 : (i 1).val < 128 := (i 1).isLt
    obtain ⟨-, -, -, -, -, -, e0, e1, -⟩ := idx_whole (⟨24, by omega⟩ : Fin cfg2.N)
    refine ⟨⟨24, by omega⟩, (flush2_6 _).mpr rfl, ?_⟩
    rw [mem_blk6]
    intro a
    match a with
    | ⟨0, _⟩ =>
      show win2_6.index _ 0 * 1 ≤ (i 0).val ∧ (i 0).val < win2_6.index _ 0 * 1 + 1
      rw [e0]; omega
    | ⟨1, _⟩ =>
      show win2_6.index _ 1 * 128 ≤ (i 1).val ∧ (i 1).val < win2_6.index _ 1 * 128 + 128
      rw [e1]; omega

/-! ## The row of column sums of squares -/

/-- An index of the one-row array is in the one block's rectangle iff each coordinate is in range. -/
theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v70_2).slice (win2_7.rect t)).set ↔ _
  rw [View.set_slice_whole, Rect.mem_set_unit]
  exact Iff.rfl

/-- A write-back of this row writes any row the buffer agrees with entry by entry: the one block is the whole row. -/
theorem flushed7_of (G : FVec Ideal Cert.Sage.S1H .f32) (t : Fin cfg2.N)
    (hG : ∀ (u : Fin 1) (j : Fin 128), (outsAt2 V c t.val t.isLt).2.2 (ix2 u j) = G (ix2 u j)) :
    (dat2 V c).flushed 7 t = ((cfg2.win 7).blk t).view.read (Elt Ideal) G := by
  obtain ⟨-, -, -, -, -, -, -, -, e0, e1⟩ := idx_whole t
  show (cfg2.win 7).cut (grid2.coords t) ((dat2 V c).after 7 t) = _
  rw [after2_7]
  funext y
  rw [View.read_apply]
  refine row_at (outsAt2 V c t.val t.isLt).2.2 G hG y (((cfg2.win 7).blk t).view.emb y) ?_ ?_
  · show win2_7.index t 0 * 1 + 1 * (y 0).val = (y 0).val
    rw [e0]; omega
  · show win2_7.index t 1 * 128 + 1 * (y 1).val = (y 1).val
    rw [e1]; omega

/-- The one write-back of this row, after the last point, writes the whole-array sums. -/
theorem flushed7_eq (t : Fin cfg2.N) (hf : (cfg2.win 7).flush t = true) :
    (dat2 V c).flushed 7 t = ((cfg2.win 7).blk t).view.read (Elt Ideal) (Cert.Sage.colSumSq (hlin V c)) := by
  have hN25 : cfg2.N = 25 := N_2
  have h24 : t.val = 24 := by have := (flush2_7 t).mp hf; have := t.isLt; omega
  refine flushed7_of V c (Cert.Sage.colSumSq (hlin V c)) t fun u j => ?_
  refine ((rows_eq V c 24 t h24).2 u j).trans ?_
  rw [h24, Cert.Sage.colSumSq_ix2]
  exact run2_all V c j

/-- So the row ends holding them: the last point's one block is the whole row. -/
theorem final7h : (dat2 V c).arrAt 7 cfg2.N = Cert.Sage.colSumSq (hlin V c) :=
  (dat2 V c).arrAt_eq_of_cover 7 (Cert.Sage.colSumSq (hlin V c)) (flushed7_eq V c) fun i => by
    have hN25 : cfg2.N = 25 := N_2
    have hi0 : (i 0).val < 1 := (i 0).isLt
    have hi1 : (i 1).val < 128 := (i 1).isLt
    obtain ⟨-, -, -, -, -, -, -, -, e0, e1⟩ := idx_whole (⟨24, by omega⟩ : Fin cfg2.N)
    refine ⟨⟨24, by omega⟩, (flush2_7 _).mpr rfl, ?_⟩
    rw [mem_blk7]
    intro a
    match a with
    | ⟨0, _⟩ =>
      show win2_7.index _ 0 * 1 ≤ (i 0).val ∧ (i 0).val < win2_7.index _ 0 * 1 + 1
      rw [e0]; omega
    | ⟨1, _⟩ =>
      show win2_7.index _ 1 * 128 ≤ (i 1).val ∧ (i 1).val < win2_7.index _ 1 * 128 + 128
      rw [e1]; omega

/-! ## The three arrays after the region -/

theorem final5 : (Gen.dat2 (F := Ideal) V c).arrAt 5 cfg2.N
    = Cert.Sage.lin (V c (Pipeline.arrRef spec2 0)) (V c (Pipeline.arrRef spec2 1)) (V c (Pipeline.arrRef spec2 2))
        (V c (Pipeline.arrRef spec2 3)) (V c (Pipeline.arrRef spec2 4)) :=
  final5h V c

theorem final6 : (Gen.dat2 (F := Ideal) V c).arrAt 6 cfg2.N
    = Cert.Sage.colSum (Cert.Sage.lin (V c (Pipeline.arrRef spec2 0)) (V c (Pipeline.arrRef spec2 1))
        (V c (Pipeline.arrRef spec2 2)) (V c (Pipeline.arrRef spec2 3)) (V c (Pipeline.arrRef spec2 4))) :=
  final6h V c

theorem final7 : (Gen.dat2 (F := Ideal) V c).arrAt 7 cfg2.N
    = Cert.Sage.colSumSq (Cert.Sage.lin (V c (Pipeline.arrRef spec2 0)) (V c (Pipeline.arrRef spec2 1))
        (V c (Pipeline.arrRef spec2 2)) (V c (Pipeline.arrRef spec2 3)) (V c (Pipeline.arrRef spec2 4))) :=
  final7h V c

end Cert.KernelIdeal.Gemm2

end
-- ==== Proof.Gemm4a.lean ====
import proofs.«154196_j84232898609317_1_alg».proof.Proof.Gen.KernelIdeal.Frame
import Idealize.ShloMosaic.Lib.Pipeline.Value
import Idealize.ShloMosaic.Lib.Tactic

/-!
  What one grid point of the matrix-product-with-statistics body leaves in its three output buffers, as the body's
  arithmetic applied to the blocks it loaded: the block of products, and the two running rows — at the first point
  started from the zero row the body has just stored, at every later point from what the buffer held.
-/

noncomputable section

open Idealize.ShloMosaic Idealize.ShloMosaic.TcCoe Idealize.SL.Sem

namespace Cert.KernelIdeal.Gemm4

open Cert.KernelIdeal Cert.KernelIdeal.Gen

variable {F : FTy → Type} [FloatOps F]

theorem hz : (![0, 0] : Fin 2 → Nat) = fun _ => 0 := funext fun a => by fin_cases a <;> rfl

/-- First point: the product block is the body's product term of the five loaded blocks. -/
theorem outA5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S2000x128 .f32) (x1 : Vec F S2000x128 .f32) (x2 : Vec F S128x128 .f32) (x3 : Vec F S128x128 .f32) (x4 : Vec F S1x128 .f32) :
    out4_A_5 c i arg1 harg1 arg2 harg2 arg3 harg3 arg4 harg4 arg5 harg5 arg6 harg6 arg7 harg7 arg8 harg8 hc0 x0 x1 x2 x3 x4 = k4_pay4 x0 x1 x2 x3 x4 := by
  unfold out4_A_5
  rw [View.read_writes_eq_canon _ _ _ (cover4_A_5 c i arg1 harg1 arg2 harg2 arg3 harg3 arg4 harg4 arg5 harg5 arg6 harg6 arg7 harg7 arg8 harg8 hc0 x0 x1 x2 x3 x4)]
  unfold kernelRun4_A
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point: the row of column sums is the block's column sums added to the zero row just stored. -/
theorem outA6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S2000x128 .f32) (x1 : Vec F S2000x128 .f32) (x2 : Vec F S128x128 .f32) (x3 : Vec F S128x128 .f32) (x4 : Vec F S1x128 .f32) :
    out4_A_6 c i arg1 harg1 arg2 harg2 arg3 harg3 arg4 harg4 arg5 harg5 arg6 harg6 arg7 harg7 arg8 harg8 hc0 x0 x1 x2 x3 x4 = k4_pay5 x0 x1 x2 x3 x4 (k4_pay2 (F := F)) := by
  unfold out4_A_6
  rw [View.read_writes_eq_canon _ _ _ (cover4_A_6 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point: the row of column sums of squares, likewise from the zero row. -/
theorem outA7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S2000x128 .f32) (x1 : Vec F S2000x128 .f32) (x2 : Vec F S128x128 .f32) (x3 : Vec F S128x128 .f32) (x4 : Vec F S1x128 .f32) :
    out4_A_7 c i arg1 harg1 arg2 harg2 arg3 harg3 arg4 harg4 arg5 harg5 arg6 harg6 arg7 harg7 arg8 harg8 hc0 x0 x1 x2 x3 x4 = k4_pay1 (k4_pay6 (k4_pay3 (F := F))) (k4_pay7 x0 x1 x2 x3 x4) := by
  unfold out4_A_7
  rw [View.read_writes_eq_canon _ _ _ (cover4_A_7 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the product block, the same term. -/
theorem outB5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out4_B_5 c i arg1 harg1 arg2 harg2 arg3 harg3 arg4 harg4 arg5 harg5 arg6 harg6 arg7 harg7 arg8 harg8 hc0 x0 x1 x2 x3 x4 xo6 xo7 = k4_pay4 x0 x1 x2 x3 x4 := by
  unfold out4_B_5
  rw [View.read_writes_eq_canon _ _ _ (cover4_B_5 c i arg1 harg1 arg2 harg2 arg3 harg3 arg4 harg4 arg5 harg5 arg6 harg6 arg7 harg7 arg8 harg8 hc0 x0 x1 x2 x3 x4 xo6 xo7)]
  unfold kernelRun4_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the block's column sums added to the row the buffer held. -/
theorem outB6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out4_B_6 c i arg1 harg1 arg2 harg2 arg3 harg3 arg4 harg4 arg5 harg5 arg6 harg6 arg7 harg7 arg8 harg8 hc0 x0 x1 x2 x3 x4 xo6 xo7 = k4_pay5 x0 x1 x2 x3 x4 xo6 := by
  unfold out4_B_6
  rw [View.read_writes_eq_canon _ _ _ (cover4_B_6 c i arg1 harg1 arg2 harg2 arg3 harg3 arg4 harg4 arg5 harg5 arg6 harg6 arg7 harg7 arg8 harg8 hc0 x0 x1 x2 x3 x4 xo6 xo7)]
  unfold kernelRun4_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points: the block's column sums of squares added to the row the buffer held. -/
theorem outB7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S2000x128 .f32) (x1 : Vec F S2000x128 .f32) (x2 : Vec F S128x128 .f32) (x3 : Vec F S128x128 .f32) (x4 : Vec F S1x128 .f32) (xo6 xo7 : Vec F S1x128 .f32) :
    out4_B_7 c i arg1 harg1 arg2 harg2 arg3 harg3 arg4 harg4 arg5 harg5 arg6 harg6 arg7 harg7 arg8 harg8 hc0 x0 x1 x2 x3 x4 xo6 xo7 = k4_pay1 (k4_pay6 xo7) (k4_pay7 x0 x1 x2 x3 x4) := by
  unfold out4_B_7
  rw [View.read_writes_eq_canon _ _ _ (cover4_B_7 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

end Cert.KernelIdeal.Gemm4

end
-- ==== Proof.Gemm4b.lean ====
import proofs.«154196_j84232898609317_1_alg».proof.Proof.Gen.KernelIdeal.Skeleton
import proofs.«154196_j84232898609317_1_alg».proof.Proof.LibPlainDot
import proofs.«154196_j84232898609317_1_alg».proof.Proof.LibRowColumn
import Idealize.ShloMosaic.Lib.ValueLayout
import Idealize.ShloMosaic.Lib.Pipeline.Value

/-!
  The body's arithmetic read entry by entry on the extended reals, for a block of 2000 rows:
  the product block's entry (p, j) is (Σ_k a(p,k)·wl(k,j) + b(0,j)) + Σ_k x(p,k)·wr(k,j); the new row of column sums is the
  old row plus the sum over p of the block's column j; the new row of sums of squares is the old row plus the sum over p
  of the squared entries. A format change is the identity on extended reals and a matrix product into a zero accumulator
  is the plain finite sum.
-/

noncomputable section

open scoped BigOperators
open Idealize.ShloMosaic Idealize.ShloMosaic.ValueIdx

namespace Cert.KernelIdeal.Gemm4

open Cert.KernelIdeal Cert.KernelIdeal.Gen

/-- The sum down column `c` of an `[a, b]` matrix, as the body's reduction over the rows from the zero word computes it. -/
theorem colReduce_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (c : Fin b) :
    multiReduction .add [0] ⟨1, ![b]⟩ src 0x00000000#32 h hφ hacc (ix1 c) = ∑ k : Fin a, src (ix2 k c) :=
  (Ideal.multiReduction_add_single src 0x00000000#32 h hφ hacc (ix1 c)).trans
    (Finset.sum_congr rfl fun k _ => congrArg src (RowColumn.lift_rows h c k))

/-- Entry (p, j) of the product block. -/
theorem pay4_apply (v3 v6 : Vec Ideal S2000x128 .f32) (v8 v11 : Vec Ideal S128x128 .f32) (v15 : Vec Ideal S1x128 .f32)
    (p : Fin 2000) (j : Fin 128) :
    k4_pay4 (F := Ideal) v3 v6 v8 v11 v15 (ix2 p j)
      = ((∑ k : Fin 128, v3 (ix2 p k) * v8 (ix2 k j)) + v15 (ix2 (0 : Fin 1) j)) + ∑ k : Fin 128, v6 (ix2 p k) * v11 (ix2 k j) := by
  unfold k4_pay4
  simp only [shapeCast_self]
  refine congrArg₂ (· + ·) (congrArg₂ (· + ·) ?_ ?_) ?_
  · exact PlainDot.matmul_apply_ix2 (M := 2000) (K := 128) (N := 128) none _ _ p j
  · exact broadcastTo_1b_ab_apply v15 broadcasts_S1x128_S2000x128 p j
  · exact PlainDot.matmul_apply_ix2 (M := 2000) (K := 128) (N := 128) none _ _ p j

/-- Entry (u, j) of the new row of column sums: the old row's entry plus the block's column j summed. -/
theorem pay5_apply (v3 v6 : Vec Ideal S2000x128 .f32) (v8 v11 : Vec Ideal S128x128 .f32) (v15 v22 : Vec Ideal S1x128 .f32)
    (u : Fin 1) (j : Fin 128) :
    k4_pay5 (F := Ideal) v3 v6 v8 v11 v15 v22 (ix2 u j)
      = v22 (ix2 u j) + ∑ p : Fin 2000, k4_pay4 (F := Ideal) v3 v6 v8 v11 v15 (ix2 p j) := by
  unfold k4_pay5
  simp only [shapeCast_self]
  refine congrArg₂ (· + ·) rfl ?_
  refine (shapeCast_a_1a_apply _ shapeCasts_S128_S1x128 u j).trans ?_
  exact colReduce_apply (a := 2000) (b := 128) _ reduces_S2000x128_S128 (.inl rfl) rfl j

/-- Entry (u, j) of the new row of column sums of squares. -/
theorem pay17_apply (v3 v6 : Vec Ideal S2000x128 .f32) (v8 v11 : Vec Ideal S128x128 .f32) (v15 v28 : Vec Ideal S1x128 .f32)
    (u : Fin 1) (j : Fin 128) :
    k4_pay1 (F := Ideal) (k4_pay6 v28) (k4_pay7 v3 v6 v8 v11 v15) (ix2 u j)
      = v28 (ix2 u j) + ∑ p : Fin 2000, k4_pay4 (F := Ideal) v3 v6 v8 v11 v15 (ix2 p j) * k4_pay4 (F := Ideal) v3 v6 v8 v11 v15 (ix2 p j) := by
  unfold k4_pay1 k4_pay6 k4_pay7
  simp only [shapeCast_self]
  refine congrArg₂ (· + ·) rfl ?_
  refine (shapeCast_a_1a_apply _ shapeCasts_S128_S1x128 u j).trans ?_
  exact colReduce_apply (a := 2000) (b := 128) _ reduces_S2000x128_S128 (.inl rfl) rfl j

/-- The zero rows the first point stores are zero. -/
theorem pay2_apply (i : S1x128.Idx) : k4_pay2 (F := Ideal) i = 0 := Ideal.ofBits_zero_f32
theorem pay3_apply (i : S1x128.Idx) : k4_pay3 (F := Ideal) i = 0 := Ideal.ofBits_zero_f32

end Cert.KernelIdeal.Gemm4

end
-- ==== Proof.Gemm4c.lean ====
import proofs.«154196_j84232898609317_1_alg».proof.Proof.Gen.KernelIdeal.Frame
import proofs.«154196_j84232898609317_1_alg».proof.Proof.Spec
import proofs.«154196_j84232898609317_1_alg».proof.Proof.Gemm4b
import Idealize.ShloMosaic.Lib.Pipeline.Value
import Idealize.ShloMosaic.Lib.ValueIdx

/-!
  The blocks one grid point reads, as entries of the arrays the region finds: the two row-blocked operands' block t holds
  rows 2000·t … 2000·t + 1999 (a block coordinate is block index × block size + the coordinate inside), the two weight
  matrices and the bias row are read whole. Hence the product block at point t is rows 2000·t … of the whole product
  array `lin` of the five arrays.
-/

noncomputable section

open scoped BigOperators
open Idealize.ShloMosaic Idealize.ShloMosaic.TcCoe Idealize.SL.Sem Idealize.ShloMosaic.ValueIdx

namespace Cert.KernelIdeal.Gemm4

open Cert.KernelIdeal Cert.KernelIdeal.Gen

variable (V : (c : Dev nD) → (b : Ref sig .tc) → Buf (Elt Ideal) ((c : Thread nD τ).loc b)) (c : Dev nD)

/-- The row-blocked windows (the two operands and the product) sit at block row t, block column 0. -/
theorem idx_rows : ∀ t : Fin cfg4.N, win4_0.index t (0 : Fin 2) = t.val ∧ win4_0.index t (1 : Fin 2) = 0
    ∧ win4_1.index t (0 : Fin 2) = t.val ∧ win4_1.index t (1 : Fin 2) = 0
    ∧ win4_5.index t (0 : Fin 2) = t.val ∧ win4_5.index t (1 : Fin 2) = 0 :=
  (by decide +kernel : ∀ t : Fin grid4.N, _)

/-- The whole-array windows never move. -/
theorem idx_whole : ∀ t : Fin cfg4.N, win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem iblk_0_apply (t : Fin cfg4.N) (p : Fin 2000) (k : Fin 128) (r : Fin 50000) (hr : r.val = 2000 * t.val + p.val) :
    (iblk4 V c 0 t : Vec Ideal S2000x128 .f32) (ix2 p k) = (V c (Pipeline.arrRef spec4 0) : FVec Ideal Cert.Sage.SNH .f32) (ix2 r k) := by
  obtain ⟨e0, e1, -⟩ := idx_rows t
  unfold iblk4
  rw [View.read_apply]
  refine congrArg (V c (Pipeline.arrRef spec4 0)) (funext fun a => Fin.ext ?_)
  match a with
  | ⟨0, _⟩ => show win4_0.index t 0 * 2000 + 1 * p.val = r.val; rw [e0, hr]; omega
  | ⟨1, _⟩ => show win4_0.index t 1 * 128 + 1 * k.val = k.val; rw [e1]; omega

theorem iblk_1_apply (t : Fin cfg4.N) (p : Fin 2000) (k : Fin 128) (r : Fin 50000) (hr : r.val = 2000 * t.val + p.val) :
    (iblk4 V c 1 t : Vec Ideal S2000x128 .f32) (ix2 p k) = (V c (Pipeline.arrRef spec4 1) : FVec Ideal Cert.Sage.SNH .f32) (ix2 r k) := by
  obtain ⟨-, -, e0, e1, -⟩ := idx_rows t
  unfold iblk4
  rw [View.read_apply]
  refine congrArg (V c (Pipeline.arrRef spec4 1)) (funext fun a => Fin.ext ?_)
  match a with
  | ⟨0, _⟩ => show win4_1.index t 0 * 2000 + 1 * p.val = r.val; rw [e0, hr]; omega
  | ⟨1, _⟩ => show win4_1.index t 1 * 128 + 1 * k.val = k.val; rw [e1]; omega

theorem iblk_2_apply (t : Fin cfg4.N) (k j : Fin 128) :
    (iblk4 V c 2 t : Vec Ideal S128x128 .f32) (ix2 k j) = (V c (Pipeline.arrRef spec4 2) : FVec Ideal Cert.Sage.SHH .f32) (ix2 k j) := by
  obtain ⟨e0, e1, -⟩ := idx_whole t
  unfold iblk4
  rw [View.read_apply]
  refine congrArg (V c (Pipeline.arrRef spec4 2)) (funext fun a => Fin.ext ?_)
  match a with
  | ⟨0, _⟩ => show win4_2.index t 0 * 128 + 1 * k.val = k.val; rw [e0]; omega
  | ⟨1, _⟩ => show win4_2.index t 1 * 128 + 1 * j.val = j.val; rw [e1]; omega

theorem iblk_3_apply (t : Fin cfg4.N) (k j : Fin 128) :
    (iblk4 V c 3 t : Vec Ideal S128x128 .f32) (ix2 k j) = (V c (Pipeline.arrRef spec4 3) : FVec Ideal Cert.Sage.SHH .f32) (ix2 k j) := by
  obtain ⟨-, -, e0, e1, -⟩ := idx_whole t
  unfold iblk4
  rw [View.read_apply]
  refine congrArg (V c (Pipeline.arrRef spec4 3)) (funext fun a => Fin.ext ?_)
  match a with
  | ⟨0, _⟩ => show win4_3.index t 0 * 128 + 1 * k.val = k.val; rw [e0]; omega
  | ⟨1, _⟩ => show win4_3.index t 1 * 128 + 1 * j.val = j.val; rw [e1]; omega

theorem iblk_4_apply (t : Fin cfg4.N) (u : Fin 1) (j : Fin 128) :
    (iblk4 V c 4 t : Vec Ideal S1x128 .f32) (ix2 u j) = (V c (Pipeline.arrRef spec4 4) : FVec Ideal Cert.Sage.S1H .f32) (ix2 u j) := by
  obtain ⟨-, -, -, -, e0, e1, -⟩ := idx_whole t
  unfold iblk4
  rw [View.read_apply]
  refine congrArg (V c (Pipeline.arrRef spec4 4)) (funext fun a => Fin.ext ?_)
  match a with
  | ⟨0, _⟩ => show win4_4.index t 0 * 1 + 1 * u.val = u.val; rw [e0]; omega
  | ⟨1, _⟩ => show win4_4.index t 1 * 128 + 1 * j.val = j.val; rw [e1]; omega

/-- The whole product array of the five arrays the region finds. -/
def hlin : FVec Ideal Cert.Sage.SNH .f32 :=
  Cert.Sage.lin (V c (Pipeline.arrRef spec4 0)) (V c (Pipeline.arrRef spec4 1)) (V c (Pipeline.arrRef spec4 2))
    (V c (Pipeline.arrRef spec4 3)) (V c (Pipeline.arrRef spec4 4))

/-- The product block the body computes at point t. -/
abbrev blkP (t : Fin cfg4.N) : FVec Ideal S2000x128 .f32 :=
  k4_pay4 (F := Ideal) (iblk4 V c 0 t) (iblk4 V c 1 t) (iblk4 V c 2 t) (iblk4 V c 3 t) (iblk4 V c 4 t)

/-- Its entry (p, j) is entry (2000·t + p, j) of the whole product array. -/
theorem blkP_apply (t : Fin cfg4.N) (p : Fin 2000) (j : Fin 128) (r : Fin 50000) (hr : r.val = 2000 * t.val + p.val) :
    blkP V c t (ix2 p j) = hlin V c (ix2 r j) := by
  refine (pay4_apply (iblk4 V c 0 t) (iblk4 V c 1 t) (iblk4 V c 2 t) (iblk4 V c 3 t) (iblk4 V c 4 t) p j).trans ?_
  unfold hlin
  rw [Cert.Sage.lin_ix2]
  unfold Cert.Sage.linAt
  exact congrArg₂ (· + ·)
    (congrArg₂ (· + ·)
      (Finset.sum_congr rfl fun k _ => congrArg₂ (· * ·) (iblk_0_apply V c t p k r hr) (iblk_2_apply V c t k j))
      (iblk_4_apply V c t 0 j))
    (Finset.sum_congr rfl fun k _ => congrArg₂ (· * ·) (iblk_1_apply V c t p k r hr) (iblk_3_apply V c t k j))

/-- The same at any index of the block. -/
theorem blkP_idx (t : Fin cfg4.N) (y : S2000x128.Idx) (r : Fin 50000) (j : Fin 128)
    (hr : r.val = 2000 * t.val + (y 0).val) (hj : j.val = (y 1).val) : blkP V c t y = hlin V c (ix2 r j) := by
  have hy : y = ix2 (⟨(y 0).val, idx2_lt0 y⟩ : Fin 2000) (⟨(y 1).val, idx2_lt1 y⟩ : Fin 128) :=
    funext fun a => by match a with | ⟨0, _⟩ => rfl | ⟨1, _⟩ => rfl
  obtain rfl : j = ⟨(y 1).val, idx2_lt1 y⟩ := Fin.ext hj
  exact (congrArg (blkP V c t) hy).trans (blkP_apply V c t _ _ r hr)

/-- The whole product array with its row a plain natural number (zero beyond the last row): the form sums over
    runs of rows are written in. -/
def hN (r : ℕ) (j : Fin 128) : EReal := if hr : r < 50000 then hlin V c (ix2 ⟨r, hr⟩ j) else 0

theorem blkP_hN (t : Fin cfg4.N) (p : Fin 2000) (j : Fin 128) : blkP V c t (ix2 p j) = hN V c (2000 * t.val + p.val) j := by
  have hN25 : cfg4.N = 25 := N_4
  have hlt : 2000 * t.val + p.val < 50000 := by have := t.isLt; have := p.isLt; omega
  unfold hN
  rw [dif_pos hlt]
  exact blkP_apply V c t p j ⟨_, hlt⟩ rfl

end Cert.KernelIdeal.Gemm4

end
-- ==== Proof.Gemm4d.lean ====
import proofs.«154196_j84232898609317_1_alg».proof.Proof.Gemm4a
import proofs.«154196_j84232898609317_1_alg».proof.Proof.Gemm4c
import proofs.«154196_j84232898609317_1_alg».proof.Proof.LibBlockedSum

/-!
  The three arrays the matrix-product-with-statistics region leaves, for any contents the region finds.

  After grid point n the product buffer holds rows 2000·n … 2000·n + 1999 of the whole product array h = lin(…), and the
  two one-row buffers hold Σ_{s ≤ n} Σ_{p < 2000} h(2000·s + p, j) and the same sum of h·h: the first point starts them
  from the zero row it stores, every later point adds its block's column sums to what the buffer held (induction on the
  point). The product buffer is written back at every point, block n to rows 2000·n …, and the 25 blocks tile the 50000
  rows; the one-row buffers are written back once, after the last point, and 25 runs of 2000 rows are all the rows.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Gemm4

open Cert.KernelIdeal Cert.KernelIdeal.Gen

variable (V : (c : Dev nD) → (b : Ref sig .tc) → Buf (Elt Ideal) ((c : Thread nD τ).loc b)) (c : Dev nD)

/-- The first point leaves the product block and the two rows started from the zero rows. -/
theorem outs_A (t : Fin cfg4.N) (h0 : t.val % 25 = 0) :
    outsAt4 V c t.val t.isLt
      = (k4_pay4 (F := Ideal) (iblk4 V c 0 t) (iblk4 V c 1 t) (iblk4 V c 2 t) (iblk4 V c 3 t) (iblk4 V c 4 t),
         k4_pay5 (F := Ideal) (iblk4 V c 0 t) (iblk4 V c 1 t) (iblk4 V c 2 t) (iblk4 V c 3 t) (iblk4 V c 4 t) (k4_pay2 (F := Ideal)),
         k4_pay1 (F := Ideal) (k4_pay6 (k4_pay3 (F := Ideal))) (k4_pay7 (iblk4 V c 0 t) (iblk4 V c 1 t) (iblk4 V c 2 t) (iblk4 V c 3 t) (iblk4 V c 4 t))) :=
  (outsAt4_A V c t h0).trans
    (congrArg₂ Prod.mk (outA5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
      (congrArg₂ Prod.mk (outA6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
        (outA7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))))

/-- A later point leaves the product block and the two rows continued from what the point before left. -/
theorem outs_B (t : Fin cfg4.N) (h0 : ¬t.val % 25 = 0) :
    outsAt4 V c t.val t.isLt
      = (k4_pay4 (F := Ideal) (iblk4 V c 0 t) (iblk4 V c 1 t) (iblk4 V c 2 t) (iblk4 V c 3 t) (iblk4 V c 4 t),
         k4_pay5 (F := Ideal) (iblk4 V c 0 t) (iblk4 V c 1 t) (iblk4 V c 2 t) (iblk4 V c 3 t) (iblk4 V c 4 t) (outsAt4 V c (t.val - 1) (Nat.lt_of_le_of_lt (Nat.sub_le _ _) t.isLt)).2.1,
         k4_pay1 (F := Ideal) (k4_pay6 (outsAt4 V c (t.val - 1) (Nat.lt_of_le_of_lt (Nat.sub_le _ _) t.isLt)).2.2) (k4_pay7 (iblk4 V c 0 t) (iblk4 V c 1 t) (iblk4 V c 2 t) (iblk4 V c 3 t) (iblk4 V c 4 t))) :=
  (outsAt4_B V c t h0).trans
    (congrArg₂ Prod.mk (outB5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)
      (congrArg₂ Prod.mk (outB6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)
        (outB7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)))

/-- Column j summed over one run of 2000 rows. -/
abbrev run1 (s : ℕ) (j : Fin 128) : EReal := ∑ p : Fin 2000, hN V c (2000 * s + p.val) j
/-- Column j's squares summed over one run of 2000 rows. -/
abbrev run2 (s : ℕ) (j : Fin 128) : EReal := ∑ p : Fin 2000, hN V c (2000 * s + p.val) j * hN V c (2000 * s + p.val) j

/-- After every point the product buffer holds that point's product block. -/
theorem block_eq (t : Fin cfg4.N) : (outsAt4 V c t.val t.isLt).1 = blkP V c t := by
  by_cases h0 : t.val % 25 = 0
  · rw [outs_A V c t h0]
  · rw [outs_B V c t h0]

/-- After point n the two one-row buffers hold the column sums, resp. the column sums of squares, of the first n + 1
    runs of 2000 rows. -/
theorem rows_eq : ∀ (n : ℕ) (t : Fin cfg4.N), t.val = n →
    (∀ (u : Fin 1) (j : Fin 128), (outsAt4 V c t.val t.isLt).2.1 (ix2 u j) = ∑ s ∈ Finset.range (t.val + 1), run1 V c s j)
    ∧ (∀ (u : Fin 1) (j : Fin 128), (outsAt4 V c t.val t.isLt).2.2 (ix2 u j) = ∑ s ∈ Finset.range (t.val + 1), run2 V c s j)
  | 0, t, ht => by
    have h0 : t.val % 25 = 0 := by omega
    rw [outs_A V c t h0]
    refine ⟨fun u j => ?_, fun u j => ?_⟩
    · refine (pay5_apply (iblk4 V c 0 t) (iblk4 V c 1 t) (iblk4 V c 2 t) (iblk4 V c 3 t) (iblk4 V c 4 t) (k4_pay2 (F := Ideal)) u j).trans ?_
      rw [pay2_apply, zero_add, ht, Finset.sum_range_one]
      exact Finset.sum_congr rfl fun p _ => (blkP_hN V c t p j).trans (by rw [ht])
    · refine (pay17_apply (iblk4 V c 0 t) (iblk4 V c 1 t) (iblk4 V c 2 t) (iblk4 V c 3 t) (iblk4 V c 4 t) (k4_pay3 (F := Ideal)) u j).trans ?_
      rw [pay3_apply, zero_add, ht, Finset.sum_range_one]
      exact Finset.sum_congr rfl fun p _ => (congrArg₂ (· * ·) (blkP_hN V c t p j) (blkP_hN V c t p j)).trans (by rw [ht])
  | n + 1, t, ht => by
    have hN25 : cfg4.N = 25 := N_4
    have hB : ¬t.val % 25 = 0 := by have := t.isLt; omega
    have hlt : t.val - 1 < cfg4.N := Nat.lt_of_le_of_lt (Nat.sub_le _ _) t.isLt
    obtain ⟨ih1, ih2⟩ := rows_eq n ⟨t.val - 1, hlt⟩ (by show t.val - 1 = n; omega)
    have hs : t.val - 1 + 1 = t.val := by omega
    rw [outs_B V c t hB]
    refine ⟨fun u j => ?_, fun u j => ?_⟩
    · refine (pay5_apply (iblk4 V c 0 t) (iblk4 V c 1 t) (iblk4 V c 2 t) (iblk4 V c 3 t) (iblk4 V c 4 t) (outsAt4 V c (t.val - 1) (Nat.lt_of_le_of_lt (Nat.sub_le _ _) t.isLt)).2.1 u j).trans ?_
      refine (congrArg₂ (· + ·) (ih1 u j) (Finset.sum_congr rfl fun p _ => blkP_hN V c t p j)).trans ?_
      show (∑ s ∈ Finset.range (t.val - 1 + 1), run1 V c s j) + run1 V c t.val j = _
      rw [hs]
      exact (Finset.sum_range_succ (fun s => run1 V c s j) t.val).symm
    · refine (pay17_apply (iblk4 V c 0 t) (iblk4 V c 1 t) (iblk4 V c 2 t) (iblk4 V c 3 t) (iblk4 V c 4 t) (outsAt4 V c (t.val - 1) (Nat.lt_of_le_of_lt (Nat.sub_le _ _) t.isLt)).2.2 u j).trans ?_
      refine (congrArg₂ (· + ·) (ih2 u j) (Finset.sum_congr rfl fun p _ =>
        congrArg₂ (· * ·) (blkP_hN V c t p j) (blkP_hN V c t p j))).trans ?_
      show (∑ s ∈ Finset.range (t.val - 1 + 1), run2 V c s j) + run2 V c t.val j = _
      rw [hs]
      exact (Finset.sum_range_succ (fun s => run2 V c s j) t.val).symm

end Cert.KernelIdeal.Gemm4

end
-- ==== Proof.Gemm4.lean ====
import proofs.«154196_j84232898609317_1_alg».proof.Proof.Gemm4d

/-!
  From the buffers to the arrays: the product buffer is written back at every point, block t to rows 2000·t … 2000·t + 1999,
  and the 25 blocks tile the 50000 rows (the point covering row r is r / 2000); each one-row buffer is written back once,
  after the last point, when it holds the sums over all 25 runs of 2000 rows — which are the sums over all 50000 rows.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Gemm4

open Cert.KernelIdeal Cert.KernelIdeal.Gen

variable (V : (c : Dev nD) → (b : Ref sig .tc) → Buf (Elt Ideal) ((c : Thread nD τ).loc b)) (c : Dev nD)

/-- A one-row array agrees with another at an index once it does at every pair of coordinates. -/
theorem row_at (X : Vec Ideal S1x128 .f32) (G : FVec Ideal Cert.Sage.S1H .f32)
    (h : ∀ (u : Fin 1) (j : Fin 128), X (ix2 u j) = G (ix2 u j)) (y : S1x128.Idx) (i : Cert.Sage.S1H.Idx)
    (h0 : (i 0).val = (y 0).val) (h1 : (i 1).val = (y 1).val) : X y = G i := by
  have hy : y = ix2 (⟨(y 0).val, idx2_lt0 y⟩ : Fin 1) (⟨(y 1).val, idx2_lt1 y⟩ : Fin 128) :=
    funext fun a => by match a with | ⟨0, _⟩ => rfl | ⟨1, _⟩ => rfl
  have hi : i = ix2 (⟨(y 0).val, idx2_lt0 y⟩ : Fin 1) (⟨(y 1).val, idx2_lt1 y⟩ : Fin 128) :=
    funext fun a => Fin.ext (by match a with | ⟨0, _⟩ => exact h0 | ⟨1, _⟩ => exact h1)
  exact (congrArg X hy).trans ((h _ _).trans (congrArg G hi).symm)

/-- Twenty-five runs of 2000 rows are all 50000 rows. -/
theorem sum_runs (g : ℕ → EReal) :
    ∑ s ∈ Finset.range 25, ∑ p : Fin 2000, g (2000 * s + p.val) = ∑ r : Fin 50000, g r.val :=
  (BlockedSum.sum_fin_blocks 25 2000 g).symm

theorem run1_all (j : Fin 128) : ∑ s ∈ Finset.range (24 + 1), run1 V c s j = ∑ r : Fin 50000, hlin V c (ix2 r j) :=
  (sum_runs (fun r => hN V c r j)).trans (Finset.sum_congr rfl fun r _ => by unfold hN; rw [dif_pos r.isLt])

theorem run2_all (j : Fin 128) :
    ∑ s ∈ Finset.range (24 + 1), run2 V c s j = ∑ r : Fin 50000, hlin V c (ix2 r j) * hlin V c (ix2 r j) :=
  (sum_runs (fun r => hN V c r j * hN V c r j)).trans (Finset.sum_congr rfl fun r _ => by unfold hN; rw [dif_pos r.isLt])

/-! ## The product array -/

/-- Point t writes back rows 2000·t … of the whole product array. -/
theorem flushed5_eq (t : Fin cfg4.N) :
    (dat4 V c).flushed 5 t = ((cfg4.win 5).blk t).view.read (Elt Ideal) (hlin V c) := by
  have hN25 : cfg4.N = 25 := N_4
  obtain ⟨-, -, -, -, e0, e1⟩ := idx_rows t
  show (cfg4.win 5).cut (grid4.coords t) ((dat4 V c).after 5 t) = _
  rw [after4_5, block_eq V c t]
  funext y
  rw [View.read_apply]
  have hy0 : (y 0).val < 2000 := (y 0).isLt
  have hy1 : (y 1).val < 128 := (y 1).isLt
  have hlt : 2000 * t.val + (y 0).val < 50000 := by have := t.isLt; omega
  refine (blkP_idx V c t y ⟨2000 * t.val + (y 0).val, hlt⟩ ⟨(y 1).val, hy1⟩ rfl rfl).trans
    (congrArg (hlin V c) (funext fun a => Fin.ext ?_))
  match a with
  | ⟨0, _⟩ =>
    show 2000 * t.val + (y 0).val = win4_5.index t 0 * 2000 + 1 * (y 0).val
    rw [e0]; omega
  | ⟨1, _⟩ =>
    show (y 1).val = win4_5.index t 1 * 128 + 1 * (y 1).val
    rw [e1]; omega

/-- An index of the array is in point t's block iff each coordinate is in the block's range on its axis. -/
theorem mem_blk5 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v106_0).slice (win4_5.rect t)).set ↔ _
  rw [View.set_slice_whole, Rect.mem_set_unit]
  exact Iff.rfl

/-- The array ends holding the whole product array: row r is covered by point r / 2000. -/
theorem final5h : (dat4 V c).arrAt 5 cfg4.N = hlin V c :=
  (dat4 V c).arrAt_eq_of_cover 5 (hlin V c) (fun t _ => flushed5_eq V c t) fun i => by
    have hN25 : cfg4.N = 25 := N_4
    have hi0 : (i 0).val < 50000 := (i 0).isLt
    have hi1 : (i 1).val < 128 := (i 1).isLt
    obtain ⟨-, -, -, -, e0, e1⟩ := idx_rows (⟨(i 0).val / 2000, by omega⟩ : Fin cfg4.N)
    refine ⟨⟨(i 0).val / 2000, by omega⟩, flush4_5 _, ?_⟩
    rw [mem_blk5]
    intro a
    match a with
    | ⟨0, _⟩ =>
      show win4_5.index _ 0 * 2000 ≤ (i 0).val ∧ (i 0).val < win4_5.index _ 0 * 2000 + 2000
      rw [e0]
      show (i 0).val / 2000 * 2000 ≤ (i 0).val ∧ (i 0).val < (i 0).val / 2000 * 2000 + 2000
      omega
    | ⟨1, _⟩ =>
      show win4_5.index _ 1 * 128 ≤ (i 1).val ∧ (i 1).val < win4_5.index _ 1 * 128 + 128
      rw [e1]; omega

/-! ## The row of column sums -/

/-- An index of the one-row array is in the one block's rectangle iff each coordinate is in range. -/
theorem mem_blk6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v106_1).slice (win4_6.rect t)).set ↔ _
  rw [View.set_slice_whole, Rect.mem_set_unit]
  exact Iff.rfl

/-- A write-back of this row writes any row the buffer agrees with entry by entry: the one block is the whole row. -/
theorem flushed6_of (G : FVec Ideal Cert.Sage.S1H .f32) (t : Fin cfg4.N)
    (hG : ∀ (u : Fin 1) (j : Fin 128), (outsAt4 V c t.val t.isLt).2.1 (ix2 u j) = G (ix2 u j)) :
    (dat4 V c).flushed 6 t = ((cfg4.win 6).blk t).view.read (Elt Ideal) G := by
  obtain ⟨-, -, -, -, -, -, e0, e1, -⟩ := idx_whole t
  show (cfg4.win 6).cut (grid4.coords t) ((dat4 V c).after 6 t) = _
  rw [after4_6]
  funext y
  rw [View.read_apply]
  refine row_at (outsAt4 V c t.val t.isLt).2.1 G hG y (((cfg4.win 6).blk t).view.emb y) ?_ ?_
  · show win4_6.index t 0 * 1 + 1 * (y 0).val = (y 0).val
    rw [e0]; omega
  · show win4_6.index t 1 * 128 + 1 * (y 1).val = (y 1).val
    rw [e1]; omega

/-- The one write-back of this row, after the last point, writes the whole-array sums. -/
theorem flushed6_eq (t : Fin cfg4.N) (hf : (cfg4.win 6).flush t = true) :
    (dat4 V c).flushed 6 t = ((cfg4.win 6).blk t).view.read (Elt Ideal) (Cert.Sage.colSum (hlin V c)) := by
  have hN25 : cfg4.N = 25 := N_4
  have h24 : t.val = 24 := by have := (flush4_6 t).mp hf; have := t.isLt; omega
  refine flushed6_of V c (Cert.Sage.colSum (hlin V c)) t fun u j => ?_
  refine ((rows_eq V c 24 t h24).1 u j).trans ?_
  rw [h24, Cert.Sage.colSum_ix2]
  exact run1_all V c j

/-- So the row ends holding them: the last point's one block is the whole row. -/
theorem final6h : (dat4 V c).arrAt 6 cfg4.N = Cert.Sage.colSum (hlin V c) :=
  (dat4 V c).arrAt_eq_of_cover 6 (Cert.Sage.colSum (hlin V c)) (flushed6_eq V c) fun i => by
    have hN25 : cfg4.N = 25 := N_4
    have hi0 : (i 0).val < 1 := (i 0).isLt
    have hi1 : (i 1).val < 128 := (i 1).isLt
    obtain ⟨-, -, -, -, -, -, e0, e1, -⟩ := idx_whole (⟨24, by omega⟩ : Fin cfg4.N)
    refine ⟨⟨24, by omega⟩, (flush4_6 _).mpr rfl, ?_⟩
    rw [mem_blk6]
    intro a
    match a with
    | ⟨0, _⟩ =>
      show win4_6.index _ 0 * 1 ≤ (i 0).val ∧ (i 0).val < win4_6.index _ 0 * 1 + 1
      rw [e0]; omega
    | ⟨1, _⟩ =>
      show win4_6.index _ 1 * 128 ≤ (i 1).val ∧ (i 1).val < win4_6.index _ 1 * 128 + 128
      rw [e1]; omega

/-! ## The row of column sums of squares -/

/-- An index of the one-row array is in the one block's rectangle iff each coordinate is in range. -/
theorem mem_blk7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v106_2).slice (win4_7.rect t)).set ↔ _
  rw [View.set_slice_whole, Rect.mem_set_unit]
  exact Iff.rfl

/-- A write-back of this row writes any row the buffer agrees with entry by entry: the one block is the whole row. -/
theorem flushed7_of (G : FVec Ideal Cert.Sage.S1H .f32) (t : Fin cfg4.N)
    (hG : ∀ (u : Fin 1) (j : Fin 128), (outsAt4 V c t.val t.isLt).2.2 (ix2 u j) = G (ix2 u j)) :
    (dat4 V c).flushed 7 t = ((cfg4.win 7).blk t).view.read (Elt Ideal) G := by
  obtain ⟨-, -, -, -, -, -, -, -, e0, e1⟩ := idx_whole t
  show (cfg4.win 7).cut (grid4.coords t) ((dat4 V c).after 7 t) = _
  rw [after4_7]
  funext y
  rw [View.read_apply]
  refine row_at (outsAt4 V c t.val t.isLt).2.2 G hG y (((cfg4.win 7).blk t).view.emb y) ?_ ?_
  · show win4_7.index t 0 * 1 + 1 * (y 0).val = (y 0).val
    rw [e0]; omega
  · show win4_7.index t 1 * 128 + 1 * (y 1).val = (y 1).val
    rw [e1]; omega

/-- The one write-back of this row, after the last point, writes the whole-array sums. -/
theorem flushed7_eq (t : Fin cfg4.N) (hf : (cfg4.win 7).flush t = true) :
    (dat4 V c).flushed 7 t = ((cfg4.win 7).blk t).view.read (Elt Ideal) (Cert.Sage.colSumSq (hlin V c)) := by
  have hN25 : cfg4.N = 25 := N_4
  have h24 : t.val = 24 := by have := (flush4_7 t).mp hf; have := t.isLt; omega
  refine flushed7_of V c (Cert.Sage.colSumSq (hlin V c)) t fun u j => ?_
  refine ((rows_eq V c 24 t h24).2 u j).trans ?_
  rw [h24, Cert.Sage.colSumSq_ix2]
  exact run2_all V c j

/-- So the row ends holding them: the last point's one block is the whole row. -/
theorem final7h : (dat4 V c).arrAt 7 cfg4.N = Cert.Sage.colSumSq (hlin V c) :=
  (dat4 V c).arrAt_eq_of_cover 7 (Cert.Sage.colSumSq (hlin V c)) (flushed7_eq V c) fun i => by
    have hN25 : cfg4.N = 25 := N_4
    have hi0 : (i 0).val < 1 := (i 0).isLt
    have hi1 : (i 1).val < 128 := (i 1).isLt
    obtain ⟨-, -, -, -, -, -, -, -, e0, e1⟩ := idx_whole (⟨24, by omega⟩ : Fin cfg4.N)
    refine ⟨⟨24, by omega⟩, (flush4_7 _).mpr rfl, ?_⟩
    rw [mem_blk7]
    intro a
    match a with
    | ⟨0, _⟩ =>
      show win4_7.index _ 0 * 1 ≤ (i 0).val ∧ (i 0).val < win4_7.index _ 0 * 1 + 1
      rw [e0]; omega
    | ⟨1, _⟩ =>
      show win4_7.index _ 1 * 128 ≤ (i 1).val ∧ (i 1).val < win4_7.index _ 1 * 128 + 128
      rw [e1]; omega

/-! ## The three arrays after the region -/

theorem final5 : (Gen.dat4 (F := Ideal) V c).arrAt 5 cfg4.N
    = Cert.Sage.lin (V c (Pipeline.arrRef spec4 0)) (V c (Pipeline.arrRef spec4 1)) (V c (Pipeline.arrRef spec4 2))
        (V c (Pipeline.arrRef spec4 3)) (V c (Pipeline.arrRef spec4 4)) :=
  final5h V c

theorem final6 : (Gen.dat4 (F := Ideal) V c).arrAt 6 cfg4.N
    = Cert.Sage.colSum (Cert.Sage.lin (V c (Pipeline.arrRef spec4 0)) (V c (Pipeline.arrRef spec4 1))
        (V c (Pipeline.arrRef spec4 2)) (V c (Pipeline.arrRef spec4 3)) (V c (Pipeline.arrRef spec4 4))) :=
  final6h V c

theorem final7 : (Gen.dat4 (F := Ideal) V c).arrAt 7 cfg4.N
    = Cert.Sage.colSumSq (Cert.Sage.lin (V c (Pipeline.arrRef spec4 0)) (V c (Pipeline.arrRef spec4 1))
        (V c (Pipeline.arrRef spec4 2)) (V c (Pipeline.arrRef spec4 3)) (V c (Pipeline.arrRef spec4 4))) :=
  final7h V c

end Cert.KernelIdeal.Gemm4

end
-- ==== Proof.Bn1.lean ====
/-
  The rectified batch normalisation without the residual term, read off its row blocks.

  The array h : [50000, 128] is cut into 25 blocks of 2000 rows. At block t the body reads rows 2000·t … 2000·t + 1999
  of h and the four parameter rows μ, σ, γ, β : [1, 128] whole, and writes, at (p, j) of the block,

      max (γ (0, j) · (h (2000·t + p, j) − μ (0, j)) · σ (0, j) + β (0, j), 0).

  That is entry (2000·t + p, j) of `Cert.Sage.bn h μ σ γ β`: each written block is the corresponding block of that one
  array, and the 25 blocks tile the 50000 rows (row r lies in block r / 2000), so the output array ends holding it.
-/
import proofs.«154196_j84232898609317_1_alg».proof.Proof.Gen.KernelIdeal.Frame
import proofs.«154196_j84232898609317_1_alg».proof.Proof.Spec
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Bn1

open Cert.KernelIdeal Cert.KernelIdeal.Gen

/-- The zero offsets of a whole-block access, as a constant function. -/
theorem zero_offsets : (![0, 0] : Fin 2 → Nat) = fun _ => 0 := funext fun a => by fin_cases a <;> rfl

/-- The block's arithmetic at (p, j): the parameter rows are read at column j, the data block at (p, j), and the
    rectifier's zero is the extended real 0. -/
theorem pay_apply (g : Vec Ideal S1x128 .f32) (h : Vec Ideal S2000x128 .f32) (mu sg be : Vec Ideal S1x128 .f32)
    (p : Fin 2000) (j : Fin 128) :
    k1_pay1 g h mu sg be (ix2 p j)
      = max (g (ix2 (0 : Fin 1) j) * (h (ix2 p j) - mu (ix2 (0 : Fin 1) j)) * sg (ix2 (0 : Fin 1) j) + be (ix2 (0 : Fin 1) j)) 0 := by
  unfold k1_pay1
  simp only [shapeCast_self]
  rw [maximumf_apply, addf_apply, mulf_apply, mulf_apply, subf_apply, broadcast_apply]
  rw [broadcastTo_1b_ab_apply g, broadcastTo_1b_ab_apply mu, broadcastTo_1b_ab_apply sg, broadcastTo_1b_ab_apply be]
  rw [show (FloatOps.ofBits FTy.f32 0x00000000#32 : Ideal .f32) = 0 from Ideal.ofBits_zero_f32]

/-- What the body leaves in the output block: its one whole-block store of the arithmetic of its five whole-block
    loads (γ, h, μ, σ, β in the order the body reads them; the blocks arrive in the order h, μ, σ, γ, β). -/
theorem out_eq (x0 : Vec Ideal S2000x128 .f32) (x1 x2 x3 x4 : Vec Ideal S1x128 .f32) :
    out1_5 x0 x1 x2 x3 x4 = k1_pay1 x3 x0 x1 x2 x4 := by
  unfold out1_5
  rw [View.canon_unit_zero zero_offsets]
  simp only [View.ld_unit_zero (S := S1x128) zero_offsets, View.ld_unit_zero (S := S2000x128) zero_offsets]

/-- If the data block at y is the array h at i, with the same column, and the four row blocks are the rows μ, σ, γ, β,
    then the block's arithmetic at y is the normalised, scaled, shifted, rectified array at i. -/
theorem pay_block (H : FVec Ideal Cert.Sage.SNH .f32) (M S G B : FVec Ideal Cert.Sage.S1H .f32)
    (x0 : Vec Ideal S2000x128 .f32) (x1 x2 x3 x4 : Vec Ideal S1x128 .f32)
    (y : S2000x128.Idx) (i : Cert.Sage.SNH.Idx)
    (e0 : x0 y = H i) (hj : (i 1).val = (y 1).val)
    (e1 : ∀ j : Fin 128, x1 (ix2 (0 : Fin 1) j) = M (ix2 (0 : Fin 1) j))
    (e2 : ∀ j : Fin 128, x2 (ix2 (0 : Fin 1) j) = S (ix2 (0 : Fin 1) j))
    (e3 : ∀ j : Fin 128, x3 (ix2 (0 : Fin 1) j) = G (ix2 (0 : Fin 1) j))
    (e4 : ∀ j : Fin 128, x4 (ix2 (0 : Fin 1) j) = B (ix2 (0 : Fin 1) j)) :
    k1_pay1 x3 x0 x1 x2 x4 y = Cert.Sage.bn H M S G B i := by
  obtain ⟨p, j, rfl⟩ : ∃ (p : Fin 2000) (j : Fin 128), y = ix2 p j := ⟨y 0, y 1, eq_ix2 y⟩
  obtain ⟨r, j', rfl⟩ : ∃ (r : Fin 50000) (j' : Fin 128), i = ix2 r j' := ⟨i 0, i 1, eq_ix2 i⟩
  obtain rfl : j' = j := Fin.ext hj
  rw [pay_apply, Cert.Sage.bn_ix2]
  unfold Cert.Sage.bnAt
  rw [e0, e1, e2, e3, e4]

/-- At point t the data window and the output window both sit at block row t, block column 0. -/
theorem idx_blocks : ∀ t : Fin cfg1.N,
    win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

/-- The window of μ is the whole row at every point. -/
theorem idx_mean : ∀ t : Fin cfg1.N, win1_1.index t (0 : Fin 2) = 0 ∧ win1_1.index t (1 : Fin 2) = 0 :=
  (by decide +kernel : ∀ t : Fin grid1.N, _)

/-- The window of σ is the whole row at every point. -/
theorem idx_sigma : ∀ t : Fin cfg1.N, win1_2.index t (0 : Fin 2) = 0 ∧ win1_2.index t (1 : Fin 2) = 0 :=
  (by decide +kernel : ∀ t : Fin grid1.N, _)

/-- The window of γ is the whole row at every point. -/
theorem idx_gamma : ∀ t : Fin cfg1.N, win1_3.index t (0 : Fin 2) = 0 ∧ win1_3.index t (1 : Fin 2) = 0 :=
  (by decide +kernel : ∀ t : Fin grid1.N, _)

/-- The window of β is the whole row at every point. -/
theorem idx_beta : ∀ t : Fin cfg1.N, win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b)) (c : Dev nD)

/-- The data block at point t, at y, is the array h where the output block's y sits: row 2000·t + y₀, column y₁. -/
theorem h_block (t : Fin cfg1.N) (y : S2000x128.Idx) :
    iblk1 V c 0 t y = V c (Pipeline.arrRef spec1 0) (((cfg1.win 5).blk t).view.emb y) := by
  obtain ⟨a0, a1, b0, b1⟩ := idx_blocks t
  show V c (Pipeline.arrRef spec1 0) (((cfg1.win 0).blk t).view.emb y) = V c (Pipeline.arrRef spec1 0) (((cfg1.win 5).blk t).view.emb y)
  refine congrArg (V c (Pipeline.arrRef spec1 0)) (funext fun a => Fin.ext ?_)
  match a with
  | ⟨0, _⟩ => show win1_0.index t (0 : Fin 2) * 2000 + 1 * (y 0).val = win1_5.index t (0 : Fin 2) * 2000 + 1 * (y 0).val; rw [a0, b0]
  | ⟨1, _⟩ => show win1_0.index t (1 : Fin 2) * 128 + 1 * (y 1).val = win1_5.index t (1 : Fin 2) * 128 + 1 * (y 1).val; rw [a1, b1]

/-- The output block's y sits in column y₁ of the array. -/
theorem out_column (t : Fin cfg1.N) (y : S2000x128.Idx) : ((((cfg1.win 5).blk t).view.emb y) 1).val = (y 1).val := by
  obtain ⟨a0, a1, b0, b1⟩ := idx_blocks t
  show win1_5.index t (1 : Fin 2) * 128 + 1 * (y 1).val = (y 1).val
  rw [b1]; omega

/-- The block of μ at any point is the row μ. -/
theorem mean_block (t : Fin cfg1.N) (j : Fin 128) :
    iblk1 V c 1 t (ix2 (0 : Fin 1) j) = V c (Pipeline.arrRef spec1 1) (ix2 (0 : Fin 1) j) := by
  obtain ⟨e0, e1⟩ := idx_mean t
  show V c (Pipeline.arrRef spec1 1) (((cfg1.win 1).blk t).view.emb (ix2 (0 : Fin 1) j)) = V c (Pipeline.arrRef spec1 1) (ix2 (0 : Fin 1) j)
  refine congrArg (V c (Pipeline.arrRef spec1 1)) (funext fun a => Fin.ext ?_)
  match a with
  | ⟨0, _⟩ => show win1_1.index t (0 : Fin 2) * 1 + 1 * 0 = 0; rw [e0]
  | ⟨1, _⟩ => show win1_1.index t (1 : Fin 2) * 128 + 1 * j.val = j.val; rw [e1]; omega

/-- The block of σ at any point is the row σ. -/
theorem sigma_block (t : Fin cfg1.N) (j : Fin 128) :
    iblk1 V c 2 t (ix2 (0 : Fin 1) j) = V c (Pipeline.arrRef spec1 2) (ix2 (0 : Fin 1) j) := by
  obtain ⟨e0, e1⟩ := idx_sigma t
  show V c (Pipeline.arrRef spec1 2) (((cfg1.win 2).blk t).view.emb (ix2 (0 : Fin 1) j)) = V c (Pipeline.arrRef spec1 2) (ix2 (0 : Fin 1) j)
  refine congrArg (V c (Pipeline.arrRef spec1 2)) (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

/-- The block of γ at any point is the row γ. -/
theorem gamma_block (t : Fin cfg1.N) (j : Fin 128) :
    iblk1 V c 3 t (ix2 (0 : Fin 1) j) = V c (Pipeline.arrRef spec1 3) (ix2 (0 : Fin 1) j) := by
  obtain ⟨e0, e1⟩ := idx_gamma t
  show V c (Pipeline.arrRef spec1 3) (((cfg1.win 3).blk t).view.emb (ix2 (0 : Fin 1) j)) = V c (Pipeline.arrRef spec1 3) (ix2 (0 : Fin 1) j)
  refine congrArg (V c (Pipeline.arrRef spec1 3)) (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- The block of β at any point is the row β. -/
theorem beta_block (t : Fin cfg1.N) (j : Fin 128) :
    iblk1 V c 4 t (ix2 (0 : Fin 1) j) = V c (Pipeline.arrRef spec1 4) (ix2 (0 : Fin 1) j) := by
  obtain ⟨e0, e1⟩ := idx_beta t
  show V c (Pipeline.arrRef spec1 4) (((cfg1.win 4).blk t).view.emb (ix2 (0 : Fin 1) j)) = V c (Pipeline.arrRef spec1 4) (ix2 (0 : Fin 1) j)
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

/-- What point t writes back is block t of the normalised, scaled, shifted, rectified array. -/
theorem flushed_eq (t : Fin cfg1.N) :
    (dat1 (F := Ideal) V c).flushed 5 t = ((cfg1.win 5).blk t).view.read (Elt Ideal)
      (Cert.Sage.bn (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5, out_eq]
  funext y
  exact pay_block (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) y (((cfg1.win 5).blk t).view.emb y)
    (h_block V c t y) (out_column t y) (mean_block V c t) (sigma_block V c t) (gamma_block V c t) (beta_block V c t)

/-- An index of the array is in point t's output block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v50).slice (win1_5.rect t)).set ↔ _
  rw [View.set_slice_whole, Rect.mem_set_unit]
  exact Iff.rfl

/-- The 25 blocks of 2000 rows tile the 50000 rows: row r lies in block r / 2000. -/
theorem cover (i : S50000x128.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  have ht : (i 0).val / 2000 < cfg1.N := by omega
  obtain ⟨_, _, b0, b1⟩ := idx_blocks ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [b0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [b1]; omega

/-- The output array after the last point: the normalised, scaled, shifted, rectified array of the five input arrays
    as the region finds them. -/
theorem final : (dat1 (F := Ideal) V c).arrAt 5 cfg1.N
    = Cert.Sage.bn (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5
    (Cert.Sage.bn (V c (Pipeline.arrRef spec1 0)) (V c (Pipeline.arrRef spec1 1)) (V c (Pipeline.arrRef spec1 2))
        (V c (Pipeline.arrRef spec1 3)) (V c (Pipeline.arrRef spec1 4)))
    (fun t _ => flushed_eq V c t) cover

end Cert.KernelIdeal.Bn1

end
-- ==== Proof.Bn3.lean ====
/-
  The rectified batch normalisation with the residual term, read off its row blocks.

  The arrays h, x : [50000, 128] are cut into 25 blocks of 2000 rows. At block t the body reads rows
  2000·t … 2000·t + 1999 of h and of x and the four parameter rows μ, σ, γ, β : [1, 128] whole, and writes, at (p, j)
  of the block,

      max (γ (0, j) · (h (2000·t + p, j) − μ (0, j)) · σ (0, j) + β (0, j), 0) + x (2000·t + p, j).

  That is entry (2000·t + p, j) of `Cert.Sage.bnRes h μ σ γ β x`: each written block is the corresponding block of that
  one array, and the 25 blocks tile the 50000 rows (row r lies in block r / 2000), so the output array ends holding it.
-/
import proofs.«154196_j84232898609317_1_alg».proof.Proof.Gen.KernelIdeal.Frame
import proofs.«154196_j84232898609317_1_alg».proof.Proof.Spec
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Bn3

open Cert.KernelIdeal Cert.KernelIdeal.Gen

/-- The zero offsets of a whole-block access, as a constant function. -/
theorem zero_offsets : (![0, 0] : Fin 2 → Nat) = fun _ => 0 := funext fun a => by fin_cases a <;> rfl

/-- The block's arithmetic at (p, j): the parameter rows are read at column j, the two data blocks at (p, j), and the
    rectifier's zero is the extended real 0. -/
theorem pay_apply (g : Vec Ideal S1x128 .f32) (h : Vec Ideal S2000x128 .f32) (mu sg be : Vec Ideal S1x128 .f32)
    (x : Vec Ideal S2000x128 .f32) (p : Fin 2000) (j : Fin 128) :
    k3_pay1 g h mu sg be x (ix2 p j)
      = max (g (ix2 (0 : Fin 1) j) * (h (ix2 p j) - mu (ix2 (0 : Fin 1) j)) * sg (ix2 (0 : Fin 1) j) + be (ix2 (0 : Fin 1) j)) 0
        + x (ix2 p j) := by
  unfold k3_pay1
  simp only [shapeCast_self]
  rw [addf_apply, maximumf_apply, addf_apply, mulf_apply, mulf_apply, subf_apply, broadcast_apply]
  rw [broadcastTo_1b_ab_apply g, broadcastTo_1b_ab_apply mu, broadcastTo_1b_ab_apply sg, broadcastTo_1b_ab_apply be]
  rw [show (FloatOps.ofBits FTy.f32 0x00000000#32 : Ideal .f32) = 0 from Ideal.ofBits_zero_f32]

/-- What the body leaves in the output block: its one whole-block store of the arithmetic of its six whole-block
    loads (γ, h, μ, σ, β, x in the order the body reads them; the blocks arrive in the order h, μ, σ, γ, β, x). -/
theorem out_eq (x0 : Vec Ideal S2000x128 .f32) (x1 x2 x3 x4 : Vec Ideal S1x128 .f32) (x5 : Vec Ideal S2000x128 .f32) :
    out3_6 x0 x1 x2 x3 x4 x5 = k3_pay1 x3 x0 x1 x2 x4 x5 := by
  unfold out3_6
  rw [View.canon_unit_zero zero_offsets]
  simp only [View.ld_unit_zero (S := S1x128) zero_offsets, View.ld_unit_zero (S := S2000x128) zero_offsets]

/-- If the two data blocks at y are the arrays h and x at i, with the same column, and the four row blocks are the rows
    μ, σ, γ, β, then the block's arithmetic at y is the normalised, scaled, shifted, rectified array plus x, at i. -/
theorem pay_block (H : FVec Ideal Cert.Sage.SNH .f32) (M S G B : FVec Ideal Cert.Sage.S1H .f32) (X : FVec Ideal Cert.Sage.SNH .f32)
    (x0 : Vec Ideal S2000x128 .f32) (x1 x2 x3 x4 : Vec Ideal S1x128 .f32) (x5 : Vec Ideal S2000x128 .f32)
    (y : S2000x128.Idx) (i : Cert.Sage.SNH.Idx)
    (e0 : x0 y = H i) (e5 : x5 y = X i) (hj : (i 1).val = (y 1).val)
    (e1 : ∀ j : Fin 128, x1 (ix2 (0 : Fin 1) j) = M (ix2 (0 : Fin 1) j))
    (e2 : ∀ j : Fin 128, x2 (ix2 (0 : Fin 1) j) = S (ix2 (0 : Fin 1) j))
    (e3 : ∀ j : Fin 128, x3 (ix2 (0 : Fin 1) j) = G (ix2 (0 : Fin 1) j))
    (e4 : ∀ j : Fin 128, x4 (ix2 (0 : Fin 1) j) = B (ix2 (0 : Fin 1) j)) :
    k3_pay1 x3 x0 x1 x2 x4 x5 y = Cert.Sage.bnRes H M S G B X i := by
  obtain ⟨p, j, rfl⟩ : ∃ (p : Fin 2000) (j : Fin 128), y = ix2 p j := ⟨y 0, y 1, eq_ix2 y⟩
  obtain ⟨r, j', rfl⟩ : ∃ (r : Fin 50000) (j' : Fin 128), i = ix2 r j' := ⟨i 0, i 1, eq_ix2 i⟩
  obtain rfl : j' = j := Fin.ext hj
  rw [pay_apply, Cert.Sage.bnRes_ix2]
  unfold Cert.Sage.bnAt
  rw [e0, e5, e1, e2, e3, e4]

/-- At point t the two data windows and the output window all sit at block row t, block column 0. -/
theorem idx_blocks : ∀ t : Fin cfg3.N,
    win3_0.index t (0 : Fin 2) = t.val ∧ win3_0.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The window of μ is the whole row at every point. -/
theorem idx_mean : ∀ t : Fin cfg3.N, win3_1.index t (0 : Fin 2) = 0 ∧ win3_1.index t (1 : Fin 2) = 0 :=
  (by decide +kernel : ∀ t : Fin grid3.N, _)

/-- The window of σ is the whole row at every point. -/
theorem idx_sigma : ∀ t : Fin cfg3.N, win3_2.index t (0 : Fin 2) = 0 ∧ win3_2.index t (1 : Fin 2) = 0 :=
  (by decide +kernel : ∀ t : Fin grid3.N, _)

/-- The window of γ is the whole row at every point. -/
theorem idx_gamma : ∀ t : Fin cfg3.N, win3_3.index t (0 : Fin 2) = 0 ∧ win3_3.index t (1 : Fin 2) = 0 :=
  (by decide +kernel : ∀ t : Fin grid3.N, _)

/-- The window of β is the whole row at every point. -/
theorem idx_beta : ∀ t : Fin cfg3.N, win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- The block of h at point t, at y, is the array h where the output block's y sits: row 2000·t + y₀, column y₁. -/
theorem h_block (t : Fin cfg3.N) (y : S2000x128.Idx) :
    iblk3 V c 0 t y = V c (Pipeline.arrRef spec3 0) (((cfg3.win 6).blk t).view.emb y) := by
  obtain ⟨a0, a1, _, _, b0, b1⟩ := idx_blocks t
  show V c (Pipeline.arrRef spec3 0) (((cfg3.win 0).blk t).view.emb y) = V c (Pipeline.arrRef spec3 0) (((cfg3.win 6).blk t).view.emb y)
  refine congrArg (V c (Pipeline.arrRef spec3 0)) (funext fun a => Fin.ext ?_)
  match a with
  | ⟨0, _⟩ => show win3_0.index t (0 : Fin 2) * 2000 + 1 * (y 0).val = win3_6.index t (0 : Fin 2) * 2000 + 1 * (y 0).val; rw [a0, b0]
  | ⟨1, _⟩ => show win3_0.index t (1 : Fin 2) * 128 + 1 * (y 1).val = win3_6.index t (1 : Fin 2) * 128 + 1 * (y 1).val; rw [a1, b1]

/-- The block of x at point t, at y, is the array x where the output block's y sits. -/
theorem x_block (t : Fin cfg3.N) (y : S2000x128.Idx) :
    iblk3 V c 5 t y = V c (Pipeline.arrRef spec3 5) (((cfg3.win 6).blk t).view.emb y) := by
  obtain ⟨_, _, a0, a1, b0, b1⟩ := idx_blocks t
  show V c (Pipeline.arrRef spec3 5) (((cfg3.win 5).blk t).view.emb y) = V c (Pipeline.arrRef spec3 5) (((cfg3.win 6).blk t).view.emb y)
  refine congrArg (V c (Pipeline.arrRef spec3 5)) (funext fun a => Fin.ext ?_)
  match a with
  | ⟨0, _⟩ => show win3_5.index t (0 : Fin 2) * 2000 + 1 * (y 0).val = win3_6.index t (0 : Fin 2) * 2000 + 1 * (y 0).val; rw [a0, b0]
  | ⟨1, _⟩ => show win3_5.index t (1 : Fin 2) * 128 + 1 * (y 1).val = win3_6.index t (1 : Fin 2) * 128 + 1 * (y 1).val; rw [a1, b1]

/-- The output block's y sits in column y₁ of the array. -/
theorem out_column (t : Fin cfg3.N) (y : S2000x128.Idx) : ((((cfg3.win 6).blk t).view.emb y) 1).val = (y 1).val := by
  obtain ⟨_, _, _, _, b0, b1⟩ := idx_blocks t
  show win3_6.index t (1 : Fin 2) * 128 + 1 * (y 1).val = (y 1).val
  rw [b1]; omega

/-- The block of μ at any point is the row μ. -/
theorem mean_block (t : Fin cfg3.N) (j : Fin 128) :
    iblk3 V c 1 t (ix2 (0 : Fin 1) j) = V c (Pipeline.arrRef spec3 1) (ix2 (0 : Fin 1) j) := by
  obtain ⟨e0, e1⟩ := idx_mean t
  show V c (Pipeline.arrRef spec3 1) (((cfg3.win 1).blk t).view.emb (ix2 (0 : Fin 1) j)) = V c (Pipeline.arrRef spec3 1) (ix2 (0 : Fin 1) j)
  refine congrArg (V c (Pipeline.arrRef spec3 1)) (funext fun a => Fin.ext ?_)
  match a with
  | ⟨0, _⟩ => show win3_1.index t (0 : Fin 2) * 1 + 1 * 0 = 0; rw [e0]
  | ⟨1, _⟩ => show win3_1.index t (1 : Fin 2) * 128 + 1 * j.val = j.val; rw [e1]; omega

/-- The block of σ at any point is the row σ. -/
theorem sigma_block (t : Fin cfg3.N) (j : Fin 128) :
    iblk3 V c 2 t (ix2 (0 : Fin 1) j) = V c (Pipeline.arrRef spec3 2) (ix2 (0 : Fin 1) j) := by
  obtain ⟨e0, e1⟩ := idx_sigma t
  show V c (Pipeline.arrRef spec3 2) (((cfg3.win 2).blk t).view.emb (ix2 (0 : Fin 1) j)) = V c (Pipeline.arrRef spec3 2) (ix2 (0 : Fin 1) j)
  refine congrArg (V c (Pipeline.arrRef spec3 2)) (funext fun a => Fin.ext ?_)
  match a with
  | ⟨0, _⟩ => show win3_2.index t (0 : Fin 2) * 1 + 1 * 0 = 0; rw [e0]
  | ⟨1, _⟩ => show win3_2.index t (1 : Fin 2) * 128 + 1 * j.val = j.val; rw [e1]; omega

/-- The block of γ at any point is the row γ. -/
theorem gamma_block (t : Fin cfg3.N) (j : Fin 128) :
    iblk3 V c 3 t (ix2 (0 : Fin 1) j) = V c (Pipeline.arrRef spec3 3) (ix2 (0 : Fin 1) j) := by
  obtain ⟨e0, e1⟩ := idx_gamma t
  show V c (Pipeline.arrRef spec3 3) (((cfg3.win 3).blk t).view.emb (ix2 (0 : Fin 1) j)) = V c (Pipeline.arrRef spec3 3) (ix2 (0 : Fin 1) j)
  refine congrArg (V c (Pipeline.arrRef spec3 3)) (funext fun a => Fin.ext ?_)
  match a with
  | ⟨0, _⟩ => show win3_3.index t (0 : Fin 2) * 1 + 1 * 0 = 0; rw [e0]
  | ⟨1, _⟩ => show win3_3.index t (1 : Fin 2) * 128 + 1 * j.val = j.val; rw [e1]; omega

/-- The block of β at any point is the row β. -/
theorem beta_block (t : Fin cfg3.N) (j : Fin 128) :
    iblk3 V c 4 t (ix2 (0 : Fin 1) j) = V c (Pipeline.arrRef spec3 4) (ix2 (0 : Fin 1) j) := by
  obtain ⟨e0, e1⟩ := idx_beta t
  show V c (Pipeline.arrRef spec3 4) (((cfg3.win 4).blk t).view.emb (ix2 (0 : Fin 1) j)) = V c (Pipeline.arrRef spec3 4) (ix2 (0 : Fin 1) j)
  refine congrArg (V c (Pipeline.arrRef spec3 4)) (funext fun a => Fin.ext ?_)
  match a with
  | ⟨0, _⟩ => show win3_4.index t (0 : Fin 2) * 1 + 1 * 0 = 0; rw [e0]
  | ⟨1, _⟩ => show win3_4.index t (1 : Fin 2) * 128 + 1 * j.val = j.val; rw [e1]; omega

/-- What point t writes back is block t of the normalised, scaled, shifted, rectified array plus x. -/
theorem flushed_eq (t : Fin cfg3.N) :
    (dat3 (F := Ideal) V c).flushed 6 t = ((cfg3.win 6).blk t).view.read (Elt Ideal)
      (Cert.Sage.bnRes (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6, out_eq]
  funext y
  exact pay_block (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (iblk3 V c 0 t) (iblk3 V c 1 t) (iblk3 V c 2 t) (iblk3 V c 3 t) (iblk3 V c 4 t) (iblk3 V c 5 t)
    y (((cfg3.win 6).blk t).view.emb y)
    (h_block V c t y) (x_block V c t y) (out_column t y)
    (mean_block V c t) (sigma_block V c t) (gamma_block V c t) (beta_block V c t)

/-- An index of the array is in point t's output block iff each coordinate is in the block's range on its axis. -/
theorem mem_blk (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v86).slice (win3_6.rect t)).set ↔ _
  rw [View.set_slice_whole, Rect.mem_set_unit]
  exact Iff.rfl

/-- The 25 blocks of 2000 rows tile the 50000 rows: row r lies in block r / 2000. -/
theorem cover (i : S50000x128.Idx) :
    ∃ t : Fin cfg3.N, (cfg3.win 6).flush t = true ∧ i ∈ ((cfg3.win 6).blk t).view.set := by
  have hN : cfg3.N = 25 := N_3
  have hi0 : (i 0).val < 50000 := (i 0).isLt
  have hi1 : (i 1).val < 128 := (i 1).isLt
  have ht : (i 0).val / 2000 < cfg3.N := by omega
  obtain ⟨_, _, _, _, b0, b1⟩ := idx_blocks ⟨(i 0).val / 2000, ht⟩
  refine ⟨⟨(i 0).val / 2000, ht⟩, flush3_6 _, ?_⟩
  rw [mem_blk]
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    rw [b0]; show (i 0).val / 2000 * 2000 ≤ (i 0).val ∧ (i 0).val < (i 0).val / 2000 * 2000 + 2000; omega
  | ⟨1, _⟩ =>
    show win3_6.index ⟨(i 0).val / 2000, ht⟩ (1 : Fin 2) * 128 ≤ (i 1).val ∧ (i 1).val < win3_6.index ⟨(i 0).val / 2000, ht⟩ (1 : Fin 2) * 128 + 128
    rw [b1]; omega

/-- The output array after the last point: the normalised, scaled, shifted, rectified array plus x, of the six input
    arrays as the region finds them. -/
theorem final : (dat3 (F := Ideal) V c).arrAt 6 cfg3.N
    = Cert.Sage.bnRes (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 (F := Ideal) V c).arrAt_eq_of_cover 6
    (Cert.Sage.bnRes (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)))
    (fun t _ => flushed_eq V c t) cover

end Cert.KernelIdeal.Bn3

end
-- ==== Proof.Bn5.lean ====
/-
  The rectified batch normalisation with the residual term, read off its row blocks.

  The arrays h, x : [50000, 128] are cut into 25 blocks of 2000 rows. At block t the body reads rows
  2000·t … 2000·t + 1999 of h and of x and the four parameter rows μ, σ, γ, β : [1, 128] whole, and writes, at (p, j)
  of the block,

      max (γ (0, j) · (h (2000·t + p, j) − μ (0, j)) · σ (0, j) + β (0, j), 0) + x (2000·t + p, j).

  That is entry (2000·t + p, j) of `Cert.Sage.bnRes h μ σ γ β x`: each written block is the corresponding block of that
  one array, and the 25 blocks tile the 50000 rows (row r lies in block r / 2000), so the output array ends holding it.
-/
import proofs.«154196_j84232898609317_1_alg».proof.Proof.Gen.KernelIdeal.Frame
import proofs.«154196_j84232898609317_1_alg».proof.Proof.Spec
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Bn5

open Cert.KernelIdeal Cert.KernelIdeal.Gen

/-- The zero offsets of a whole-block access, as a constant function. -/
theorem zero_offsets : (![0, 0] : Fin 2 → Nat) = fun _ => 0 := funext fun a => by fin_cases a <;> rfl

/-- The block's arithmetic at (p, j): the parameter rows are read at column j, the two data blocks at (p, j), and the
    rectifier's zero is the extended real 0. -/
theorem pay_apply (g : Vec Ideal S1x128 .f32) (h : Vec Ideal S2000x128 .f32) (mu sg be : Vec Ideal S1x128 .f32)
    (x : Vec Ideal S2000x128 .f32) (p : Fin 2000) (j : Fin 128) :
    k5_pay1 g h mu sg be x (ix2 p j)
      = max (g (ix2 (0 : Fin 1) j) * (h (ix2 p j) - mu (ix2 (0 : Fin 1) j)) * sg (ix2 (0 : Fin 1) j) + be (ix2 (0 : Fin 1) j)) 0
        + x (ix2 p j) := by
  unfold k5_pay1
  simp only [shapeCast_self]
  rw [addf_apply, maximumf_apply, addf_apply, mulf_apply, mulf_apply, subf_apply, broadcast_apply]
  rw [broadcastTo_1b_ab_apply g, broadcastTo_1b_ab_apply mu, broadcastTo_1b_ab_apply sg, broadcastTo_1b_ab_apply be]
  rw [show (FloatOps.ofBits FTy.f32 0x00000000#32 : Ideal .f32) = 0 from Ideal.ofBits_zero_f32]

/-- What the body leaves in the output block: its one whole-block store of the arithmetic of its six whole-block
    loads (γ, h, μ, σ, β, x in the order the body reads them; the blocks arrive in the order h, μ, σ, γ, β, x). -/
theorem out_eq (x0 : Vec Ideal S2000x128 .f32) (x1 x2 x3 x4 : Vec Ideal S1x128 .f32) (x5 : Vec Ideal S2000x128 .f32) :
    out5_6 x0 x1 x2 x3 x4 x5 = k5_pay1 x3 x0 x1 x2 x4 x5 := by
  unfold out5_6
  rw [View.canon_unit_zero zero_offsets]
  simp only [View.ld_unit_zero (S := S1x128) zero_offsets, View.ld_unit_zero (S := S2000x128) zero_offsets]

/-- If the two data blocks at y are the arrays h and x at i, with the same column, and the four row blocks are the rows
    μ, σ, γ, β, then the block's arithmetic at y is the normalised, scaled, shifted, rectified array plus x, at i. -/
theorem pay_block (H : FVec Ideal Cert.Sage.SNH .f32) (M S G B : FVec Ideal Cert.Sage.S1H .f32) (X : FVec Ideal Cert.Sage.SNH .f32)
    (x0 : Vec Ideal S2000x128 .f32) (x1 x2 x3 x4 : Vec Ideal S1x128 .f32) (x5 : Vec Ideal S2000x128 .f32)
    (y : S2000x128.Idx) (i : Cert.Sage.SNH.Idx)
    (e0 : x0 y = H i) (e5 : x5 y = X i) (hj : (i 1).val = (y 1).val)
    (e1 : ∀ j : Fin 128, x1 (ix2 (0 : Fin 1) j) = M (ix2 (0 : Fin 1) j))
    (e2 : ∀ j : Fin 128, x2 (ix2 (0 : Fin 1) j) = S (ix2 (0 : Fin 1) j))
    (e3 : ∀ j : Fin 128, x3 (ix2 (0 : Fin 1) j) = G (ix2 (0 : Fin 1) j))
    (e4 : ∀ j : Fin 128, x4 (ix2 (0 : Fin 1) j) = B (ix2 (0 : Fin 1) j)) :
    k5_pay1 x3 x0 x1 x2 x4 x5 y = Cert.Sage.bnRes H M S G B X i := by
  obtain ⟨p, j, rfl⟩ : ∃ (p : Fin 2000) (j : Fin 128), y = ix2 p j := ⟨y 0, y 1, eq_ix2 y⟩
  obtain ⟨r, j', rfl⟩ : ∃ (r : Fin 50000) (j' : Fin 128), i = ix2 r j' := ⟨i 0, i 1, eq_ix2 i⟩
  obtain rfl : j' = j := Fin.ext hj
  rw [pay_apply, Cert.Sage.bnRes_ix2]
  unfold Cert.Sage.bnAt
  rw [e0, e5, e1, e2, e3, e4]

/-- At point t the two data windows and the output window all sit at block row t, block column 0. -/
theorem idx_blocks : ∀ t : Fin cfg5.N,
    win5_0.index t (0 : Fin 2) = t.val ∧ win5_0.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- The window of μ is the whole row at every point. -/
theorem idx_mean : ∀ t : Fin cfg5.N, win5_1.index t (0 : Fin 2) = 0 ∧ win5_1.index t (1 : Fin 2) = 0 :=
  (by decide +kernel : ∀ t : Fin grid5.N, _)

/-- The window of σ is the whole row at every point. -/
theorem idx_sigma : ∀ t : Fin cfg5.N, win5_2.index t (0 : Fin 2) = 0 ∧ win5_2.index t (1 : Fin 2) = 0 :=
  (by decide +kernel : ∀ t : Fin grid5.N, _)

/-- The window of γ is the whole row at every point. -/
theorem idx_gamma : ∀ t : Fin cfg5.N, win5_3.index t (0 : Fin 2) = 0 ∧ win5_3.index t (1 : Fin 2) = 0 :=
  (by decide +kernel : ∀ t : Fin grid5.N, _)

/-- The window of β is the whole row at every point. -/
theorem idx_beta : ∀ t : Fin cfg5.N, win5_4.index t (0 : Fin 2) = 0 ∧ win5_4.index t (1 : Fin 2) = 0 :=
  (by decide +kernel : ∀ t : Fin grid5.N, _)

variable (V : (c : Dev nD) → (b : Ref sig .tc) → Buf (Elt Ideal) ((c : Thread nD τ).loc b)) (c : Dev nD)

/-- The block of h at point t, at y, is the array h where the output block's y sits: row 2000·t + y₀, column y₁. -/
theorem h_block (t : Fin cfg5.N) (y : S2000x128.Idx) :
    iblk5 V c 0 t y = V c (Pipeline.arrRef spec5 0) (((cfg5.win 6).blk t).view.emb y) := by
  obtain ⟨a0, a1, _, _, b0, b1⟩ := idx_blocks t
  show V c (Pipeline.arrRef spec5 0) (((cfg5.win 0).blk t).view.emb y) = V c (Pipeline.arrRef spec5 0) (((cfg5.win 6).blk t).view.emb y)
  refine congrArg (V c (Pipeline.arrRef spec5 0)) (funext fun a => Fin.ext ?_)
  match a with
  | ⟨0, _⟩ => show win5_0.index t (0 : Fin 2) * 2000 + 1 * (y 0).val = win5_6.index t (0 : Fin 2) * 2000 + 1 * (y 0).val; rw [a0, b0]
  | ⟨1, _⟩ => show win5_0.index t (1 : Fin 2) * 128 + 1 * (y 1).val = win5_6.index t (1 : Fin 2) * 128 + 1 * (y 1).val; rw [a1, b1]

/-- The block of x at point t, at y, is the array x where the output block's y sits. -/
theorem x_block (t : Fin cfg5.N) (y : S2000x128.Idx) :
    iblk5 V c 5 t y = V c (Pipeline.arrRef spec5 5) (((cfg5.win 6).blk t).view.emb y) := by
  obtain ⟨_, _, a0, a1, b0, b1⟩ := idx_blocks t
  show V c (Pipeline.arrRef spec5 5) (((cfg5.win 5).blk t).view.emb y) = V c (Pipeline.arrRef spec5 5) (((cfg5.win 6).blk t).view.emb y)
  refine congrArg (V c (Pipeline.arrRef spec5 5)) (funext fun a => Fin.ext ?_)
  match a with
  | ⟨0, _⟩ => show win5_5.index t (0 : Fin 2) * 2000 + 1 * (y 0).val = win5_6.index t (0 : Fin 2) * 2000 + 1 * (y 0).val; rw [a0, b0]
  | ⟨1, _⟩ => show win5_5.index t (1 : Fin 2) * 128 + 1 * (y 1).val = win5_6.index t (1 : Fin 2) * 128 + 1 * (y 1).val; rw [a1, b1]

/-- The output block's y sits in column y₁ of the array. -/
theorem out_column (t : Fin cfg5.N) (y : S2000x128.Idx) : ((((cfg5.win 6).blk t).view.emb y) 1).val = (y 1).val := by
  obtain ⟨_, _, _, _, b0, b1⟩ := idx_blocks t
  show win5_6.index t (1 : Fin 2) * 128 + 1 * (y 1).val = (y 1).val
  rw [b1]; omega

/-- The block of μ at any point is the row μ. -/
theorem mean_block (t : Fin cfg5.N) (j : Fin 128) :
    iblk5 V c 1 t (ix2 (0 : Fin 1) j) = V c (Pipeline.arrRef spec5 1) (ix2 (0 : Fin 1) j) := by
  obtain ⟨e0, e1⟩ := idx_mean t
  show V c (Pipeline.arrRef spec5 1) (((cfg5.win 1).blk t).view.emb (ix2 (0 : Fin 1) j)) = V c (Pipeline.arrRef spec5 1) (ix2 (0 : Fin 1) j)
  refine congrArg (V c (Pipeline.arrRef spec5 1)) (funext fun a => Fin.ext ?_)
  match a with
  | ⟨0, _⟩ => show win5_1.index t (0 : Fin 2) * 1 + 1 * 0 = 0; rw [e0]
  | ⟨1, _⟩ => show win5_1.index t (1 : Fin 2) * 128 + 1 * j.val = j.val; rw [e1]; omega

/-- The block of σ at any point is the row σ. -/
theorem sigma_block (t : Fin cfg5.N) (j : Fin 128) :
    iblk5 V c 2 t (ix2 (0 : Fin 1) j) = V c (Pipeline.arrRef spec5 2) (ix2 (0 : Fin 1) j) := by
  obtain ⟨e0, e1⟩ := idx_sigma t
  show V c (Pipeline.arrRef spec5 2) (((cfg5.win 2).blk t).view.emb (ix2 (0 : Fin 1) j)) = V c (Pipeline.arrRef spec5 2) (ix2 (0 : Fin 1) j)
  refine congrArg (V c (Pipeline.arrRef spec5 2)) (funext fun a => Fin.ext ?_)
  match a with
  | ⟨0, _⟩ => show win5_2.index t (0 : Fin 2) * 1 + 1 * 0 = 0; rw [e0]
  | ⟨1, _⟩ => show win5_2.index t (1 : Fin 2) * 128 + 1 * j.val = j.val; rw [e1]; omega

/-- The block of γ at any point is the row γ. -/
theorem gamma_block (t : Fin cfg5.N) (j : Fin 128) :
    iblk5 V c 3 t (ix2 (0 : Fin 1) j) = V c (Pipeline.arrRef spec5 3) (ix2 (0 : Fin 1) j) := by
  obtain ⟨e0, e1⟩ := idx_gamma t
  show V c (Pipeline.arrRef spec5 3) (((cfg5.win 3).blk t).view.emb (ix2 (0 : Fin 1) j)) = V c (Pipeline.arrRef spec5 3) (ix2 (0 : Fin 1) j)
  refine congrArg (V c (Pipeline.arrRef spec5 3)) (funext fun a => Fin.ext ?_)
  match a with
  | ⟨0, _⟩ => show win5_3.index t (0 : Fin 2) * 1 + 1 * 0 = 0; rw [e0]
  | ⟨1, _⟩ => show win5_3.index t (1 : Fin 2) * 128 + 1 * j.val = j.val; rw [e1]; omega

/-- The block of β at any point is the row β. -/
theorem beta_block (t : Fin cfg5.N) (j : Fin 128) :
    iblk5 V c 4 t (ix2 (0 : Fin 1) j) = V c (Pipeline.arrRef spec5 4) (ix2 (0 : Fin 1) j) := by
  obtain ⟨e0, e1⟩ := idx_beta t
  show V c (Pipeline.arrRef spec5 4) (((cfg5.win 4).blk t).view.emb (ix2 (0 : Fin 1) j)) = V c (Pipeline.arrRef spec5 4) (ix2 (0 : Fin 1) j)
  refine congrArg (V c (Pipeline.arrRef spec5 4)) (funext fun a => Fin.ext ?_)
  match a with
  | ⟨0, _⟩ => show win5_4.index t (0 : Fin 2) * 1 + 1 * 0 = 0; rw [e0]
  | ⟨1, _⟩ => show win5_4.index t (1 : Fin 2) * 128 + 1 * j.val = j.val; rw [e1]; omega

/-- What point t writes back is block t of the normalised, scaled, shifted, rectified array plus x. -/
theorem flushed_eq (t : Fin cfg5.N) :
    (dat5 (F := Ideal) V c).flushed 6 t = ((cfg5.win 6).blk t).view.read (Elt Ideal)
      (Cert.Sage.bnRes (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6, out_eq]
  funext y
  exact pay_block (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (iblk5 V c 0 t) (iblk5 V c 1 t) (iblk5 V c 2 t) (iblk5 V c 3 t) (iblk5 V c 4 t) (iblk5 V c 5 t)
    y (((cfg5.win 6).blk t).view.emb y)
    (h_block V c t y) (x_block V c t y) (out_column t y)
    (mean_block V c t) (sigma_block V c t) (gamma_block V c t) (beta_block V c t)

/-- An index of the array is in point t's output block iff each coordinate is in the block's range on its axis. -/
theorem mem_blk (t : Fin cfg5.N) (i : S50000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v122).slice (win5_6.rect t)).set ↔ _
  rw [View.set_slice_whole, Rect.mem_set_unit]
  exact Iff.rfl

/-- The 25 blocks of 2000 rows tile the 50000 rows: row r lies in block r / 2000. -/
theorem cover (i : S50000x128.Idx) :
    ∃ t : Fin cfg5.N, (cfg5.win 6).flush t = true ∧ i ∈ ((cfg5.win 6).blk t).view.set := by
  have hN : cfg5.N = 25 := N_5
  have hi0 : (i 0).val < 50000 := (i 0).isLt
  have hi1 : (i 1).val < 128 := (i 1).isLt
  have ht : (i 0).val / 2000 < cfg5.N := by omega
  obtain ⟨_, _, _, _, b0, b1⟩ := idx_blocks ⟨(i 0).val / 2000, ht⟩
  refine ⟨⟨(i 0).val / 2000, ht⟩, flush5_6 _, ?_⟩
  rw [mem_blk]
  intro a
  match a with
  | ⟨0, _⟩ =>
    show win5_6.index ⟨(i 0).val / 2000, ht⟩ (0 : Fin 2) * 2000 ≤ (i 0).val ∧ (i 0).val < win5_6.index ⟨(i 0).val / 2000, ht⟩ (0 : Fin 2) * 2000 + 2000
    rw [b0]; show (i 0).val / 2000 * 2000 ≤ (i 0).val ∧ (i 0).val < (i 0).val / 2000 * 2000 + 2000; omega
  | ⟨1, _⟩ =>
    show win5_6.index ⟨(i 0).val / 2000, ht⟩ (1 : Fin 2) * 128 ≤ (i 1).val ∧ (i 1).val < win5_6.index ⟨(i 0).val / 2000, ht⟩ (1 : Fin 2) * 128 + 128
    rw [b1]; omega

/-- The output array after the last point: the normalised, scaled, shifted, rectified array plus x, of the six input
    arrays as the region finds them. -/
theorem final : (dat5 (F := Ideal) V c).arrAt 6 cfg5.N
    = Cert.Sage.bnRes (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat5 (F := Ideal) V c).arrAt_eq_of_cover 6
    (Cert.Sage.bnRes (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)))
    (fun t _ => flushed_eq V c t) cover

end Cert.KernelIdeal.Bn5

end
-- ==== Proof.RefTerm.lean ====
/-
  The reference program's result as one composed term over its seven arguments: each definition is the composition,
  operation by operation in the printed order and with the printed records and literal words, of the whole-array
  functions the program's statements apply, at the extended-real instance.
-/
import proofs.«154196_j84232898609317_1_alg».proof.ReferenceIdeal
import Idealize.ShloMosaic.PureOps.Ideal

noncomputable section

namespace Cert.ReferenceIdeal.RefTerm

open Idealize.ShloMosaic Idealize.SL.Sem
open Cert.ReferenceIdeal Cert.ReferenceIdeal.Facts₀ Cert.ReferenceIdeal.Facts

variable [Facts]

/-- The edges' source nodes: row 0 of the edge array. -/
def src (e : IVec S2x800000 32) : IVec S800000 32 :=
  shapeCast S800000 (extractStridedSlice S1x800000 ![0, 0] e slices_S2x800000_S1x800000_0_0) shapeCasts_S1x800000_S800000

/-- The edges' destination nodes: row 1 of the edge array. -/
def dst (e : IVec S2x800000 32) : IVec S800000 32 :=
  shapeCast S800000 (extractStridedSlice S1x800000 ![1, 0] e slices_S2x800000_S1x800000_1_0) shapeCasts_S1x800000_S800000

/-- The in-degree of every node: ones scattered and added at the destinations, into zeros. -/
def deg (e : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dst e))
    (broadcastInDim S800000 ![] bcast_S_S800000 (constant (F := Ideal) S_ .f32 0x3F800000#32))

/-- 1 / max(in-degree, 1), as a column. -/
def invDeg (e : IVec S2x800000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf (F := Ideal) (deg e) (broadcastInDim S50000 ![] bcast_S_S50000 (constant (F := Ideal) S_ .f32 0x3F800000#32))))

/-- The source nodes with a negative index wrapped around by the number of rows. -/
def srcN (e : IVec S2x800000 32) : IVec S800000 32 :=
  select (cmpi .slt (src e) (broadcastInDim S800000 ![] bcast_S_S800000 (constantI S_ 32 0#32)))
    (addi (src e) (broadcastInDim S800000 ![] bcast_S_S800000 (constantI S_ 32 50000#32))) (src e)

/-- The neighbour means: the source rows of y gathered, scattered and added at the destinations into zeros, times
    1 / max(in-degree, 1). -/
def agg (y : FVec Ideal S50000x128 .f32) (e : IVec S2x800000 32) : FVec Ideal S50000x128 .f32 :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (dst e))
      (Host.gather gather_S50000x128_S800000x1_S800000x128_1_0_n_n_0_1_1128 y
        (broadcastInDim S800000x1 ![0] bcast_S800000_S800000x1_0 (srcN e))))
    (broadcastInDim S50000x128 ![0, 1] bcast_S50000x1_S50000x128_0_1 (invDeg e))

/-- The column means of h: column sums (from the zero word) over the number of rows. -/
def meanOf (h : FVec Ideal S50000x128 .f32) : FVec Ideal S128 .f32 :=
  Host.divf (F := Ideal)
    (Host.reduceAdd (F := Ideal) h (constant (F := Ideal) S_ .f32 0x00000000#32) reducesTo_S50000x128_S128_d0 h_S_)
    (broadcastInDim S128 ![] bcast_S_S128 (constant (F := Ideal) S_ .f32 0x47435000#32))

/-- The divisor of the variance: the number of rows less the converted integer zero. -/
def varDiv : FVec Ideal S_ .f32 :=
  subf (F := Ideal) (constant (F := Ideal) S_ .f32 0x47435000#32) (sitofp (F := Ideal) .f32 (constantI S_ 32 0#32))

/-- The two-pass variance of h's columns: the sum of the squared deviations from the column mean over the divisor,
    or the not-a-number word where the divisor is not positive. -/
def varOf (h : FVec Ideal S50000x128 .f32) : FVec Ideal S128 .f32 :=
  select (broadcastInDim S128 ![] bcast_S_S128 (cmpf (F := Ideal) .ogt varDiv (constant (F := Ideal) S_ .f32 0x00000000#32)))
    (Host.divf (F := Ideal)
      (Host.reduceAdd (F := Ideal)
        (mulf (F := Ideal)
          (subf (F := Ideal) h
            (broadcastInDim S50000x128 ![0, 1] bcast_S1x128_S50000x128_0_1
              (Host.divf (F := Ideal)
                (broadcastInDim S1x128 ![1] bcast_S128_S1x128_1
                  (Host.reduceAdd (F := Ideal) h (constant (F := Ideal) S_ .f32 0x00000000#32) reducesTo_S50000x128_S128_d0 h_S_))
                (broadcastInDim S1x128 ![] bcast_S_S1x128 (constant (F := Ideal) S_ .f32 0x47435000#32)))))
          (subf (F := Ideal) h
            (broadcastInDim S50000x128 ![0, 1] bcast_S1x128_S50000x128_0_1
              (Host.divf (F := Ideal)
                (broadcastInDim S1x128 ![1] bcast_S128_S1x128_1
                  (Host.reduceAdd (F := Ideal) h (constant (F := Ideal) S_ .f32 0x00000000#32) reducesTo_S50000x128_S128_d0 h_S_))
                (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128 varDiv))
    (broadcastInDim S128 ![] bcast_S_S128 (id (constant (F := Ideal) S_ .f32 0x7FC00000#32)))

/-- Normalise h by its column mean and variance, scale by gm, shift by bt, rectify. -/
def bnRelu (h : FVec Ideal S50000x128 .f32) (gm bt : FVec Ideal S128 .f32) : FVec Ideal S50000x128 .f32 :=
  maximumf (F := Ideal)
    (addf (F := Ideal)
      (mulf (F := Ideal)
        (mulf (F := Ideal)
          (broadcastInDim S50000x128 ![0, 1] bcast_S1x128_S50000x128_0_1 (broadcastInDim S1x128 ![1] bcast_S128_S1x128_1 gm))
          (subf (F := Ideal) h
            (broadcastInDim S50000x128 ![0, 1] bcast_S1x128_S50000x128_0_1
              (broadcastInDim S1x128 ![1] bcast_S128_S1x128_1 (meanOf h)))))
        (broadcastInDim S50000x128 ![0, 1] bcast_S1x128_S50000x128_0_1
          (broadcastInDim S1x128 ![1] bcast_S128_S1x128_1
            (Host.rsqrt (F := Ideal)
              (addf (F := Ideal) (varOf h) (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 bt)))
    (broadcastInDim S50000x128 ![] bcast_S_S50000x128 (constant (F := Ideal) S_ .f32 0x00000000#32))

/-- Layer 0's pre-normalisation array: (agg · transpose(slice Wl 0) + bias row 0) + y · transpose(slice Wr 0). -/
def pre0 (y : FVec Ideal S50000x128 .f32) (e : IVec S2x800000 32) (Wl : FVec Ideal S3x128x128 .f32)
    (bl : FVec Ideal S3x128 .f32) (Wr : FVec Ideal S3x128x128 .f32) : FVec Ideal S50000x128 .f32 :=
  addf (F := Ideal)
    (addf (F := Ideal)
      (Host.dotGeneral (F := Ideal) dot_S50000x128_S128x128_S50000x128_1_0_0_1_n_n none (agg y e)
        (transpose S128x128 [1, 0]
          (shapeCast S128x128 (extractStridedSlice S1x128x128 ![0, 0, 0] Wl slices_S3x128x128_S1x128x128_0_0_0)
            shapeCasts_S1x128x128_S128x128)
          transposes_S128x128_S128x128_1_0))
      (broadcastInDim S50000x128 ![0, 1] bcast_S1x128_S50000x128_0_1
        (broadcastInDim S1x128 ![1] bcast_S128_S1x128_1
          (shapeCast S128 (extractStridedSlice S1x128 ![0, 0] bl slices_S3x128_S1x128_0_0) shapeCasts_S1x128_S128))))
    (Host.dotGeneral (F := Ideal) dot_S50000x128_S128x128_S50000x128_1_0_0_1_n_n none y
      (transpose S128x128 [1, 0]
        (shapeCast S128x128 (extractStridedSlice S1x128x128 ![0, 0, 0] Wr slices_S3x128x128_S1x128x128_0_0_0)
          shapeCasts_S1x128x128_S128x128)
        transposes_S128x128_S128x128_1_0))

/-- Layer 0: normalise the pre-normalisation array by its column mean and two-pass variance, scale by row 0 of g,
    shift by row 0 of b, rectify. -/
def layer0 (y : FVec Ideal S50000x128 .f32) (e : IVec S2x800000 32) (Wl : FVec Ideal S3x128x128 .f32)
    (bl : FVec Ideal S3x128 .f32) (Wr : FVec Ideal S3x128x128 .f32) (g b : FVec Ideal S3x128 .f32) :
    FVec Ideal S50000x128 .f32 :=
  bnRelu (pre0 y e Wl bl Wr)
    (shapeCast S128 (extractStridedSlice S1x128 ![0, 0] g slices_S3x128_S1x128_0_0) shapeCasts_S1x128_S128)
    (shapeCast S128 (extractStridedSlice S1x128 ![0, 0] b slices_S3x128_S1x128_0_0) shapeCasts_S1x128_S128)

/-- Layer 1's pre-normalisation array: (agg · transpose(slice Wl 1) + bias row 1) + y · transpose(slice Wr 1). -/
def pre1 (y : FVec Ideal S50000x128 .f32) (e : IVec S2x800000 32) (Wl : FVec Ideal S3x128x128 .f32)
    (bl : FVec Ideal S3x128 .f32) (Wr : FVec Ideal S3x128x128 .f32) : FVec Ideal S50000x128 .f32 :=
  addf (F := Ideal)
    (addf (F := Ideal)
      (Host.dotGeneral (F := Ideal) dot_S50000x128_S128x128_S50000x128_1_0_0_1_n_n none (agg y e)
        (transpose S128x128 [1, 0]
          (shapeCast S128x128 (extractStridedSlice S1x128x128 ![1, 0, 0] Wl slices_S3x128x128_S1x128x128_1_0_0)
            shapeCasts_S1x128x128_S128x128)
          transposes_S128x128_S128x128_1_0))
      (broadcastInDim S50000x128 ![0, 1] bcast_S1x128_S50000x128_0_1
        (broadcastInDim S1x128 ![1] bcast_S128_S1x128_1
          (shapeCast S128 (extractStridedSlice S1x128 ![1, 0] bl slices_S3x128_S1x128_1_0) shapeCasts_S1x128_S128))))
    (Host.dotGeneral (F := Ideal) dot_S50000x128_S128x128_S50000x128_1_0_0_1_n_n none y
      (transpose S128x128 [1, 0]
        (shapeCast S128x128 (extractStridedSlice S1x128x128 ![1, 0, 0] Wr slices_S3x128x128_S1x128x128_1_0_0)
          shapeCasts_S1x128x128_S128x128)
        transposes_S128x128_S128x128_1_0))

/-- Layer 1: normalise the pre-normalisation array by its column mean and two-pass variance, scale by row 1 of g,
    shift by row 1 of b, rectify, and add the layer's input back. -/
def layer1 (y : FVec Ideal S50000x128 .f32) (e : IVec S2x800000 32) (Wl : FVec Ideal S3x128x128 .f32)
    (bl : FVec Ideal S3x128 .f32) (Wr : FVec Ideal S3x128x128 .f32) (g b : FVec Ideal S3x128 .f32) :
    FVec Ideal S50000x128 .f32 :=
  addf (F := Ideal) (bnRelu (pre1 y e Wl bl Wr)
    (shapeCast S128 (extractStridedSlice S1x128 ![1, 0] g slices_S3x128_S1x128_1_0) shapeCasts_S1x128_S128)
    (shapeCast S128 (extractStridedSlice S1x128 ![1, 0] b slices_S3x128_S1x128_1_0) shapeCasts_S1x128_S128)) y

/-- Layer 2's pre-normalisation array: (agg · transpose(slice Wl 2) + bias row 2) + y · transpose(slice Wr 2). -/
def pre2 (y : FVec Ideal S50000x128 .f32) (e : IVec S2x800000 32) (Wl : FVec Ideal S3x128x128 .f32)
    (bl : FVec Ideal S3x128 .f32) (Wr : FVec Ideal S3x128x128 .f32) : FVec Ideal S50000x128 .f32 :=
  addf (F := Ideal)
    (addf (F := Ideal)
      (Host.dotGeneral (F := Ideal) dot_S50000x128_S128x128_S50000x128_1_0_0_1_n_n none (agg y e)
        (transpose S128x128 [1, 0]
          (shapeCast S128x128 (extractStridedSlice S1x128x128 ![2, 0, 0] Wl slices_S3x128x128_S1x128x128_2_0_0)
            shapeCasts_S1x128x128_S128x128)
          transposes_S128x128_S128x128_1_0))
      (broadcastInDim S50000x128 ![0, 1] bcast_S1x128_S50000x128_0_1
        (broadcastInDim S1x128 ![1] bcast_S128_S1x128_1
          (shapeCast S128 (extractStridedSlice S1x128 ![2, 0] bl slices_S3x128_S1x128_2_0) shapeCasts_S1x128_S128))))
    (Host.dotGeneral (F := Ideal) dot_S50000x128_S128x128_S50000x128_1_0_0_1_n_n none y
      (transpose S128x128 [1, 0]
        (shapeCast S128x128 (extractStridedSlice S1x128x128 ![2, 0, 0] Wr slices_S3x128x128_S1x128x128_2_0_0)
          shapeCasts_S1x128x128_S128x128)
        transposes_S128x128_S128x128_1_0))

/-- Layer 2: normalise the pre-normalisation array by its column mean and two-pass variance, scale by row 2 of g,
    shift by row 2 of b, rectify, and add the layer's input back. -/
def layer2 (y : FVec Ideal S50000x128 .f32) (e : IVec S2x800000 32) (Wl : FVec Ideal S3x128x128 .f32)
    (bl : FVec Ideal S3x128 .f32) (Wr : FVec Ideal S3x128x128 .f32) (g b : FVec Ideal S3x128 .f32) :
    FVec Ideal S50000x128 .f32 :=
  addf (F := Ideal) (bnRelu (pre2 y e Wl bl Wr)
    (shapeCast S128 (extractStridedSlice S1x128 ![2, 0] g slices_S3x128_S1x128_2_0) shapeCasts_S1x128_S128)
    (shapeCast S128 (extractStridedSlice S1x128 ![2, 0] b slices_S3x128_S1x128_2_0) shapeCasts_S1x128_S128)) y

/-- The whole network: three layers, the second and third with the residual connection. -/
def refNet (x : FVec Ideal S50000x128 .f32) (e : IVec S2x800000 32) (Wl : FVec Ideal S3x128x128 .f32)
    (bl : FVec Ideal S3x128 .f32) (Wr : FVec Ideal S3x128x128 .f32) (g b : FVec Ideal S3x128 .f32) :
    FVec Ideal S50000x128 .f32 :=
  layer2 (layer1 (layer0 x e Wl bl Wr g b) e Wl bl Wr g b) e Wl bl Wr g b

end Cert.ReferenceIdeal.RefTerm

end
-- ==== Proof.RefResult.lean ====
/-
  What the reference network's operations compute, read stretch by stretch. After each of the program's four stretches the
  buffers that a later stretch reads hold: the edge sources and destinations and the reciprocal in-degree column; a layer's
  centred pre-normalisation array, its two-pass column variance and its scale row; a layer's output. Each is read off the
  stretch's operations from what the previous stretch left, and is the matching piece of the composed network term; the
  arguments are never written. The last stretch's result buffer is the whole network applied to the arguments' launch contents.
-/
import proofs.«154196_j84232898609317_1_alg».proof.Proof.RefRun
import proofs.«154196_j84232898609317_1_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

section Values

variable (W : Valuation τ sig (Elt Ideal))

/-- The seven arguments' contents: node features, edge list, the two weight stacks and the bias, scale and shift stacks. -/
abbrev aX : FVec Ideal S50000x128 .f32 := W (Proc.devRef .tc main_arg0)
abbrev aE : IVec S2x800000 32 := W (Proc.devRef .tc main_arg1)
abbrev aWl : FVec Ideal S3x128x128 .f32 := W (Proc.devRef .tc main_arg2)
abbrev aBl : FVec Ideal S3x128 .f32 := W (Proc.devRef .tc main_arg3)
abbrev aWr : FVec Ideal S3x128x128 .f32 := W (Proc.devRef .tc main_arg4)
abbrev aG : FVec Ideal S3x128 .f32 := W (Proc.devRef .tc main_arg5)
abbrev aB : FVec Ideal S3x128 .f32 := W (Proc.devRef .tc main_arg6)

/-- The buffers' contents after the first 1 stretch. -/
def val1 : Valuation τ sig (Elt Ideal) := after (ops_part0 (F := Ideal)) W

theorem val1_main_arg0 : val1 W (no_index (Proc.devRef .tc main_arg0)) = W (Proc.devRef .tc main_arg0) :=
  (ops_part0_keep W main_arg0 (by decide))
theorem val1_main_arg1 : val1 W (no_index (Proc.devRef .tc main_arg1)) = W (Proc.devRef .tc main_arg1) :=
  (ops_part0_keep W main_arg1 (by decide))
theorem val1_main_arg2 : val1 W (no_index (Proc.devRef .tc main_arg2)) = W (Proc.devRef .tc main_arg2) :=
  (ops_part0_keep W main_arg2 (by decide))
theorem val1_main_arg3 : val1 W (no_index (Proc.devRef .tc main_arg3)) = W (Proc.devRef .tc main_arg3) :=
  (ops_part0_keep W main_arg3 (by decide))
theorem val1_main_arg4 : val1 W (no_index (Proc.devRef .tc main_arg4)) = W (Proc.devRef .tc main_arg4) :=
  (ops_part0_keep W main_arg4 (by decide))
theorem val1_main_arg5 : val1 W (no_index (Proc.devRef .tc main_arg5)) = W (Proc.devRef .tc main_arg5) :=
  (ops_part0_keep W main_arg5 (by decide))
theorem val1_main_arg6 : val1 W (no_index (Proc.devRef .tc main_arg6)) = W (Proc.devRef .tc main_arg6) :=
  (ops_part0_keep W main_arg6 (by decide))

set_option maxRecDepth 8192 in
theorem val1_main_v1 : val1 W (no_index (Proc.devRef .tc main_v1)) = RefTerm.src (aE W) := by
  unfold val1
  simp only [ops_part0]
  after_results_simp
  rfl

set_option maxRecDepth 8192 in
theorem val1_main_v3 : val1 W (no_index (Proc.devRef .tc main_v3)) = RefTerm.dst (aE W) := by
  unfold val1
  simp only [ops_part0]
  after_results_simp
  rfl

set_option maxRecDepth 8192 in
theorem val1_main_v12 : val1 W (no_index (Proc.devRef .tc main_v12)) = RefTerm.invDeg (aE W) := by
  unfold val1
  simp only [ops_part0]
  after_results_simp
  rfl

set_option maxRecDepth 8192 in
theorem val1_main_v42 : val1 W (no_index (Proc.devRef .tc main_v42)) = RefTerm.varOf (RefTerm.pre0 (aX W) (aE W) (aWl W) (aBl W) (aWr W)) := by
  unfold val1
  simp only [ops_part0]
  after_results_simp
  rfl

set_option maxRecDepth 8192 in
theorem val1_main_v47 : val1 W (no_index (Proc.devRef .tc main_v47)) = (subf (F := Ideal) (RefTerm.pre0 (aX W) (aE W) (aWl W) (aBl W) (aWr W)) (broadcastInDim S50000x128 ![0, 1] bcast_S1x128_S50000x128_0_1 (broadcastInDim S1x128 ![1] bcast_S128_S1x128_1 (RefTerm.meanOf (RefTerm.pre0 (aX W) (aE W) (aWl W) (aBl W) (aWr W)))))) := by
  unfold val1
  simp only [ops_part0]
  after_results_simp
  rfl

set_option maxRecDepth 8192 in
theorem val1_main_v49 : val1 W (no_index (Proc.devRef .tc main_v49)) = (broadcastInDim S50000x128 ![0, 1] bcast_S1x128_S50000x128_0_1 (broadcastInDim S1x128 ![1] bcast_S128_S1x128_1 (shapeCast S128 (extractStridedSlice S1x128 ![0, 0] (aG W) slices_S3x128_S1x128_0_0) shapeCasts_S1x128_S128))) := by
  unfold val1
  simp only [ops_part0]
  after_results_simp
  rfl

/-- The buffers' contents after the first 2 stretches. -/
def val2 : Valuation τ sig (Elt Ideal) := after (ops_part1 (F := Ideal)) (val1 W)

theorem val2_main_arg0 : val2 W (no_index (Proc.devRef .tc main_arg0)) = W (Proc.devRef .tc main_arg0) :=
  (ops_part1_keep (val1 W) main_arg0 (by decide)).trans (val1_main_arg0 W)
theorem val2_main_arg1 : val2 W (no_index (Proc.devRef .tc main_arg1)) = W (Proc.devRef .tc main_arg1) :=
  (ops_part1_keep (val1 W) main_arg1 (by decide)).trans (val1_main_arg1 W)
theorem val2_main_arg2 : val2 W (no_index (Proc.devRef .tc main_arg2)) = W (Proc.devRef .tc main_arg2) :=
  (ops_part1_keep (val1 W) main_arg2 (by decide)).trans (val1_main_arg2 W)
theorem val2_main_arg3 : val2 W (no_index (Proc.devRef .tc main_arg3)) = W (Proc.devRef .tc main_arg3) :=
  (ops_part1_keep (val1 W) main_arg3 (by decide)).trans (val1_main_arg3 W)
theorem val2_main_arg4 : val2 W (no_index (Proc.devRef .tc main_arg4)) = W (Proc.devRef .tc main_arg4) :=
  (ops_part1_keep (val1 W) main_arg4 (by decide)).trans (val1_main_arg4 W)
theorem val2_main_arg5 : val2 W (no_index (Proc.devRef .tc main_arg5)) = W (Proc.devRef .tc main_arg5) :=
  (ops_part1_keep (val1 W) main_arg5 (by decide)).trans (val1_main_arg5 W)
theorem val2_main_arg6 : val2 W (no_index (Proc.devRef .tc main_arg6)) = W (Proc.devRef .tc main_arg6) :=
  (ops_part1_keep (val1 W) main_arg6 (by decide)).trans (val1_main_arg6 W)
theorem val2_main_v1 : val2 W (no_index (Proc.devRef .tc main_v1)) = RefTerm.src (aE W) :=
  (ops_part1_keep (val1 W) main_v1 (by decide)).trans (val1_main_v1 W)
theorem val2_main_v3 : val2 W (no_index (Proc.devRef .tc main_v3)) = RefTerm.dst (aE W) :=
  (ops_part1_keep (val1 W) main_v3 (by decide)).trans (val1_main_v3 W)
theorem val2_main_v12 : val2 W (no_index (Proc.devRef .tc main_v12)) = RefTerm.invDeg (aE W) :=
  (ops_part1_keep (val1 W) main_v12 (by decide)).trans (val1_main_v12 W)

set_option maxRecDepth 8192 in
theorem val2_main_v62 : val2 W (no_index (Proc.devRef .tc main_v62)) = (RefTerm.layer0 (aX W) (aE W) (aWl W) (aBl W) (aWr W) (aG W) (aB W)) := by
  unfold val2
  simp only [ops_part1]
  after_results_simp
  simp only [val1_main_arg0, val1_main_arg1, val1_main_arg2, val1_main_arg3, val1_main_arg4, val1_main_arg5, val1_main_arg6, val1_main_v1, val1_main_v3, val1_main_v12, val1_main_v42, val1_main_v47, val1_main_v49]
  rfl

set_option maxRecDepth 8192 in
theorem val2_main_v92 : val2 W (no_index (Proc.devRef .tc main_v92)) = RefTerm.varOf (RefTerm.pre1 (RefTerm.layer0 (aX W) (aE W) (aWl W) (aBl W) (aWr W) (aG W) (aB W)) (aE W) (aWl W) (aBl W) (aWr W)) := by
  unfold val2
  simp only [ops_part1]
  after_results_simp
  simp only [val1_main_arg0, val1_main_arg1, val1_main_arg2, val1_main_arg3, val1_main_arg4, val1_main_arg5, val1_main_arg6, val1_main_v1, val1_main_v3, val1_main_v12, val1_main_v42, val1_main_v47, val1_main_v49]
  rfl

set_option maxRecDepth 8192 in
theorem val2_main_v100 : val2 W (no_index (Proc.devRef .tc main_v100)) = (mulf (F := Ideal) (broadcastInDim S50000x128 ![0, 1] bcast_S1x128_S50000x128_0_1 (broadcastInDim S1x128 ![1] bcast_S128_S1x128_1 (shapeCast S128 (extractStridedSlice S1x128 ![1, 0] (aG W) slices_S3x128_S1x128_1_0) shapeCasts_S1x128_S128))) (subf (F := Ideal) (RefTerm.pre1 (RefTerm.layer0 (aX W) (aE W) (aWl W) (aBl W) (aWr W) (aG W) (aB W)) (aE W) (aWl W) (aBl W) (aWr W)) (broadcastInDim S50000x128 ![0, 1] bcast_S1x128_S50000x128_0_1 (broadcastInDim S1x128 ![1] bcast_S128_S1x128_1 (RefTerm.meanOf (RefTerm.pre1 (RefTerm.layer0 (aX W) (aE W) (aWl W) (aBl W) (aWr W) (aG W) (aB W)) (aE W) (aWl W) (aBl W) (aWr W))))))) := by
  unfold val2
  simp only [ops_part1]
  after_results_simp
  simp only [val1_main_arg0, val1_main_arg1, val1_main_arg2, val1_main_arg3, val1_main_arg4, val1_main_arg5, val1_main_arg6, val1_main_v1, val1_main_v3, val1_main_v12, val1_main_v42, val1_main_v47, val1_main_v49]
  rfl

set_option maxRecDepth 8192 in
theorem val2_main_v101 : val2 W (no_index (Proc.devRef .tc main_v101)) = (broadcastInDim S128 ![] bcast_S_S128 (constant (F := Ideal) S_ .f32 0x3727C5AC#32)) := by
  unfold val2
  simp only [ops_part1]
  after_results_simp

/-- The buffers' contents after the first 3 stretches. -/
def val3 : Valuation τ sig (Elt Ideal) := after (ops_part2 (F := Ideal)) (val2 W)

theorem val3_main_arg0 : val3 W (no_index (Proc.devRef .tc main_arg0)) = W (Proc.devRef .tc main_arg0) :=
  (ops_part2_keep (val2 W) main_arg0 (by decide)).trans (val2_main_arg0 W)
theorem val3_main_arg1 : val3 W (no_index (Proc.devRef .tc main_arg1)) = W (Proc.devRef .tc main_arg1) :=
  (ops_part2_keep (val2 W) main_arg1 (by decide)).trans (val2_main_arg1 W)
theorem val3_main_arg2 : val3 W (no_index (Proc.devRef .tc main_arg2)) = W (Proc.devRef .tc main_arg2) :=
  (ops_part2_keep (val2 W) main_arg2 (by decide)).trans (val2_main_arg2 W)
theorem val3_main_arg3 : val3 W (no_index (Proc.devRef .tc main_arg3)) = W (Proc.devRef .tc main_arg3) :=
  (ops_part2_keep (val2 W) main_arg3 (by decide)).trans (val2_main_arg3 W)
theorem val3_main_arg4 : val3 W (no_index (Proc.devRef .tc main_arg4)) = W (Proc.devRef .tc main_arg4) :=
  (ops_part2_keep (val2 W) main_arg4 (by decide)).trans (val2_main_arg4 W)
theorem val3_main_arg5 : val3 W (no_index (Proc.devRef .tc main_arg5)) = W (Proc.devRef .tc main_arg5) :=
  (ops_part2_keep (val2 W) main_arg5 (by decide)).trans (val2_main_arg5 W)
theorem val3_main_arg6 : val3 W (no_index (Proc.devRef .tc main_arg6)) = W (Proc.devRef .tc main_arg6) :=
  (ops_part2_keep (val2 W) main_arg6 (by decide)).trans (val2_main_arg6 W)

set_option maxRecDepth 8192 in
theorem val3_main_v113 : val3 W (no_index (Proc.devRef .tc main_v113)) = (RefTerm.layer1 (RefTerm.layer0 (aX W) (aE W) (aWl W) (aBl W) (aWr W) (aG W) (aB W)) (aE W) (aWl W) (aBl W) (aWr W) (aG W) (aB W)) := by
  unfold val3
  simp only [ops_part2]
  after_results_simp
  simp only [val2_main_arg0, val2_main_arg1, val2_main_arg2, val2_main_arg3, val2_main_arg4, val2_main_arg5, val2_main_arg6, val2_main_v1, val2_main_v3, val2_main_v12, val2_main_v62, val2_main_v92, val2_main_v100, val2_main_v101]
  rfl

set_option maxRecDepth 8192 in
theorem val3_main_v151 : val3 W (no_index (Proc.devRef .tc main_v151)) = (mulf (F := Ideal) (broadcastInDim S50000x128 ![0, 1] bcast_S1x128_S50000x128_0_1 (broadcastInDim S1x128 ![1] bcast_S128_S1x128_1 (shapeCast S128 (extractStridedSlice S1x128 ![2, 0] (aG W) slices_S3x128_S1x128_2_0) shapeCasts_S1x128_S128))) (subf (F := Ideal) (RefTerm.pre2 (RefTerm.layer1 (RefTerm.layer0 (aX W) (aE W) (aWl W) (aBl W) (aWr W) (aG W) (aB W)) (aE W) (aWl W) (aBl W) (aWr W) (aG W) (aB W)) (aE W) (aWl W) (aBl W) (aWr W)) (broadcastInDim S50000x128 ![0, 1] bcast_S1x128_S50000x128_0_1 (broadcastInDim S1x128 ![1] bcast_S128_S1x128_1 (RefTerm.meanOf (RefTerm.pre2 (RefTerm.layer1 (RefTerm.layer0 (aX W) (aE W) (aWl W) (aBl W) (aWr W) (aG W) (aB W)) (aE W) (aWl W) (aBl W) (aWr W) (aG W) (aB W)) (aE W) (aWl W) (aBl W) (aWr W))))))) := by
  unfold val3
  simp only [ops_part2]
  after_results_simp
  simp only [val2_main_arg0, val2_main_arg1, val2_main_arg2, val2_main_arg3, val2_main_arg4, val2_main_arg5, val2_main_arg6, val2_main_v1, val2_main_v3, val2_main_v12, val2_main_v62, val2_main_v92, val2_main_v100, val2_main_v101]
  rfl

set_option maxRecDepth 8192 in
theorem val3_main_v154 : val3 W (no_index (Proc.devRef .tc main_v154)) = Host.rsqrt (F := Ideal) (addf (F := Ideal) (RefTerm.varOf (RefTerm.pre2 (RefTerm.layer1 (RefTerm.layer0 (aX W) (aE W) (aWl W) (aBl W) (aWr W) (aG W) (aB W)) (aE W) (aWl W) (aBl W) (aWr W) (aG W) (aB W)) (aE W) (aWl W) (aBl W) (aWr W))) (broadcastInDim S128 ![] bcast_S_S128 (constant (F := Ideal) S_ .f32 0x3727C5AC#32))) := by
  unfold val3
  simp only [ops_part2]
  after_results_simp
  simp only [val2_main_arg0, val2_main_arg1, val2_main_arg2, val2_main_arg3, val2_main_arg4, val2_main_arg5, val2_main_arg6, val2_main_v1, val2_main_v3, val2_main_v12, val2_main_v62, val2_main_v92, val2_main_v100, val2_main_v101]
  rfl

/-- The buffers' contents after the first 4 stretches. -/
def val4 : Valuation τ sig (Elt Ideal) := after (ops_part3 (F := Ideal)) (val3 W)

theorem val4_main_arg0 : val4 W (no_index (Proc.devRef .tc main_arg0)) = W (Proc.devRef .tc main_arg0) :=
  (ops_part3_keep (val3 W) main_arg0 (by decide)).trans (val3_main_arg0 W)
theorem val4_main_arg1 : val4 W (no_index (Proc.devRef .tc main_arg1)) = W (Proc.devRef .tc main_arg1) :=
  (ops_part3_keep (val3 W) main_arg1 (by decide)).trans (val3_main_arg1 W)
theorem val4_main_arg2 : val4 W (no_index (Proc.devRef .tc main_arg2)) = W (Proc.devRef .tc main_arg2) :=
  (ops_part3_keep (val3 W) main_arg2 (by decide)).trans (val3_main_arg2 W)
theorem val4_main_arg3 : val4 W (no_index (Proc.devRef .tc main_arg3)) = W (Proc.devRef .tc main_arg3) :=
  (ops_part3_keep (val3 W) main_arg3 (by decide)).trans (val3_main_arg3 W)
theorem val4_main_arg4 : val4 W (no_index (Proc.devRef .tc main_arg4)) = W (Proc.devRef .tc main_arg4) :=
  (ops_part3_keep (val3 W) main_arg4 (by decide)).trans (val3_main_arg4 W)
theorem val4_main_arg5 : val4 W (no_index (Proc.devRef .tc main_arg5)) = W (Proc.devRef .tc main_arg5) :=
  (ops_part3_keep (val3 W) main_arg5 (by decide)).trans (val3_main_arg5 W)
theorem val4_main_arg6 : val4 W (no_index (Proc.devRef .tc main_arg6)) = W (Proc.devRef .tc main_arg6) :=
  (ops_part3_keep (val3 W) main_arg6 (by decide)).trans (val3_main_arg6 W)

set_option maxRecDepth 8192 in
theorem val4_main_v164 : val4 W (no_index (Proc.devRef .tc main_v164)) = RefTerm.refNet (aX W) (aE W) (aWl W) (aBl W) (aWr W) (aG W) (aB W) := by
  unfold val4
  simp only [ops_part3]
  after_results_simp
  simp only [val3_main_arg0, val3_main_arg1, val3_main_arg2, val3_main_arg3, val3_main_arg4, val3_main_arg5, val3_main_arg6, val3_main_v113, val3_main_v151, val3_main_v154]
  rfl

/-- The whole program's fold is the four stretches' folds in turn. -/
theorem after_ops : after (ops (F := Ideal)) W = val4 W := by
  show after (ops_part0 ++ (ops_part1 ++ (ops_part2 ++ ops_part3))) W = _
  rw [Fold.after_append, Fold.after_append, Fold.after_append]
  rfl

end Values

/-- The result buffer after the whole program is the composed network term of the seven arguments' contents. -/
theorem result_eq (W : Valuation τ sig (Elt Ideal)) :
    after (ops (F := Ideal)) W (Proc.devRef .tc main_v164)
      = RefTerm.refNet (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) := by
  rw [after_ops]
  exact val4_main_v164 W

/-- Every weakly fair execution of the reference program terminates with the result buffer at the composed network term of
    the arguments' launch contents and the arguments unchanged. -/
theorem run_net (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v164)
        = RefTerm.refNet (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq (launchContents m c)), (h c).2⟩) (run (F := Ideal) m ρ)

end Cert.ReferenceIdeal.HandRun

end
-- ==== Proof.RefValue.lean ====
/-
  The reference's three layers, read index by index, are the specification's layers with the two-pass variance.

  Each array operation of a layer is read at a coordinate pair (r, j): a slice of a stacked parameter and the cast that
  drops its unit axis read the parameter at (K, ·, ·); a transpose swaps the coordinates; the host product at (r, j) is
  the sum over k of lhs (r, k) · rhs (k, j); a row lifted to [1, H] and then to [N, H] reads the row at j; the host's
  column sum from the zero word is the sum over the rows; the divisor 50000 − 0 is the word of 50000, which is
  positive, so the select keeps the quotient. No finiteness is used: every step is a reading of an operation at an
  index, and 0 + x = x.
-/
import proofs.«154196_j84232898609317_1_alg».proof.Proof.RefTerm
import proofs.«154196_j84232898609317_1_alg».proof.Proof.Spec
import proofs.«154196_j84232898609317_1_alg».proof.Proof.LibPlainDot
import proofs.«154196_j84232898609317_1_alg».proof.Proof.LibLifts
import proofs.«154196_j84232898609317_1_alg».proof.Proof.LibRowColumn
import Idealize.ShloMosaic.Lib.ValueLayout
import Idealize.ShloMosaic.Lib.IdealHost
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

/-! ## Layout operations at coordinates -/

section Layout

variable {α : Type}

/-- Slab o of a stack of three matrices, its unit axis dropped, reads the stack at (o, a, b). -/
theorem slab_apply (o : ℕ) (ho : o < 3) (W : (⟨3, ![3, 128, 128]⟩ : Shape).Idx → α)
    (hs : (⟨3, ![3, 128, 128]⟩ : Shape).Slices ![o, 0, 0] ⟨3, ![1, 128, 128]⟩)
    (hc : (⟨3, ![1, 128, 128]⟩ : Shape).ShapeCasts ⟨2, ![128, 128]⟩) (a b : Fin 128) :
    shapeCast ⟨2, ![128, 128]⟩ (extractStridedSlice ⟨3, ![1, 128, 128]⟩ ![o, 0, 0] W hs) hc (ix2 a b)
      = W (ix3 (⟨o, ho⟩ : Fin 3) a b) :=
  (shapeCast_1ab_ab_apply _ hc a b).trans
    (extractStridedSlice_apply _ _ hs _ _ fun ax => by
      match ax with
      | ⟨0, _⟩ => rfl
      | ⟨1, _⟩ => exact (Nat.zero_add _).symm
      | ⟨2, _⟩ => exact (Nat.zero_add _).symm)

/-- Row o of a [3, H] parameter array, its unit axis dropped, reads the array at (o, j). -/
theorem rowOf_apply (o : ℕ) (ho : o < 3) (v : (⟨2, ![3, 128]⟩ : Shape).Idx → α)
    (hs : (⟨2, ![3, 128]⟩ : Shape).Slices ![o, 0] ⟨2, ![1, 128]⟩)
    (hc : (⟨2, ![1, 128]⟩ : Shape).ShapeCasts ⟨1, ![128]⟩) (j : Fin 128) :
    shapeCast ⟨1, ![128]⟩ (extractStridedSlice ⟨2, ![1, 128]⟩ ![o, 0] v hs) hc (ix1 j) = v (ix2 (⟨o, ho⟩ : Fin 3) j) :=
  (shapeCast_1a_a_apply _ hc j).trans (slice2_axis0_apply o v hs (0 : Fin 1) j ⟨o, ho⟩ rfl)

/-- A row [1, b] repeated down a rows reads, at (r, j), the row at (0, j). -/
theorem bcast_1b_ab_apply {a b : ℕ} (w : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h w (ix2 r j) = w (ix2 (0 : Fin 1) j) := by
  refine broadcastInDim_apply _ h w (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A vector [b] lifted to a row and repeated down a rows reads, at (r, j), the vector at j. -/
theorem bcast_b_ab_apply {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (j : Fin b) :
    broadcastInDim ⟨2, ![a, b]⟩ ![0, 1] h2 (broadcastInDim ⟨2, ![1, b]⟩ ![1] h1 v) (ix2 r j) = v (ix1 j) :=
  (bcast_1b_ab_apply _ h2 r j).trans (Lifts.broadcastInDim_b_1b_apply v h1 0 j)

end Layout

/-! ## The host's product and column sum at coordinates -/

/-- The host product of [N, H] by [H, H] at (r, j): the sum over k of lhs (r, k) · rhs (k, j). -/
theorem dot_apply [Facts] (l : FVec Ideal S50000x128 .f32) (w : FVec Ideal S128x128 .f32) (r : Fin 50000) (j : Fin 128) :
    Host.dotGeneral (F := Ideal) dot_S50000x128_S128x128_S50000x128_1_0_0_1_n_n none l w (ix2 r j)
      = ∑ k : Fin 128, l (ix2 r k) * w (ix2 k j) :=
  PlainDot.dotGeneral_apply_ix2 (M := 50000) (K := 128) (N := 128) none .single l w r j

/-- The host's sum down column j of an [N, H] array from an initial value: that value plus the sum over the rows. -/
theorem colSum_apply (h : FVec Ideal S50000x128 .f32) (init : FVec Ideal S_ .f32)
    (h' : S50000x128.ReducesTo [0] S128) (hu : 0 < S_.numel) (j : Fin 128) :
    Host.reduceAdd (F := Ideal) h init h' hu (ix1 j) = init (Shape.Idx.first hu) + ∑ r : Fin 50000, h (ix2 r j) := by
  refine (hostReduceAdd_apply h init h' hu (ix1 j)).trans ?_
  rw [Ideal.hostReduceAdd_single h' (by decide : S50000x128.Reduces [0] S128)]
  exact congrArg (init (Shape.Idx.first hu) + ·)
    (Finset.sum_congr rfl fun k _ => congrArg h (RowColumn.lift_rows _ j k))

/-! ## The literal words -/

/-- The word 0x47435000 denotes the real 50000. -/
theorem ofBits_N : Ideal.ofBits .f32 0x47435000#32 = ((50000 : ℝ) : EReal) := by
  simp [Ideal.ofBits, Ideal.ieee, -EReal.coe_mul]; norm_num

/-- The variance's divisor, 50000 less the converted integer zero, is the word of 50000. -/
theorem varDiv_apply (i : S_.Idx) : RefTerm.varDiv i = Cert.Sage.cN := by
  show Ideal.ofBits .f32 0x47435000#32 - (((0#32 : BitVec 32).toInt : ℝ) : EReal) = Cert.Sage.cN
  rw [show (0#32 : BitVec 32).toInt = 0 from by decide, Int.cast_zero, EReal.coe_zero, sub_zero]
  rfl

/-- The number of rows is positive. -/
theorem cN_pos : (0 : EReal) < Cert.Sage.cN := by
  unfold Cert.Sage.cN
  rw [ofBits_N]
  exact_mod_cast (by norm_num : (0 : ℝ) < 50000)

/-! ## One layer over already sliced parameters -/

section Layer

variable [Facts]

/-- The pre-normalisation array over a layer's own weight matrices wl, wr : [H, H] (not yet transposed) and bias vector:
    (a · wlᵀ + bias row) + y · wrᵀ, as the reference composes it. -/
def preV (a y : FVec Ideal S50000x128 .f32) (wl wr : FVec Ideal S128x128 .f32) (bias : FVec Ideal S128 .f32) :
    FVec Ideal S50000x128 .f32 :=
  addf (F := Ideal)
    (addf (F := Ideal)
      (Host.dotGeneral (F := Ideal) dot_S50000x128_S128x128_S50000x128_1_0_0_1_n_n none a
        (transpose S128x128 [1, 0] wl transposes_S128x128_S128x128_1_0))
      (broadcastInDim S50000x128 ![0, 1] bcast_S1x128_S50000x128_0_1
        (broadcastInDim S1x128 ![1] bcast_S128_S1x128_1 bias)))
    (Host.dotGeneral (F := Ideal) dot_S50000x128_S128x128_S50000x128_1_0_0_1_n_n none y
      (transpose S128x128 [1, 0] wr transposes_S128x128_S128x128_1_0))

/-- The pre-normalisation array is the specification's, for any transposed weights and bias row that read the layer's own
    at the swapped coordinates. -/
theorem preV_eq (a y : FVec Ideal S50000x128 .f32) (wl wr : FVec Ideal S128x128 .f32) (bias : FVec Ideal S128 .f32)
    (wlT wrT : FVec Ideal Cert.Sage.SHH .f32) (bR : FVec Ideal Cert.Sage.S1H .f32)
    (hl : ∀ k j : Fin 128, wlT (ix2 k j) = wl (ix2 j k)) (hr : ∀ k j : Fin 128, wrT (ix2 k j) = wr (ix2 j k))
    (hb : ∀ j : Fin 128, bR (ix2 (0 : Fin 1) j) = bias (ix1 j)) :
    preV a y wl wr bias = Cert.Sage.lin a y wlT wrT bR := by
  funext i
  obtain ⟨r, j, rfl⟩ : ∃ (r : Fin 50000) (j : Fin 128), i = ix2 r j := ⟨i 0, i 1, eq_ix2 i⟩
  rw [Cert.Sage.lin_ix2]
  unfold Cert.Sage.linAt preV
  rw [addf_apply, addf_apply, dot_apply, dot_apply, bcast_b_ab_apply]
  refine congrArg₂ (· + ·) (congrArg₂ (· + ·) (Finset.sum_congr rfl fun k _ => ?_) (hb j).symm)
    (Finset.sum_congr rfl fun k _ => ?_)
  · rw [transpose_ix2_apply, hl]
  · rw [transpose_ix2_apply, hr]

/-- The reference's column mean at j is the specification's mean row at (0, j). -/
theorem meanOf_apply (h : FVec Ideal S50000x128 .f32) (j : Fin 128) :
    RefTerm.meanOf h (ix1 j) = Cert.Sage.meanRow h (ix2 (0 : Fin 1) j) := by
  unfold RefTerm.meanOf Cert.Sage.meanRow
  rw [hostDivf_apply, colSum_apply, broadcastInDim_scalar_apply, Cert.Sage.colSum_ix2, constant_apply, constant_apply,
    Ideal.ofBits_zero_f32, zero_add]
  rfl

/-- The mean the variance subtracts — divided as a row [1, H], then repeated down the rows — is the same mean row. -/
theorem devMean_apply (h : FVec Ideal S50000x128 .f32) (r : Fin 50000) (j : Fin 128) :
    broadcastInDim S50000x128 ![0, 1] bcast_S1x128_S50000x128_0_1
        (Host.divf (F := Ideal)
          (broadcastInDim S1x128 ![1] bcast_S128_S1x128_1
            (Host.reduceAdd (F := Ideal) h (constant (F := Ideal) S_ .f32 0x00000000#32) reducesTo_S50000x128_S128_d0 h_S_))
          (broadcastInDim S1x128 ![] bcast_S_S1x128 (constant (F := Ideal) S_ .f32 0x47435000#32))) (ix2 r j)
      = Cert.Sage.meanRow h (ix2 (0 : Fin 1) j) := by
  unfold Cert.Sage.meanRow
  rw [bcast_1b_ab_apply, hostDivf_apply, Lifts.broadcastInDim_b_1b_apply, colSum_apply, broadcastInDim_scalar_apply,
    Cert.Sage.colSum_ix2, constant_apply, constant_apply, Ideal.ofBits_zero_f32, zero_add]
  rfl

/-- The comparison "divisor > 0" holds. -/
theorem cond_true : Ideal.cmp .ogt Cert.Sage.cN 0 = 1#1 := by
  show BitVec.ofBool (decide ((0 : EReal) < Cert.Sage.cN)) = 1#1
  rw [decide_eq_true cN_pos]
  rfl

/-- The specification's two-pass variance row at (u, j). -/
theorem var2Row_ix2 (h : FVec Ideal Cert.Sage.SNH .f32) (u : Fin 1) (j : Fin 128) :
    Cert.Sage.var2Row h (ix2 u j)
      = Ideal.div (∑ r : Fin 50000, (h (ix2 r j) - Cert.Sage.meanRow h (ix2 u j)) * (h (ix2 r j) - Cert.Sage.meanRow h (ix2 u j)))
          Cert.Sage.cN := rfl

/-- The reference's variance at j is the specification's two-pass variance row at (0, j): the divisor is positive, so the
    select keeps the quotient. -/
theorem varOf_apply (h : FVec Ideal S50000x128 .f32) (j : Fin 128) :
    RefTerm.varOf h (ix1 j) = Cert.Sage.var2Row h (ix2 (0 : Fin 1) j) := by
  unfold RefTerm.varOf
  rw [select_apply, broadcastInDim_scalar_apply, cmpf_apply, Ideal.cmpf_def, varDiv_apply, constant_apply,
    Ideal.ofBits_zero_f32, cond_true, select_one, hostDivf_apply, colSum_apply, broadcastInDim_scalar_apply, varDiv_apply,
    constant_apply, Ideal.ofBits_zero_f32, zero_add, var2Row_ix2]
  refine congrArg (Ideal.div · Cert.Sage.cN) (Finset.sum_congr rfl fun r _ => ?_)
  rw [mulf_apply, subf_apply, devMean_apply]

/-- The host's reciprocal square root at an index. -/
theorem hostRsqrt_apply {s : Shape} {φ : FTy} (x : FVec Ideal s φ) (i : s.Idx) :
    Host.rsqrt (F := Ideal) x i = Ideal.rsqrt (x i) := rfl

/-- Normalise, scale, shift, rectify: the reference's composition is the specification's, with the column mean and the
    two-pass variance, for any rows gR, bR that read the vectors gm, bt. -/
theorem bnRelu_eq (h : FVec Ideal S50000x128 .f32) (gm bt : FVec Ideal S128 .f32) (gR bR : FVec Ideal Cert.Sage.S1H .f32)
    (hg : ∀ j : Fin 128, gR (ix2 (0 : Fin 1) j) = gm (ix1 j)) (hb : ∀ j : Fin 128, bR (ix2 (0 : Fin 1) j) = bt (ix1 j)) :
    RefTerm.bnRelu h gm bt
      = Cert.Sage.bn h (Cert.Sage.meanRow h) (Cert.Sage.sigmaRow (Cert.Sage.var2Row h)) gR bR := by
  funext i
  obtain ⟨r, j, rfl⟩ : ∃ (r : Fin 50000) (j : Fin 128), i = ix2 r j := ⟨i 0, i 1, eq_ix2 i⟩
  rw [Cert.Sage.bn_ix2]
  unfold Cert.Sage.bnAt Cert.Sage.sigmaRow RefTerm.bnRelu
  rw [maximumf_apply, addf_apply, mulf_apply, mulf_apply, subf_apply, bcast_b_ab_apply, bcast_b_ab_apply, bcast_b_ab_apply,
    bcast_b_ab_apply, meanOf_apply, hostRsqrt_apply, addf_apply, varOf_apply, broadcastInDim_scalar_apply,
    broadcastInDim_scalar_apply, constant_apply, constant_apply, Ideal.ofBits_zero_f32, hg, hb]
  rfl

end Layer

/-! ## The three layers -/

section Assembly

variable [Facts]

/-- One layer without the residual, over slab o of the stacked parameters: the specification's layer o. -/
theorem layerCore_eq (o : ℕ) (ho : o < 3) (hsW : S3x128x128.Slices ![o, 0, 0] S1x128x128) (hsV : S3x128.Slices ![o, 0] S1x128)
    (a y : FVec Ideal S50000x128 .f32) (Wl : FVec Ideal S3x128x128 .f32) (bl : FVec Ideal S3x128 .f32)
    (Wr : FVec Ideal S3x128x128 .f32) (g b : FVec Ideal S3x128 .f32) :
    RefTerm.bnRelu
        (preV a y
          (shapeCast S128x128 (extractStridedSlice S1x128x128 ![o, 0, 0] Wl hsW) shapeCasts_S1x128x128_S128x128)
          (shapeCast S128x128 (extractStridedSlice S1x128x128 ![o, 0, 0] Wr hsW) shapeCasts_S1x128x128_S128x128)
          (shapeCast S128 (extractStridedSlice S1x128 ![o, 0] bl hsV) shapeCasts_S1x128_S128))
        (shapeCast S128 (extractStridedSlice S1x128 ![o, 0] g hsV) shapeCasts_S1x128_S128)
        (shapeCast S128 (extractStridedSlice S1x128 ![o, 0] b hsV) shapeCasts_S1x128_S128)
      = Cert.Sage.layer0 Cert.Sage.var2Row a y Wl bl Wr g b (⟨o, ho⟩ : Fin 3) := by
  have hp := preV_eq a y
    (shapeCast S128x128 (extractStridedSlice S1x128x128 ![o, 0, 0] Wl hsW) shapeCasts_S1x128x128_S128x128)
    (shapeCast S128x128 (extractStridedSlice S1x128x128 ![o, 0, 0] Wr hsW) shapeCasts_S1x128x128_S128x128)
    (shapeCast S128 (extractStridedSlice S1x128 ![o, 0] bl hsV) shapeCasts_S1x128_S128)
    (Cert.Sage.wT Wl ⟨o, ho⟩) (Cert.Sage.wT Wr ⟨o, ho⟩) (Cert.Sage.row3 bl ⟨o, ho⟩)
    (fun k j => (Cert.Sage.wT_ix2 Wl ⟨o, ho⟩ k j).trans (slab_apply o ho Wl hsW _ j k).symm)
    (fun k j => (Cert.Sage.wT_ix2 Wr ⟨o, ho⟩ k j).trans (slab_apply o ho Wr hsW _ j k).symm)
    (fun j => (Cert.Sage.row3_ix2 bl ⟨o, ho⟩ 0 j).trans (rowOf_apply o ho bl hsV _ j).symm)
  rw [hp]
  unfold Cert.Sage.layer0
  exact bnRelu_eq _ _ _ _ _
    (fun j => (Cert.Sage.row3_ix2 g ⟨o, ho⟩ 0 j).trans (rowOf_apply o ho g hsV _ j).symm)
    (fun j => (Cert.Sage.row3_ix2 b ⟨o, ho⟩ 0 j).trans (rowOf_apply o ho b hsV _ j).symm)

/-- One layer with the layer's input added back: the specification's residual layer o. -/
theorem layerRes_eq (o : ℕ) (ho : o < 3) (hsW : S3x128x128.Slices ![o, 0, 0] S1x128x128) (hsV : S3x128.Slices ![o, 0] S1x128)
    (a y : FVec Ideal S50000x128 .f32) (Wl : FVec Ideal S3x128x128 .f32) (bl : FVec Ideal S3x128 .f32)
    (Wr : FVec Ideal S3x128x128 .f32) (g b : FVec Ideal S3x128 .f32) :
    addf (F := Ideal)
      (RefTerm.bnRelu
        (preV a y
          (shapeCast S128x128 (extractStridedSlice S1x128x128 ![o, 0, 0] Wl hsW) shapeCasts_S1x128x128_S128x128)
          (shapeCast S128x128 (extractStridedSlice S1x128x128 ![o, 0, 0] Wr hsW) shapeCasts_S1x128x128_S128x128)
          (shapeCast S128 (extractStridedSlice S1x128 ![o, 0] bl hsV) shapeCasts_S1x128_S128))
        (shapeCast S128 (extractStridedSlice S1x128 ![o, 0] g hsV) shapeCasts_S1x128_S128)
        (shapeCast S128 (extractStridedSlice S1x128 ![o, 0] b hsV) shapeCasts_S1x128_S128)) y
      = Cert.Sage.layerR Cert.Sage.var2Row a y Wl bl Wr g b (⟨o, ho⟩ : Fin 3) := by
  funext i
  rw [addf_apply, layerCore_eq o ho hsW hsV a y Wl bl Wr g b]
  rfl

/-- The first layer of the reference is the specification's layer 0 with the two-pass variance. -/
theorem layer0_eq (y : FVec Ideal S50000x128 .f32) (e : IVec S2x800000 32) (Wl : FVec Ideal S3x128x128 .f32)
    (bl : FVec Ideal S3x128 .f32) (Wr : FVec Ideal S3x128x128 .f32) (g b : FVec Ideal S3x128 .f32) :
    RefTerm.layer0 y e Wl bl Wr g b = Cert.Sage.layer0 Cert.Sage.var2Row (RefTerm.agg y e) y Wl bl Wr g b 0 :=
  layerCore_eq 0 (by decide) slices_S3x128x128_S1x128x128_0_0_0 slices_S3x128_S1x128_0_0 (RefTerm.agg y e) y Wl bl Wr g b

/-- The second layer of the reference is the specification's residual layer 1 with the two-pass variance. -/
theorem layer1_eq (y : FVec Ideal S50000x128 .f32) (e : IVec S2x800000 32) (Wl : FVec Ideal S3x128x128 .f32)
    (bl : FVec Ideal S3x128 .f32) (Wr : FVec Ideal S3x128x128 .f32) (g b : FVec Ideal S3x128 .f32) :
    RefTerm.layer1 y e Wl bl Wr g b = Cert.Sage.layerR Cert.Sage.var2Row (RefTerm.agg y e) y Wl bl Wr g b 1 :=
  layerRes_eq 1 (by decide) slices_S3x128x128_S1x128x128_1_0_0 slices_S3x128_S1x128_1_0 (RefTerm.agg y e) y Wl bl Wr g b

/-- The third layer of the reference is the specification's residual layer 2 with the two-pass variance. -/
theorem layer2_eq (y : FVec Ideal S50000x128 .f32) (e : IVec S2x800000 32) (Wl : FVec Ideal S3x128x128 .f32)
    (bl : FVec Ideal S3x128 .f32) (Wr : FVec Ideal S3x128x128 .f32) (g b : FVec Ideal S3x128 .f32) :
    RefTerm.layer2 y e Wl bl Wr g b = Cert.Sage.layerR Cert.Sage.var2Row (RefTerm.agg y e) y Wl bl Wr g b 2 :=
  layerRes_eq 2 (by decide) slices_S3x128x128_S1x128x128_2_0_0 slices_S3x128_S1x128_2_0 (RefTerm.agg y e) y Wl bl Wr g b

end Assembly

end Cert.ReferenceIdeal.RefValue

end
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«154196_j84232898609317_1_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.RefAggReal.lean ====
/-
  The neighbour means of an array of reals are reals.

  Entry (n, f) of the aggregation is (0 + Σ_e [dst e = n] · y (src' e, f)) · 1 / max (0 + Σ_e [dst e = n] · 1, 1): a finite sum
  of reals is a real, the maximum of a real and 1 is a real that is not zero, and the exact quotient of 1 by it is a real.
-/
import proofs.«154196_j84232898609317_1_alg».proof.Proof.RefTerm
import proofs.«154196_j84232898609317_1_alg».proof.Proof.LibLeadingAxis
import proofs.«154196_j84232898609317_1_alg».proof.Proof.LibHostRow
import Idealize.ShloMosaic.Lib.IdealHost

noncomputable section

open scoped BigOperators

namespace Cert.ReferenceIdeal.RefAggReal

open Idealize.ShloMosaic Idealize.ShloMosaic.ValueIdx
open Cert.ReferenceIdeal Cert.ReferenceIdeal.Facts₀ Cert.ReferenceIdeal.Facts

/-! ## Reals among the extended reals are closed under the operations used -/

theorem real_zero : ∃ a : ℝ, (0 : EReal) = (a : EReal) := ⟨0, rfl⟩

theorem real_one : ∃ a : ℝ, (1 : EReal) = (a : EReal) := ⟨1, rfl⟩

theorem real_add {x y : EReal} (hx : ∃ a : ℝ, x = (a : EReal)) (hy : ∃ a : ℝ, y = (a : EReal)) :
    ∃ a : ℝ, x + y = (a : EReal) := by
  obtain ⟨a, rfl⟩ := hx
  obtain ⟨b, rfl⟩ := hy
  exact ⟨a + b, (EReal.coe_add a b).symm⟩

theorem real_mul {x y : EReal} (hx : ∃ a : ℝ, x = (a : EReal)) (hy : ∃ a : ℝ, y = (a : EReal)) :
    ∃ a : ℝ, x * y = (a : EReal) := by
  obtain ⟨a, rfl⟩ := hx
  obtain ⟨b, rfl⟩ := hy
  exact ⟨a * b, (EReal.coe_mul a b).symm⟩

theorem real_ite {p : Prop} [Decidable p] {x y : EReal} (hx : ∃ a : ℝ, x = (a : EReal)) (hy : ∃ a : ℝ, y = (a : EReal)) :
    ∃ a : ℝ, (if p then x else y) = (a : EReal) := by
  split
  · exact hx
  · exact hy

theorem real_sum {ι : Type} (s : Finset ι) (f : ι → EReal) (hf : ∀ i ∈ s, ∃ a : ℝ, f i = (a : EReal)) :
    ∃ a : ℝ, ∑ i ∈ s, f i = (a : EReal) := by
  classical
  induction s using Finset.induction_on with
  | empty => exact ⟨0, by simp⟩
  | insert i s hi ih =>
    rw [Finset.sum_insert hi]
    exact real_add (hf i (Finset.mem_insert_self i s)) (ih fun j hj => hf j (Finset.mem_insert_of_mem hj))

/-- The exact quotient of 1 by the maximum of a real and 1 is a real: the divisor is at least 1, so it is not zero. -/
theorem real_inv_max_one {x : EReal} (hx : ∃ a : ℝ, x = (a : EReal)) : ∃ a : ℝ, Ideal.div 1 (max x 1) = (a : EReal) := by
  obtain ⟨d, rfl⟩ := hx
  have hm : max ((d : ℝ) : EReal) 1 = ((max d 1 : ℝ) : EReal) := by
    rw [← EReal.coe_one]; exact (EReal.coe_strictMono.monotone.map_max).symm
  have hne : (max d 1 : ℝ) ≠ 0 := ne_of_gt (lt_of_lt_of_le one_pos (le_max_right d 1))
  rw [hm, Ideal.div_coe hne, one_mul]
  exact ⟨_, rfl⟩

/-- A word of a real, repeated over any shape, is a real at every index. -/
theorem splat_real {T : Shape} (h : S_.BroadcastsInDim T ![]) (w : BitVec 32)
    (hw : ∃ a : ℝ, Ideal.ofBits .f32 w = (a : EReal)) (j : T.Idx) :
    ∃ a : ℝ, broadcastInDim T ![] h (constant (F := Ideal) S_ .f32 w) j = (a : EReal) := by
  rw [broadcastInDim_scalar_apply]
  exact hw

theorem zeroWord_real : ∃ a : ℝ, Ideal.ofBits .f32 0x00000000#32 = (a : EReal) := ⟨0, Ideal.ofBits_zero_f32⟩

theorem oneWord_real : ∃ a : ℝ, Ideal.ofBits .f32 0x3F800000#32 = (a : EReal) := ⟨1, Ideal.ofBits_one_f32⟩

section Agg

variable [Facts]

/-- The in-degree of node n: zero plus one for every edge whose destination is n. -/
theorem deg_apply (e : IVec S2x800000 32) (n : Fin 50000) :
    RefTerm.deg e (ix1 n)
      = broadcastInDim S50000 ![] bcast_S_S50000 (constant (F := Ideal) S_ .f32 0x00000000#32) (ix1 n)
        + ∑ k : Fin 800000,
            if (broadcastInDim S800000x1 ![0] bcast_S800000_S800000x1_0 (RefTerm.dst e) (ix2 k 0)).toInt = (n.val : Int)
            then broadcastInDim S800000 ![] bcast_S_S800000 (constant (F := Ideal) S_ .f32 0x3F800000#32) (ix1 k) else 0 :=
  LeadingAxis.scatterAdd_vec_apply scatter_S50000_S800000x1_S800000_n_0_0_1_wf _ _ _ n

theorem deg_real (e : IVec S2x800000 32) (n : Fin 50000) : ∃ a : ℝ, RefTerm.deg e (ix1 n) = (a : EReal) := by
  rw [deg_apply]
  exact real_add (splat_real _ _ zeroWord_real _)
    (real_sum _ _ fun k _ => real_ite (splat_real _ _ oneWord_real _) real_zero)

/-- 1 / max(in-degree, 1), repeated along the columns, is a real at every entry. -/
theorem invDeg_real (e : IVec S2x800000 32) (n : Fin 50000) (f : Fin 128) :
    ∃ a : ℝ, broadcastInDim S50000x128 ![0, 1] bcast_S50000x1_S50000x128_0_1 (RefTerm.invDeg e) (ix2 n f) = (a : EReal) := by
  unfold RefTerm.invDeg
  rw [HostRow.bcast_a_ab_apply, hostDivf_apply, maximumf_apply, broadcastInDim_scalar_apply, constant_apply,
    Ideal.ofBits_one_f32]
  exact real_inv_max_one (deg_real e n)

/-- The sum of the gathered source rows that land on node n, at column f. -/
theorem scattered_apply (y : FVec Ideal S50000x128 .f32) (e : IVec S2x800000 32) (n : Fin 50000) (f : Fin 128) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (RefTerm.dst e))
        (Host.gather gather_S50000x128_S800000x1_S800000x128_1_0_n_n_0_1_1128 y
          (broadcastInDim S800000x1 ![0] bcast_S800000_S800000x1_0 (RefTerm.srcN e))) (ix2 n f)
      = broadcastInDim S50000x128 ![] bcast_S_S50000x128 (constant (F := Ideal) S_ .f32 0x00000000#32) (ix2 n f)
        + ∑ k : Fin 800000,
            if (broadcastInDim S800000x1 ![0] bcast_S800000_S800000x1_0 (RefTerm.dst e) (ix2 k 0)).toInt = (n.val : Int)
            then Host.gather gather_S50000x128_S800000x1_S800000x128_1_0_n_n_0_1_1128 y
              (broadcastInDim S800000x1 ![0] bcast_S800000_S800000x1_0 (RefTerm.srcN e)) (ix2 k f) else 0 :=
  LeadingAxis.scatterAdd_rows_apply scatter_S50000x128_S800000x1_S800000x128_1_0_0_1_wf _ _ _ n f

/-- A gathered row is a row of y. -/
theorem gathered_apply (y : FVec Ideal S50000x128 .f32) (idx : IVec S800000x1 32) (k : Fin 800000) (f : Fin 128) :
    Host.gather gather_S50000x128_S800000x1_S800000x128_1_0_n_n_0_1_1128 y idx (ix2 k f)
      = y (ix2 (LeadingAxis.clampRow 50000 (by decide) (idx (ix2 k 0))) f) :=
  LeadingAxis.gather_rows_apply (by decide) gather_S50000x128_S800000x1_S800000x128_1_0_n_n_0_1_1128_wf y idx k f

/-- The neighbour means of an array of reals are reals. -/
theorem agg_real (y : FVec Ideal S50000x128 .f32) (e : IVec S2x800000 32) (hy : ∀ i, ∃ a : ℝ, y i = (a : EReal)) :
    ∀ i, ∃ a : ℝ, RefTerm.agg y e i = (a : EReal) := by
  intro i
  obtain ⟨n, f, rfl⟩ : ∃ (n : Fin 50000) (f : Fin 128), i = ix2 n f := ⟨i 0, i 1, eq_ix2 i⟩
  unfold RefTerm.agg
  rw [mulf_apply, scattered_apply]
  refine real_mul (real_add (splat_real _ _ zeroWord_real _) (real_sum _ _ fun k _ => real_ite ?_ real_zero))
    (invDeg_real e n f)
  rw [gathered_apply]
  exact hy _

end Agg

end Cert.ReferenceIdeal.RefAggReal

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.PreReal.lean ====
/-
  The precondition read entry by entry: when the test "every float input is finite" is all ones, every entry of each
  of the six float arguments is a real number. The test is a conjunction of one "all entries compare below +∞ in
  absolute value" per array; a conjunction that is 1 has both conjuncts 1, a reduction by "and" into one result that is 1
  had 1 at every operand index, and an extended real whose absolute value is below ⊤ is a real.
-/
import proofs.«154196_j84232898609317_1_alg».proof.Pre_finite_inputs
import proofs.«154196_j84232898609317_1_alg».proof.Proof.LibFiniteTest
import proofs.«154196_j84232898609317_1_alg».proof.Proof.Math
import Idealize.ShloMosaic.Lib.ReduceAll
import Idealize.ShloMosaic.Lib.Affine

noncomputable section

namespace Cert.Pre_finite_inputs.Reals

open Idealize.ShloMosaic Idealize.ShloMosaic.ValueIdx Cert.Pre_finite_inputs Cert.Pre_finite_inputs.Facts Cert.Sage

variable [Cert.Pre_finite_inputs.Facts]

theorem reals (x : FVec Ideal S50000x128 .f32) (e : IVec S2x800000 32) (Wl : FVec Ideal S3x128x128 .f32)
    (bl : FVec Ideal S3x128 .f32) (Wr : FVec Ideal S3x128x128 .f32) (g b : FVec Ideal S3x128 .f32)
    (h : fn (F := Ideal) x e Wl bl Wr g b = fun _ => 1#1) :
    IsReal x ∧ IsReal Wl ∧ IsReal bl ∧ IsReal Wr ∧ IsReal g ∧ IsReal b := by
  have h0 := congrFun h ix0
  dsimp only [fn, fn_part1] at h0
  haveI := Idealize.ShloMosaic.FiniteTest.subsingleton_scalarIdx
  obtain ⟨h5, t6⟩ := IntOp.andi_eq_one.1 (show IntOp.andi _ _ = 1#1 from h0)
  obtain ⟨h4, t5⟩ := IntOp.andi_eq_one.1 (show IntOp.andi _ _ = 1#1 from h5)
  obtain ⟨h3, t4⟩ := IntOp.andi_eq_one.1 (show IntOp.andi _ _ = 1#1 from h4)
  obtain ⟨h2, t3⟩ := IntOp.andi_eq_one.1 (show IntOp.andi _ _ = 1#1 from h3)
  obtain ⟨t0, t2⟩ := IntOp.andi_eq_one.1 (show IntOp.andi _ _ = 1#1 from h2)
  exact ⟨fun i => Idealize.ShloMosaic.FiniteTest.real_of_test x _ i (Host.reduce_andi_all _ _ _ _ _ t0 i),
    fun i => Idealize.ShloMosaic.FiniteTest.real_of_test Wl _ i (Host.reduce_andi_all _ _ _ _ _ t2 i),
    fun i => Idealize.ShloMosaic.FiniteTest.real_of_test bl _ i (Host.reduce_andi_all _ _ _ _ _ t3 i),
    fun i => Idealize.ShloMosaic.FiniteTest.real_of_test Wr _ i (Host.reduce_andi_all _ _ _ _ _ t4 i),
    fun i => Idealize.ShloMosaic.FiniteTest.real_of_test g _ i (Host.reduce_andi_all _ _ _ _ _ t5 i),
    fun i => Idealize.ShloMosaic.FiniteTest.real_of_test b _ i (Host.reduce_andi_all _ _ _ _ _ t6 i)⟩

end Cert.Pre_finite_inputs.Reals

end
-- ==== Proof.Bridge.lean ====
/-
  The two idealized programs compute one function.

  The kernel program's result is the three-layer network of the specification with the ONE-pass variance
  E[h²] − (E h)² of each column (its linear regions accumulate the column sums of h and of h², the host divides); the
  reference's is the same network with the TWO-pass variance E[(h − E h)²] (jnp.var). The aggregation — gather the
  source rows, add them at the destination rows, scale by the reciprocal degree — is the same host operations in both
  programs. Under the precondition every float argument has real entries; the aggregation, the linear part, the
  statistics and the normalisation keep entries real, and on real columns the two variances agree; so, layer by layer,
  the two networks are equal.
-/
import proofs.«154196_j84232898609317_1_alg».proof.Defs
import proofs.«154196_j84232898609317_1_alg».proof.Proof.KRun
import proofs.«154196_j84232898609317_1_alg».proof.Proof.KChain
import proofs.«154196_j84232898609317_1_alg».proof.Proof.Gemm0
import proofs.«154196_j84232898609317_1_alg».proof.Proof.Gemm2
import proofs.«154196_j84232898609317_1_alg».proof.Proof.Gemm4
import proofs.«154196_j84232898609317_1_alg».proof.Proof.Bn1
import proofs.«154196_j84232898609317_1_alg».proof.Proof.Bn3
import proofs.«154196_j84232898609317_1_alg».proof.Proof.Bn5
import proofs.«154196_j84232898609317_1_alg».proof.Proof.RefResult
import proofs.«154196_j84232898609317_1_alg».proof.Proof.RefValue
import proofs.«154196_j84232898609317_1_alg».proof.Proof.RefAggReal
import proofs.«154196_j84232898609317_1_alg».proof.Proof.PreReal
import proofs.«154196_j84232898609317_1_alg».proof.Proof.Math
import proofs.«154196_j84232898609317_1_alg».proof.Proof.Gen.Pre_finite_inputs

noncomputable section

namespace Cert.Proof.Bridge

open Idealize.ShloMosaic Idealize.ShloMosaic.TcCoe Idealize.SL.Sem Cert.Sage

/-- The six regions' closed forms. -/
theorem regionValues : Cert.KernelIdeal.KChain.RegionValues where
  g0_5 := Cert.KernelIdeal.Gemm0.final5
  g0_6 := Cert.KernelIdeal.Gemm0.final6
  g0_7 := Cert.KernelIdeal.Gemm0.final7
  b1 := Cert.KernelIdeal.Bn1.final
  g2_5 := Cert.KernelIdeal.Gemm2.final5
  g2_6 := Cert.KernelIdeal.Gemm2.final6
  g2_7 := Cert.KernelIdeal.Gemm2.final7
  b3 := Cert.KernelIdeal.Bn3.final
  g4_5 := Cert.KernelIdeal.Gemm4.final5
  g4_6 := Cert.KernelIdeal.Gemm4.final6
  g4_7 := Cert.KernelIdeal.Gemm4.final7
  b5 := Cert.KernelIdeal.Bn5.final

open Cert.ReferenceIdeal in
/-- The reference's composed result is the network with the two-pass variance. -/
theorem refNet_eq (x : FVec Ideal S50000x128 .f32) (e : IVec S2x800000 32) (Wl : FVec Ideal S3x128x128 .f32)
    (bl : FVec Ideal S3x128 .f32) (Wr : FVec Ideal S3x128x128 .f32) (g b : FVec Ideal S3x128 .f32) :
    RefTerm.refNet x e Wl bl Wr g b = net var2Row (fun y => RefTerm.agg y e) x Wl bl Wr g b := by
  unfold RefTerm.refNet
  rw [RefValue.layer2_eq, RefValue.layer1_eq, RefValue.layer0_eq]
  rfl

/-- The aggregation keeps entries real (the kernel program's term is the reference's). -/
theorem agg_real (e : IVec Cert.ReferenceIdeal.S2x800000 32) (y : FVec Ideal SNH .f32) (hy : IsReal y) :
    IsReal (Cert.ReferenceIdeal.RefTerm.agg y e) :=
  Cert.ReferenceIdeal.RefAggReal.agg_real y e hy

/-- At `Ideal`, from memories agreeing on the arguments and under the precondition, both programs run and end with
    equal results and unchanged arguments. -/
theorem algebraic : Cert.algebraic_KernelIdeal_ReferenceIdeal := by
  intro m ρ m' ρ' hpre hagree
  refine ⟨fun c => net var1Row (fun y => Cert.KernelIdeal.KTerm.agg y (Cert.KernelIdeal.KChain.aE m c))
      (Cert.KernelIdeal.KChain.aX m c) (Cert.KernelIdeal.KChain.aWl m c) (Cert.KernelIdeal.KChain.aBl m c)
      (Cert.KernelIdeal.KChain.aWr m c) (Cert.KernelIdeal.KChain.aG m c) (Cert.KernelIdeal.KChain.aB m c), ?_, ?_⟩
  · exact (θ_run Cert.KernelIdeal.defs _ _).mono
      (fun r h c => ⟨(h c).1.trans (Cert.KernelIdeal.KChain.result_eq m ρ c regionValues), (h c).2⟩)
      (Cert.KernelIdeal.KRun.run (F := Ideal) m ρ)
  · refine (θ_run Cert.ReferenceIdeal.defs _ _).mono (fun r h c => ⟨(h c).1.trans ?_, (h c).2⟩)
      (Cert.ReferenceIdeal.HandRun.run_net m' ρ')
    obtain ⟨hx, hWl, hbl, hWr, hg, hb⟩ := Cert.Pre_finite_inputs.Reals.reals _ _ _ _ _ _ _ (hpre c)
    rw [(hagree c).1, (hagree c).2.1, (hagree c).2.2.1, (hagree c).2.2.2.1, (hagree c).2.2.2.2.1,
      (hagree c).2.2.2.2.2.1, (hagree c).2.2.2.2.2.2, refNet_eq]
    exact (net_var (ag := fun y => Cert.ReferenceIdeal.RefTerm.agg y _) (fun y hy => agg_real _ y hy)
      hx hWl hbl hWr hg hb).symm

end Cert.Proof.Bridge

end
-- ==== Proof.lean ====
/-
  The certificate's claim. Both printed kernel programs have their whole frame proved by the generated frame modules
  (six regions among host stretches); the reference, a host-only program, has its frame from its run; the ideal pass
  rewrote nothing, so the idealization claim is trivial; and the two idealized programs end with equal results because
  both compute the three-layer mean-aggregation network with batch normalisation — the kernel with the one-pass variance
  of each column, the reference with the two-pass variance, which agree on the real columns the precondition gives.
-/
import proofs.«154196_j84232898609317_1_alg».proof.Defs
import proofs.«154196_j84232898609317_1_alg».proof.Proof.Gen.Kernel
import proofs.«154196_j84232898609317_1_alg».proof.Proof.Gen.Kernel.Frame
import proofs.«154196_j84232898609317_1_alg».proof.Proof.Gen.KernelIdeal
import proofs.«154196_j84232898609317_1_alg».proof.Proof.Gen.KernelIdeal.Frame
import proofs.«154196_j84232898609317_1_alg».proof.Proof.Gen.ReferenceIdeal
import proofs.«154196_j84232898609317_1_alg».proof.Proof.Gen.Pre_finite_inputs
import proofs.«154196_j84232898609317_1_alg».proof.Proof.RefRun
import proofs.«154196_j84232898609317_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Bridge.algebraic⟩

end Cert.Proof

end
